-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S2x1600000 : Shape := ⟨2, ![2, 1600000]⟩
abbrev S800000 : Shape := ⟨1, ![800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S20000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : IVec S2x1600000 32) (main_arg9 : IVec S800000 32) (main_arg10 : IVec S800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S2x1600000 : Shape := ⟨2, ![2, 1600000]⟩
abbrev S800000 : Shape := ⟨1, ![800000]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000x128 : Shape := ⟨2, ![2000, 128]⟩
abbrev S2000x1 : Shape := ⟨2, ![2000, 1]⟩
abbrev S1600000x128 : Shape := ⟨2, ![1600000, 128]⟩
abbrev S800000x1 : Shape := ⟨2, ![800000, 1]⟩
abbrev S800000x128 : Shape := ⟨2, ![800000, 128]⟩
abbrev S2000 : Shape := ⟨1, ![2000]⟩

abbrev nBuf : Space → Nat
  | .hbm => 77
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S2x1600000, .i32⟩
  | .hbm, ⟨9, _⟩ => ⟨S800000, .i32⟩
  | .hbm, ⟨10, _⟩ => ⟨S800000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .bf16⟩
  | .hbm, ⟨37, _⟩ => ⟨S20000x128, .bf16⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .bf16⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .bf16⟩
  | .hbm, ⟨61, _⟩ => ⟨S800000x128, .f32⟩
  | .hbm, ⟨62, _⟩ => ⟨S_, .f32⟩
  | .hbm, ⟨63, _⟩ => ⟨S100000x128, .f32⟩
  | .hbm, ⟨64, _⟩ => ⟨S800000x1, .i32⟩
  | .hbm, ⟨65, _⟩ => ⟨S100000x128, .f32⟩
  | .hbm, ⟨66, _⟩ => ⟨S_, .f32⟩
  | .hbm, ⟨67, _⟩ => ⟨S800000, .f32⟩
  | .hbm, ⟨68, _⟩ => ⟨S_, .f32⟩
  | .hbm, ⟨69, _⟩ => ⟨S100000, .f32⟩
  | .hbm, ⟨70, _⟩ => ⟨S800000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S128x128, .f32⟩
  | .local _ .vmem, ⟨10, _⟩ => ⟨S1x128, .f32⟩
  | .local _ .vmem, ⟨11, _⟩ => ⟨S2000x128, .bf16⟩
  | .local _ .vmem, ⟨12, _⟩ => ⟨S2000x128, .bf16⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .bf16⟩
  | .local _ .vmem, ⟨18, _⟩ => ⟨S2000x128, .bf16⟩
  | .local _ .vmem, ⟨19, _⟩ => ⟨S2000x1, .f32⟩
  | .local _ .vmem, ⟨20, _⟩ => ⟨S2000x1, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S128x128, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S100000x128 : S_.BroadcastsInDim S100000x128 (![] : Fin 0 → Fin S100000x128.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S2000x128_S2000x128 : S2000x128.ShapeCasts S2000x128
  reduces_S2000x128_S2000 : S2000x128.Reduces [1] S2000
  shapeCasts_S2000_S2000x1 : S2000.ShapeCasts S2000x1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S20000x128_S800000x1_S800000x128_1_0_n_n_0_1_1128_wf : GatherDims.WF S20000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .bf16 = 32 ∨ (Rect.block (s := S100000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S20000x128.size a
  hwx1_3 : ∀ i : grid1.Coords, EltTy.bits .bf16 = 32 ∨ (Rect.block (s := S20000x128) S2000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .bf16 = 32 ∨ (Rect.block (s := S100000x128) S2000x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .f32 = 32 ∨ (Rect.block (s := S100000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x1.size a ≤ S100000x1.size a
  hwx2_5 : ∀ i : grid2.Coords, EltTy.bits .f32 = 32 ∨ (Rect.block (s := S100000x1) S2000x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S100000x128.size a
  hwx2_9 : ∀ i : grid2.Coords, EltTy.bits .f32 = 32 ∨ (Rect.block (s := S100000x128) S2000x128.size (cc2_transform_9 i) (hinb2_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S20000x128_S800000x1_S800000x128_1_0_n_n_0_1_1128 : GatherDims S20000x128 S800000x1 S800000x128 where
  offsetDims := [1]
  collapsedSliceDims := [0]
  operandBatchingDims := []
  startIndicesBatchingDims := []
  startIndexMap := [0]
  indexVectorDim := 1
  sliceSizes := ![1, 128]
  wf := gather_S20000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v17) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v48) S2000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg6) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v5) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v4) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v49) S2000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S128x128 : Shape := ⟨2, ![128, 128]⟩
abbrev S128 : Shape := ⟨1, ![128]⟩
abbrev S2x1600000 : Shape := ⟨2, ![2, 1600000]⟩
abbrev S800000 : Shape := ⟨1, ![800000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S800000x1 : Shape := ⟨2, ![800000, 1]⟩
abbrev S800000x128 : Shape := ⟨2, ![800000, 128]⟩
abbrev S100000x1 : Shape := ⟨2, ![100000, 1]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S20000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S2x1600000, .i32⟩
  | 9 => ⟨S800000, .i32⟩
  | 10 => ⟨S800000, .i32⟩
  | 11 => ⟨S100000x128, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S20000x128, .f32⟩
  | 72 => ⟨S1x128, .f32⟩
  | 73 => ⟨S20000x128, .f32⟩
  | 74 => ⟨S20000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S_, .f32⟩
  | 85 => ⟨S100000x128, .f32⟩
  | 86 => ⟨S800000x1, .i32⟩
  | 87 => ⟨S100000x128, .f32⟩
  | 88 => ⟨S_, .f32⟩
  | 89 => ⟨S800000, .f32⟩
  | 90 => ⟨S_, .f32⟩
  | 91 => ⟨S100000, .f32⟩
  | 92 => ⟨S800000x1, .i32⟩
  | 93 => ⟨S100000, .f32⟩
  | 94 => ⟨S_, .f32⟩
  | 95 => ⟨S100000, .f32⟩
  | 96 => ⟨S100000, .f32⟩
  | 97 => ⟨S100000x1, .f32⟩
  | 98 => ⟨S100000x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S_, .f32⟩
  | 110 => ⟨S100000, .f32⟩
  | 111 => ⟨S100000x1, .f32⟩
  | 112 => ⟨S_, .f32⟩
  | 113 => ⟨S100000x1, .f32⟩
  | 114 => ⟨S100000x1, .f32⟩
  | 115 => ⟨S100000x128, .f32⟩
  | 116 => ⟨S100000x128, .f32⟩
  | 117 => ⟨S100000x128, .f32⟩
  | 118 => ⟨S_, .f32⟩
  | 119 => ⟨S100000, .f32⟩
  | 120 => ⟨S100000x1, .f32⟩
  | 121 => ⟨S_, .f32⟩
  | 122 => ⟨S100000x1, .f32⟩
  | 123 => ⟨S100000x1, .f32⟩
  | 124 => ⟨S100000x128, .f32⟩
  | 125 => ⟨S100000x128, .f32⟩
  | 126 => ⟨S_, .f32⟩
  | 127 => ⟨S100000x1, .f32⟩
  | _ => ⟨S100000x128, .f32⟩

abbrev hbmTy0_1 (i : Nat) : BufTy := match i % 128 with
  | 0 => ⟨S100000x1, .f32⟩
  | 1 => ⟨S100000x1, .f32⟩
  | 2 => ⟨S100000x128, .f32⟩
  | 3 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_cst_16 : Ref sig .tc := ⟨.hbm, 109, rfl⟩
abbrev main_v78 : Ref sig .tc := ⟨.hbm, 110, rfl⟩
abbrev main_v79 : Ref sig .tc := ⟨.hbm, 111, rfl⟩
abbrev main_cst_17 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S20000x128_0_1 : S1x128.BroadcastsInDim S20000x128 (![0, 1] : Fin 2 → Fin S20000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S20000x128_S128x128_S20000x128_1_0_0_1_n_n_wf : DotDims.WF S20000x128 S128x128 S20000x128 [1] [0] [0] [1] [] []
  gather_S20000x128_S800000x1_S800000x128_1_0_n_n_0_1_1128_wf : GatherDims.WF S20000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S800000x1_S800000x128_1_0_n_n_0_1_1128 : GatherDims S20000x128 S800000x1 S800000x128 where
  offsetDims := [1]
  collapsedSliceDims := [0]
  operandBatchingDims := []
  startIndicesBatchingDims := []
  startIndexMap := [0]
  indexVectorDim := 1
  sliceSizes := ![1, 128]
  wf := gather_S20000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf

class Facts : Prop extends Facts₀ where

variable [Facts]
-- ==== Proof.KRun.lean ====
/-
  The idealized kernel program's run with its result named.

  The program is three pipelined regions among stretches of host operations.  Its buffer contents at each boundary
  form a fold from the launch memory: `W1 … W3` after the first three host stretches, `W4` and `W5` after the first
  two regions (each region's arrays at what its write-backs leave, every other buffer as it was), `W6` after the host
  stretch between the second and the third region, `W7` after the third region.  Every weakly fair execution
  terminates without a fault in a state whose unscoped buffers hold `W7`; read at the result buffer this names the
  result, and read at an argument buffer it walks back to the launch memory.
-/
import proofs.«174504_j2302102471104_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is one of the unscoped buffers the last thread state holds. -/
theorem result_unscoped : Proc.devRef .tc main_v49 ∈ Pipeline.ucRefs τ sig := mem_uc main_v49 (by decide)

set_option backward.isDefEq.respectTransparency.types false in
/-- Every weakly fair execution of the program terminates, nothing faulting, with the result buffer at the last
    boundary's contents `W7` and every argument array as launched. -/
theorem run_value : θ_run defs (onTc (τ := τ) (main (F := F))) ⟨m, fun _ => 0, ρ⟩ (fun r => ∀ c : Dev nD,
      r.2.mem ((c.tc : Thread nD τ).loc main_v49) = W7 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (result_unscoped),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.Run

end
-- ==== Proof.LibTypedRefCasts.lean ====
/-
  A tensor value stored into a buffer and read back is the value.

  A typed reference names a buffer together with the equation "the buffer's type is the value's type". Storing a value
  transports it along that equation and reading transports back, so reading what was stored is the identity — for any
  buffer, any type and any element interpretation, by taking the equation to be reflexivity. Rewriting with this
  removes the transports from the composed result of a line of operations on typed references before anything is
  compared definitionally.
-/
import Idealize.ShloMosaic.Lib.StableHlo

namespace Cert.LibTypedRefCasts

open Idealize.ShloMosaic Idealize.ShloMosaic.StableHlo

variable {sig : RefSig} {Val : EltTy → Type} {T : BufTy}

/-- Reading a value back through the buffer type it was stored at gives the value. -/
theorem ofBuf_toBuf (x : TRef sig T) (v : T.Contents Val) : x.ofBuf (x.toBuf v) = v := by
  obtain ⟨r, h1, h2, h3⟩ := x
  subst h1
  rfl

/-- Storing what was read through the buffer type gives it back. -/
theorem toBuf_ofBuf (x : TRef sig T) (w : x.ref.ty.Contents Val) : x.toBuf (x.ofBuf w) = w := by
  obtain ⟨r, h1, h2, h3⟩ := x
  subst h1
  rfl

end Cert.LibTypedRefCasts
-- ==== Proof.KHost.lean ====
/-
  The host operations of the idealized kernel program, stretch by stretch.

  Each stretch is a list of host operations; what a buffer holds after a stretch run from contents `Wv` is a pure
  term of what `Wv` holds at the buffers the stretch reads.  The terms are named here as whole-array functions:
  the two rows of the edge index as flat word arrays, the degree array (a segment sum of ones plus one), its
  inverse square root (zero where the degree is not positive) as an array and as a column, the accumulated edge
  messages (a gather of the pre-scaled features at the normalised row words, then a segment sum at the column
  words), the summed drug messages (a gather at the normalised drug words, a segment sum at the protein words) and
  the clamped count column.
-/
import proofs.«174504_j2302102471104_2_alg».proof.Proof.Gen.KernelIdeal.Frame
import Idealize.ShloMosaic.Lib.StableHlo.Run
import Idealize.ShloMosaic.PureOps.Ideal
import proofs.«174504_j2302102471104_2_alg».proof.Proof.LibTypedRefCasts

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

/-! ## The host terms -/

/-- Row `r` of the 2 × 1 600 000 edge index as a flat array of words. -/
def edgeRow (r : Nat) (hs : S2x1600000.Slices ![r, 0] S1x1600000) (x8 : S2x1600000.Idx → BitVec 32) : S1600000.Idx → BitVec 32 :=
  shapeCast S1600000 (extractStridedSlice S1x1600000 ![r, 0] x8 hs) shapeCasts_S1x1600000_S1600000

abbrev rowWords (x8 : S2x1600000.Idx → BitVec 32) : S1600000.Idx → BitVec 32 := edgeRow 0 slices_S2x1600000_S1x1600000_0_0 x8
abbrev colWords (x8 : S2x1600000.Idx → BitVec 32) : S1600000.Idx → BitVec 32 := edgeRow 1 slices_S2x1600000_S1x1600000_1_0 x8

/-- The degree of every node: the edges whose column word names it, plus one. -/
def degArr (x8 : S2x1600000.Idx → BitVec 32) : S100000.Idx → EReal :=
  addf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (colWords x8))
      (broadcastInDim S1600000 ![] bcast_S_S1600000 (constant (F := Ideal) S_ .f32 0x3F800000#32)))
    (broadcastInDim S100000 ![] bcast_S_S100000 (constant (F := Ideal) S_ .f32 0x3F800000#32))

/-- Its inverse square root, the float word 0 where the degree is not positive. -/
def dinvArr (x8 : S2x1600000.Idx → BitVec 32) : S100000.Idx → EReal :=
  select (cmpf (F := Ideal) .ogt (degArr x8) (broadcastInDim S100000 ![] bcast_S_S100000 (constant (F := Ideal) S_ .f32 0x00000000#32)))
    (Host.rsqrt (F := Ideal) (φ := .f32) (degArr x8))
    (broadcastInDim S100000 ![] bcast_S_S100000 (id (constant (F := Ideal) S_ .f32 0x00000000#32)))

/-- The same as a column. -/
def dinvCol (x8 : S2x1600000.Idx → BitVec 32) : S100000x1.Idx → EReal :=
  shapeCast S100000x1 (dinvArr x8) shapeCasts_S100000_S100000x1

/-- A 128-vector as one row. -/
def asRow (v : S128.Idx → EReal) : S1x128.Idx → EReal := shapeCast S1x128 v shapeCasts_S128_S1x128

/-- The edge messages accumulated at every node: the rows of `xs` gathered at the normalised row words, summed at
    the column words. -/
def accArr (xs : S100000x128.Idx → EReal) (x8 : S2x1600000.Idx → BitVec 32) : S100000x128.Idx → EReal :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (colWords x8))
    (extf (F := Ideal) .f32 (Host.gather gather_S100000x128_S1600000x1_S1600000x128_1_0_n_n_0_1_1128 (xs : FVec Ideal S100000x128 .bf16)
      (broadcastInDim S1600000x1 ![0] bcast_S1600000_S1600000x1_0
        (select (cmpi .slt (rowWords x8) (broadcastInDim S1600000 ![] bcast_S_S1600000 (constantI S_ 32 0#32)))
          (addi (rowWords x8) (broadcastInDim S1600000 ![] bcast_S_S1600000 (constantI S_ 32 100000#32))) (rowWords x8)))) bitsLt_bf16_f32)

/-- The drug messages summed at every protein: the rows of `td` gathered at the normalised drug words, summed at
    the protein words. -/
def sArr (td : S20000x128.Idx → EReal) (x9 x10 : S800000.Idx → BitVec 32) : S100000x128.Idx → EReal :=
  Host.scatterAdd (F := Ideal) scatter_S100000x128_S800000x1_S800000x128_1_0_0_1
    (broadcastInDim S100000x128 ![] bcast_S_S100000x128 (constant (F := Ideal) S_ .f32 0x00000000#32))
    (broadcastInDim S800000x1 ![0] bcast_S800000_S800000x1_0 x10)
    (extf (F := Ideal) .f32 (Host.gather gather_S20000x128_S800000x1_S800000x128_1_0_n_n_0_1_1128 (td : FVec Ideal S20000x128 .bf16)
      (broadcastInDim S800000x1 ![0] bcast_S800000_S800000x1_0
        (select (cmpi .slt x9 (broadcastInDim S800000 ![] bcast_S_S800000 (constantI S_ 32 0#32)))
          (addi x9 (broadcastInDim S800000 ![] bcast_S_S800000 (constantI S_ 32 20000#32))) x9))) bitsLt_bf16_f32)

/-- The number of drug messages at every protein, at least one, as a column. -/
def cntCol (x10 : S800000.Idx → BitVec 32) : S100000x1.Idx → EReal :=
  shapeCast S100000x1
    (maximumf (F := Ideal) (Host.scatterAdd scatter_S100000_S800000x1_S800000_n_0_0_1
        (broadcastInDim S100000 ![] bcast_S_S100000 (constant (F := Ideal) S_ .f32 0x00000000#32))
        (broadcastInDim S800000x1 ![0] bcast_S800000_S800000x1_0 x10)
        (broadcastInDim S800000 ![] bcast_S_S800000 (constant (F := Ideal) S_ .f32 0x3F800000#32)))
      (broadcastInDim S100000 ![] bcast_S_S100000 (constant (F := Ideal) S_ .f32 0x3F800000#32)))
    shapeCasts_S100000_S100000x1

/-! ## The stretches, run from any contents -/

section Stretches
variable (Wv : Valuation τ sig (Elt Ideal))

/-- A buffer no operation of a stretch writes keeps its contents. -/
macro "kept" : tactic =>
  `(tactic| exact StableHlo.after_of_forall_not_mem _ _ (List.forall_iff_forall_mem.mp (by
      repeat' apply And.intro
      all_goals exact StableHlo.devRef_ne_of_ne (by decide))))

/-! ### The first stretch -/
theorem s0_v1 : after (hostOps0 (F := Ideal)) Wv (Proc.devRef .tc main_v1) = rowWords (Wv (Proc.devRef .tc main_arg8)) := by
  after_results <;> rfl
theorem s0_v3 : after (hostOps0 (F := Ideal)) Wv (Proc.devRef .tc main_v3) = colWords (Wv (Proc.devRef .tc main_arg8)) := by
  after_results <;> rfl
theorem s0_v4 : after (hostOps0 (F := Ideal)) Wv (Proc.devRef .tc main_v4) = asRow (Wv (Proc.devRef .tc main_arg3)) := by
  after_results <;> rfl
theorem s0_v5 : after (hostOps0 (F := Ideal)) Wv (Proc.devRef .tc main_v5) = asRow (Wv (Proc.devRef .tc main_arg7)) := by
  after_results <;> rfl
theorem s0_v6 : after (hostOps0 (F := Ideal)) Wv (Proc.devRef .tc main_v6) = asRow (Wv (Proc.devRef .tc main_arg5)) := by
  after_results <;> rfl
theorem s0_v14 : after (hostOps0 (F := Ideal)) Wv (Proc.devRef .tc main_v14)
    = cmpf (F := Ideal) .ogt (degArr (Wv (Proc.devRef .tc main_arg8))) (broadcastInDim S100000 ![] bcast_S_S100000 (constant (F := Ideal) S_ .f32 0x00000000#32)) := by
  after_results <;> rfl
theorem s0_v15 : after (hostOps0 (F := Ideal)) Wv (Proc.devRef .tc main_v15) = Host.rsqrt (F := Ideal) (φ := .f32) (degArr (Wv (Proc.devRef .tc main_arg8))) := by
  after_results <;> rfl
theorem s0_cst3 : after (hostOps0 (F := Ideal)) Wv (Proc.devRef .tc main_cst_3) = constant (F := Ideal) S_ .f32 0x00000000#32 := by
  after_results <;> rfl

/-! ### The call of `where` -/
theorem s1_v16 : after (hostOps0_1 (F := Ideal)) Wv (Proc.devRef .tc main_v16)
    = select (Wv (Proc.devRef .tc main_v14)) (Wv (Proc.devRef .tc main_v15))
        (broadcastInDim S100000 ![] bcast_S_S100000 (id (Wv (Proc.devRef .tc main_cst_3)) : S_.Idx → EReal)) := by
  after_results
  simp only [Cert.LibTypedRefCasts.ofBuf_toBuf]
  rfl

/-! ### The reshape to a column -/
theorem s2_v17 : after (hostOps0_2 (F := Ideal)) Wv (Proc.devRef .tc main_v17)
    = (shapeCast S100000x1 (Wv (Proc.devRef .tc main_v16)) shapeCasts_S100000_S100000x1 : S100000x1.Idx → EReal) := by
  after_results <;> rfl

/-! ### The stretch between the second and the third region -/
set_option maxHeartbeats 4000000 in
theorem s3_v30 : after (hostOps2 (F := Ideal)) Wv (Proc.devRef .tc main_v30)
    = Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (Wv (Proc.devRef .tc main_v3)))
        (extf (F := Ideal) .f32 (Host.gather gather_S100000x128_S1600000x1_S1600000x128_1_0_n_n_0_1_1128 (Wv (Proc.devRef .tc main_v18))
          (broadcastInDim S1600000x1 ![0] bcast_S1600000_S1600000x1_0
            (select (cmpi .slt (Wv (Proc.devRef .tc main_v1)) (broadcastInDim S1600000 ![] bcast_S_S1600000 (constantI S_ 32 0#32)))
              (addi (Wv (Proc.devRef .tc main_v1)) (broadcastInDim S1600000 ![] bcast_S_S1600000 (constantI S_ 32 100000#32)))
              (Wv (Proc.devRef .tc main_v1))))) bitsLt_bf16_f32) := by
  after_results_simp <;> rfl
set_option maxHeartbeats 4000000 in
theorem s3_v41 : after (hostOps2 (F := Ideal)) Wv (Proc.devRef .tc main_v41)
    = sArr (Wv (Proc.devRef .tc main_v19)) (Wv (Proc.devRef .tc main_arg9)) (Wv (Proc.devRef .tc main_arg10)) := by
  unfold sArr
  after_results_simp <;> rfl
set_option maxHeartbeats 4000000 in
theorem s3_v48 : after (hostOps2 (F := Ideal)) Wv (Proc.devRef .tc main_v48) = cntCol (Wv (Proc.devRef .tc main_arg10)) := by
  unfold cntCol
  after_results_simp <;> rfl

end Stretches

end Cert.KernelIdeal.Host

end
-- ==== Proof.KKeep.lean ====
/-
  Buffers the host stretches of the idealized kernel program leave alone.

  A stretch writes only its operations' result buffers; every other buffer holds after the stretch what it held
  before.  Stated here, stretch by stretch, for the buffers the three regions go on to read.
-/
import proofs.«174504_j2302102471104_2_alg».proof.Proof.KHost

set_option maxRecDepth 16384

noncomputable section

namespace Cert.KernelIdeal.Keep

open Cert.KernelIdeal Cert.KernelIdeal.Gen
open Idealize.ShloMosaic Idealize.ShloMosaic.TcCoe Idealize.SL.Sem Idealize.ShloMosaic.StableHlo

variable (Wv : Valuation τ sig (Elt Ideal))

/-! ## The first stretch -/

theorem K0_arg0 : after (hostOps0 (F := Ideal)) Wv (Proc.devRef .tc main_arg0) = Wv (Proc.devRef .tc main_arg0) := by
  after_results
theorem K0_arg1 : after (hostOps0 (F := Ideal)) Wv (Proc.devRef .tc main_arg1) = Wv (Proc.devRef .tc main_arg1) := by
  after_results
theorem K0_arg2 : after (hostOps0 (F := Ideal)) Wv (Proc.devRef .tc main_arg2) = Wv (Proc.devRef .tc main_arg2) := by
  after_results
theorem K0_arg4 : after (hostOps0 (F := Ideal)) Wv (Proc.devRef .tc main_arg4) = Wv (Proc.devRef .tc main_arg4) := by
  after_results
theorem K0_arg6 : after (hostOps0 (F := Ideal)) Wv (Proc.devRef .tc main_arg6) = Wv (Proc.devRef .tc main_arg6) := by
  after_results
theorem K0_arg9 : after (hostOps0 (F := Ideal)) Wv (Proc.devRef .tc main_arg9) = Wv (Proc.devRef .tc main_arg9) := by
  after_results
theorem K0_arg10 : after (hostOps0 (F := Ideal)) Wv (Proc.devRef .tc main_arg10) = Wv (Proc.devRef .tc main_arg10) := by
  after_results

/-! ## The call of `where` -/

theorem K1_arg0 : after (hostOps0_1 (F := Ideal)) Wv (Proc.devRef .tc main_arg0) = Wv (Proc.devRef .tc main_arg0) := by
  after_results
theorem K1_arg1 : after (hostOps0_1 (F := Ideal)) Wv (Proc.devRef .tc main_arg1) = Wv (Proc.devRef .tc main_arg1) := by
  after_results
theorem K1_arg2 : after (hostOps0_1 (F := Ideal)) Wv (Proc.devRef .tc main_arg2) = Wv (Proc.devRef .tc main_arg2) := by
  after_results
theorem K1_arg4 : after (hostOps0_1 (F := Ideal)) Wv (Proc.devRef .tc main_arg4) = Wv (Proc.devRef .tc main_arg4) := by
  after_results
theorem K1_arg6 : after (hostOps0_1 (F := Ideal)) Wv (Proc.devRef .tc main_arg6) = Wv (Proc.devRef .tc main_arg6) := by
  after_results
theorem K1_arg9 : after (hostOps0_1 (F := Ideal)) Wv (Proc.devRef .tc main_arg9) = Wv (Proc.devRef .tc main_arg9) := by
  after_results
theorem K1_arg10 : after (hostOps0_1 (F := Ideal)) Wv (Proc.devRef .tc main_arg10) = Wv (Proc.devRef .tc main_arg10) := by
  after_results
theorem K1_v1 : after (hostOps0_1 (F := Ideal)) Wv (Proc.devRef .tc main_v1) = Wv (Proc.devRef .tc main_v1) := by
  after_results
theorem K1_v3 : after (hostOps0_1 (F := Ideal)) Wv (Proc.devRef .tc main_v3) = Wv (Proc.devRef .tc main_v3) := by
  after_results
theorem K1_v4 : after (hostOps0_1 (F := Ideal)) Wv (Proc.devRef .tc main_v4) = Wv (Proc.devRef .tc main_v4) := by
  after_results
theorem K1_v5 : after (hostOps0_1 (F := Ideal)) Wv (Proc.devRef .tc main_v5) = Wv (Proc.devRef .tc main_v5) := by
  after_results
theorem K1_v6 : after (hostOps0_1 (F := Ideal)) Wv (Proc.devRef .tc main_v6) = Wv (Proc.devRef .tc main_v6) := by
  after_results

/-! ## The reshape to a column -/

theorem K2_arg0 : after (hostOps0_2 (F := Ideal)) Wv (Proc.devRef .tc main_arg0) = Wv (Proc.devRef .tc main_arg0) := by
  after_results
theorem K2_arg1 : after (hostOps0_2 (F := Ideal)) Wv (Proc.devRef .tc main_arg1) = Wv (Proc.devRef .tc main_arg1) := by
  after_results
theorem K2_arg2 : after (hostOps0_2 (F := Ideal)) Wv (Proc.devRef .tc main_arg2) = Wv (Proc.devRef .tc main_arg2) := by
  after_results
theorem K2_arg4 : after (hostOps0_2 (F := Ideal)) Wv (Proc.devRef .tc main_arg4) = Wv (Proc.devRef .tc main_arg4) := by
  after_results
theorem K2_arg6 : after (hostOps0_2 (F := Ideal)) Wv (Proc.devRef .tc main_arg6) = Wv (Proc.devRef .tc main_arg6) := by
  after_results
theorem K2_arg9 : after (hostOps0_2 (F := Ideal)) Wv (Proc.devRef .tc main_arg9) = Wv (Proc.devRef .tc main_arg9) := by
  after_results
theorem K2_arg10 : after (hostOps0_2 (F := Ideal)) Wv (Proc.devRef .tc main_arg10) = Wv (Proc.devRef .tc main_arg10) := by
  after_results
theorem K2_v1 : after (hostOps0_2 (F := Ideal)) Wv (Proc.devRef .tc main_v1) = Wv (Proc.devRef .tc main_v1) := by
  after_results
theorem K2_v3 : after (hostOps0_2 (F := Ideal)) Wv (Proc.devRef .tc main_v3) = Wv (Proc.devRef .tc main_v3) := by
  after_results
theorem K2_v4 : after (hostOps0_2 (F := Ideal)) Wv (Proc.devRef .tc main_v4) = Wv (Proc.devRef .tc main_v4) := by
  after_results
theorem K2_v5 : after (hostOps0_2 (F := Ideal)) Wv (Proc.devRef .tc main_v5) = Wv (Proc.devRef .tc main_v5) := by
  after_results
theorem K2_v6 : after (hostOps0_2 (F := Ideal)) Wv (Proc.devRef .tc main_v6) = Wv (Proc.devRef .tc main_v6) := by
  after_results

/-! ## The stretch between the second and the third region -/

set_option maxHeartbeats 4000000 in
theorem K3_arg0 : after (hostOps2 (F := Ideal)) Wv (Proc.devRef .tc main_arg0) = Wv (Proc.devRef .tc main_arg0) := by
  after_results_simp
set_option maxHeartbeats 4000000 in
theorem K3_arg6 : after (hostOps2 (F := Ideal)) Wv (Proc.devRef .tc main_arg6) = Wv (Proc.devRef .tc main_arg6) := by
  after_results_simp
set_option maxHeartbeats 4000000 in
theorem K3_v4 : after (hostOps2 (F := Ideal)) Wv (Proc.devRef .tc main_v4) = Wv (Proc.devRef .tc main_v4) := by
  after_results_simp
set_option maxHeartbeats 4000000 in
theorem K3_v5 : after (hostOps2 (F := Ideal)) Wv (Proc.devRef .tc main_v5) = Wv (Proc.devRef .tc main_v5) := by
  after_results_simp
set_option maxHeartbeats 4000000 in
theorem K3_v17 : after (hostOps2 (F := Ideal)) Wv (Proc.devRef .tc main_v17) = Wv (Proc.devRef .tc main_v17) := by
  after_results_simp
set_option maxHeartbeats 4000000 in
theorem K3_v18 : after (hostOps2 (F := Ideal)) Wv (Proc.devRef .tc main_v18) = Wv (Proc.devRef .tc main_v18) := by
  after_results_simp

end Cert.KernelIdeal.Keep

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibRowWise.lean ====
/-
  Operations that act on each row of an [m, n] array by itself, read at an entry, on the extended reals.

  For an array Z with m rows and n columns:
  * a length-n vector laid out as a [1, n] row and repeated down the m rows reads, at (a, b), the vector at b
    (`biasRow_apply`); a length-m vector laid out as an [m, 1] column and repeated across the n columns reads, at
    (a, b), the vector at a (`column_apply`);
  * reducing over the column axis inserts the column coordinate at position 1 (`lift_row`), so the host's maximum
    and sum over that axis read, at row a, the fold of max (the sum) over the row's n entries
    (`hostRowMax_apply`, `hostRowSum_apply`), and so do the vector reductions (`vecRowMax_apply`, `vecRowSum_apply`);
  * `logSoftmaxRow y q = (y q - max y) - log (Σ_k exp (y k - max y))` is the logarithm of the softmax of one row, and
    the host's chain of operations for it reads, at (a, b), that function of row a (`hostLogSoftmax_apply`);
  * the host's sum of an array and a bias row, clamped below at zero, reads at (a, b) max (Z(a, b) + v(b), 0)
    (`hostBiasRelu_apply`).
  Nothing here depends on m: a block of rows and the whole array are read by the same lemma.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowWise

open Idealize.ShloMosaic Idealize.ShloMosaic.ValueIdx

variable {α : Type}

/-- A vector as a row repeated down the rows, the host way, read at an entry. -/
theorem biasRow_apply {m n : ℕ} (v : (⟨1, ![n]⟩ : Shape).Idx → α)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    broadcastInDim ⟨2, ![m, n]⟩ ![0, 1] g2 (broadcastInDim ⟨2, ![1, n]⟩ ![1] g1 v) (ix2 a b) = v (ix1 b) := by
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

/-- An [m, 1] column repeated across the n columns, the host way, reads at (a, b) the column at row a. -/
theorem colSpread_apply {m n : ℕ} (w : (⟨2, ![m, 1]⟩ : Shape).Idx → α)
    (g2 : (⟨2, ![m, 1]⟩ : Shape).BroadcastsInDim ⟨2, ![m, n]⟩ ![0, 1]) (a : Fin m) (b : Fin n) :
    broadcastInDim ⟨2, ![m, n]⟩ ![0, 1] g2 w (ix2 a b) = w (ix2 a (0 : Fin 1)) := by
  have ha : a.val = if m = 1 then 0 else a.val := by
    split
    · have := a.isLt; omega
    · rfl
  have hk2 : ∀ ax : Fin 2, ((ix2 a (0 : Fin 1) : (⟨2, ![m, 1]⟩ : Shape).Idx) ax).val
      = if (⟨2, ![m, 1]⟩ : Shape).size ax = 1 then 0 else ((ix2 a b : (⟨2, ![m, n]⟩ : Shape).Idx) ((![0, 1] : Fin 2 → Fin 2) ax)).val := fun ax =>
    match ax with
    | ⟨0, _⟩ => ha
    | ⟨1, _⟩ => rfl
  rw [broadcastInDim_apply _ g2 _ (ix2 a b) (ix2 a (0 : Fin 1)) hk2]

/-- A length-m vector laid out as an [m, 1] column, the host way, reads at (a, 0) the vector at a. -/
theorem colLift_apply {m : ℕ} (v : (⟨1, ![m]⟩ : Shape).Idx → α)
    (g1 : (⟨1, ![m]⟩ : Shape).BroadcastsInDim ⟨2, ![m, 1]⟩ ![0]) (a : Fin m) :
    broadcastInDim ⟨2, ![m, 1]⟩ ![0] g1 v (ix2 a (0 : Fin 1)) = v (ix1 a) := by
  have ha : a.val = if m = 1 then 0 else a.val := by
    split
    · have := a.isLt; omega
    · rfl
  have hk1 : ∀ ax : Fin 1, ((ix1 a : (⟨1, ![m]⟩ : Shape).Idx) ax).val
      = if (⟨1, ![m]⟩ : Shape).size ax = 1 then 0 else ((ix2 a (0 : Fin 1) : (⟨2, ![m, 1]⟩ : Shape).Idx) ((![0] : Fin 1 → Fin 2) ax)).val := fun ax =>
    match ax with
    | ⟨0, _⟩ => ha
  rw [broadcastInDim_apply _ g1 v (ix2 a (0 : Fin 1)) (ix1 a) hk1]

/-- A vector as a column repeated across the columns, the host way, read at an entry. -/
theorem column_apply {m n : ℕ} (v : (⟨1, ![m]⟩ : Shape).Idx → α)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (broadcastInDim ⟨2, ![m, 1]⟩ ![0] g1 v) (ix2 a b) = v (ix1 a) := by
  rw [colSpread_apply, colLift_apply]

/-- Over row a, the index with column coordinate k inserted is (a, k). -/
theorem lift_row {m n : ℕ} (h : (⟨2, ![m, n]⟩ : Shape).Reduces [1] ⟨1, ![m]⟩) (a : Fin m)
    (k : Fin ((⟨2, ![m, n]⟩ : Shape).size 1)) :
    h.lift (ix1 a) k = ix2 a (k : Fin n) := by
  funext c
  apply Fin.ext
  rw [Shape.Reduces.lift_val]
  unfold Shape.Reduces.liftVal
  match c with
  | ⟨0, _⟩ => rfl
  | ⟨1, _⟩ => rfl

/-- The host's maximum over the column axis, at row a: the fold of max over the row's entries. -/
theorem hostRowMax_apply {m n : ℕ} (Z : FVec Ideal ⟨2, ![m, n]⟩ .f32) (init : BitVec 32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduce FloatOps.maximumf Z (constant ⟨0, ![]⟩ .f32 init) h' hu (ix1 a)
      = (Finset.univ : Finset (Fin n)).fold max (Ideal.ofBits .f32 init) (fun k => Z (ix2 a k)) := by
  rw [Host.reduce_eq_fold_single FloatOps.maximumf Z _ h' h hu (ix1 a)]
  have e : (Z ∘ h.lift (ix1 a)) = fun k : Fin n => Z (ix2 a k) := funext fun k => congrArg Z (lift_row h a k)
  rw [e]
  rfl

/-- The host's sum over the column axis from zero, at row a: the sum of the row's entries. -/
theorem hostRowSum_apply {m n : ℕ} (Z : FVec Ideal ⟨2, ![m, n]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduceAdd Z (constant ⟨0, ![]⟩ .f32 0x00000000#32) h' hu (ix1 a) = ∑ k : Fin n, Z (ix2 a k) := by
  show Ideal.hostReduceAdd h' Z (Ideal.ofBits .f32 0x00000000#32) (ix1 a) = _
  rw [Ideal.hostReduceAdd_single h' h, Ideal.ofBits_zero_f32, zero_add]
  exact Finset.sum_congr rfl fun k _ => congrArg Z (lift_row h a k)

/-- A vector maximum over the column axis, at row a: the fold of max over the row's entries. -/
theorem vecRowMax_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.maximumf.neutral .f32 hφ) (a : Fin m) :
    multiReduction .maximumf [1] ⟨1, ![m]⟩ Z acc h hφ hacc (ix1 a)
      = (Finset.univ : Finset (Fin n)).fold max (Ideal.ofBits .f32 acc) (fun k => Z (ix2 a k)) := by
  rw [Ideal.multiReduction_maximumf_single]
  have e : (Z ∘ h.lift (ix1 a)) = fun k : Fin n => Z (ix2 a k) := funext fun k => congrArg Z (lift_row h a k)
  rw [e]
  rfl

/-- A vector sum over the column axis, at row a: the sum of the row's entries. -/
theorem vecRowSum_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (a : Fin m) :
    multiReduction .add [1] ⟨1, ![m]⟩ Z acc h hφ hacc (ix1 a) = ∑ k : Fin n, Z (ix2 a k) := by
  rw [Ideal.multiReduction_add_single]
  exact Finset.sum_congr rfl fun k _ => congrArg Z (lift_row h a k)

/-- The largest entry of a row (from -∞, kept as its f32 word). -/
def rowMax {n : ℕ} (y : Fin n → EReal) : EReal :=
  (Finset.univ : Finset (Fin n)).fold max (Ideal.ofBits .f32 0xFF800000#32) y

/-- The logarithm of the softmax of one row, at column q. -/
def logSoftmaxRow {n : ℕ} (y : Fin n → EReal) (q : Fin n) : EReal :=
  (y q - rowMax y) - Ideal.log (∑ k : Fin n, Ideal.exp (y k - rowMax y))

/-- The f32 word of -∞ is neutral for the maximum of extended reals. -/
theorem max_neg_inf (z : EReal) : max (Ideal.ofBits .f32 0xFF800000#32) z = z := by
  have hb : Ideal.ofBits .f32 0xFF800000#32 = (⊥ : EReal) := by simp [Ideal.ofBits, Ideal.ieee]
  rw [hb]; exact max_bot_left z

/-- The host's log-softmax over the column axis: the row maximum from -∞ (and once more against -∞), subtracted;
    the exponentials summed from zero; the logarithm of the sum subtracted. -/
def hostLogSoftmax {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (hu : 0 < (⟨0, ![]⟩ : Shape).numel)
    (Z : FVec Ideal ⟨2, ![m, n]⟩ .f32) : FVec Ideal ⟨2, ![m, n]⟩ .f32 :=
  subf
    (subf Z (broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu)))))
    (broadcastInDim ⟨2, ![m, n]⟩ ![0, 1] g2 (Host.log (broadcastInDim ⟨2, ![m, 1]⟩ ![0] g1
      (Host.reduceAdd
        (Host.exp (subf Z (broadcastInDim ⟨2, ![m, n]⟩ ![0, 1] g2 (broadcastInDim ⟨2, ![m, 1]⟩ ![0] g1
          (maximumf (broadcastInDim ⟨1, ![m]⟩ ![] gN (constant (F := Ideal) ⟨0, ![]⟩ .f32 0xFF800000#32))
            (Host.reduce FloatOps.maximumf Z (constant (F := Ideal) ⟨0, ![]⟩ .f32 0xFF800000#32) h' hu))))))
        (constant (F := Ideal) ⟨0, ![]⟩ .f32 0x00000000#32) h' hu))))

/-- The maximum the host subtracts, repeated across the columns, reads at (a, b) the largest entry of row a. -/
theorem hostShift_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu))) (ix2 a b)
      = rowMax (fun k => Z (ix2 a k)) := by
  rw [column_apply]
  show max (Ideal.ofBits .f32 0xFF800000#32)
      (Host.reduce FloatOps.maximumf Z (constant (F := Ideal) ⟨0, ![]⟩ .f32 0xFF800000#32) h' hu (ix1 a)) = _
  rw [max_neg_inf, hostRowMax_apply Z _ h' h hu a]
  rfl

/-- The logarithm of a column vector, taken on the [m, 1] column and then repeated across the columns, reads at
    (a, b) the logarithm of the vector at a. -/
theorem logColumn_apply {m n : ℕ} (S : FVec Ideal ⟨1, ![m]⟩ .f32)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (Host.log (broadcastInDim ⟨2, ![m, 1]⟩ ![0] g1 S)) (ix2 a b)
      = Ideal.log (S (ix1 a)) := by
  rw [colSpread_apply]
  show Ideal.log (broadcastInDim ⟨2, ![m, 1]⟩ ![0] g1 S (ix2 a (0 : Fin 1))) = _
  rw [colLift_apply]

/-- The host's log-softmax reads, at (a, b), the log-softmax of row a at column b. -/
theorem hostLogSoftmax_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    hostLogSoftmax gN g1 g2 h' hu Z (ix2 a b) = logSoftmaxRow (fun k => Z (ix2 a k)) b := by
  unfold hostLogSoftmax logSoftmaxRow
  show (Z (ix2 a b) - _) - _ = _
  rw [hostShift_apply gN g1 g2 h' h hu Z a b, logColumn_apply, hostRowSum_apply _ h' h hu a]
  refine congrArg (fun s => (Z (ix2 a b) - rowMax (fun k => Z (ix2 a k))) - Ideal.log s) ?_
  refine Finset.sum_congr rfl fun k _ => ?_
  show Ideal.exp (Z (ix2 a k) - _) = _
  rw [hostShift_apply gN g1 g2 h' h hu Z a k]

/-- The host's sum of an array and a bias row, clamped below at zero, at an entry. -/
theorem hostBiasRelu_apply {m n : ℕ} (Z : FVec Ideal ⟨2, ![m, n]⟩ .f32) (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (g0 : (⟨0, ![]⟩ : Shape).BroadcastsInDim ⟨2, ![m, n]⟩ ![]) (a : Fin m) (b : Fin n) :
    maximumf (addf Z (broadcastInDim ⟨2, ![m, n]⟩ ![0, 1] g2 (broadcastInDim ⟨2, ![1, n]⟩ ![1] g1 v)))
        (broadcastInDim ⟨2, ![m, n]⟩ ![] g0 (constant (F := Ideal) ⟨0, ![]⟩ .f32 0x00000000#32)) (ix2 a b)
      = max (Z (ix2 a b) + v (ix1 b)) (Ideal.ofBits .f32 0x00000000#32) := by
  show max (Z (ix2 a b) + broadcastInDim ⟨2, ![m, n]⟩ ![0, 1] g2 (broadcastInDim ⟨2, ![1, n]⟩ ![1] g1 v) (ix2 a b)) _ = _
  rw [biasRow_apply]
  rfl

end Cert.RowWise

end
-- ==== Proof.RowSpec.lean ====
/-
  One row of 128 numbers normalised to zero mean and unit variance, exactly as both programs form it:
      μ = (Σ_g y(g)) / 128,      out(f) = (y(f) − μ) · (Σ_g (y(g) − μ)² / 128 + ε₂)^(-1/2),
  the sums plain sums over the 128 entries, 128, ε₁ and ε₂ the float words the programs spell.
-/
import Idealize.ShloMosaic.PureOps.Ideal
import Idealize.ShloMosaic.Lib.ValueIdx

noncomputable section

open scoped BigOperators

namespace Cert.RowSpec

open Idealize.ShloMosaic

/-- The two small float words added before and inside the normalisation, and the row length. -/
abbrev eps1 : EReal := FloatOps.ofBits (F := Ideal) .f32 0x358637BD#32
abbrev eps2 : EReal := FloatOps.ofBits (F := Ideal) .f32 0x3727C5AC#32
abbrev len128 : EReal := FloatOps.ofBits (F := Ideal) .f32 0x43000000#32

/-- The row mean. -/
def mean (y : Fin 128 → EReal) : EReal := FloatOps.divf (F := Ideal) (φ := .f32) (∑ g : Fin 128, y g) len128

/-- The normalised row. -/
def lnRow (y : Fin 128 → EReal) (f : Fin 128) : EReal :=
  (y f - mean y)
    * FloatOps.rsqrt (F := Ideal) (φ := .f32)
        (FloatOps.divf (F := Ideal) (φ := .f32) (∑ g : Fin 128, (y g - mean y) * (y g - mean y)) len128 + eps2)

end Cert.RowSpec

end
-- ==== Proof.KPay.lean ====
/-
  The three kernel bodies' arithmetic, read at one entry of a 2000 × 128 block.

  Block A (node pre-scaling):  (x·W)(p, f) · d(p),  d the block's one-column array.
  Block B (the drug-side dense layer):  (x·W)(p, f) + b(f),  b a one-row array.
  Block C (combine and normalise a row):  with
      y(p, f) = ((d(p) · (acc(p, f) + xs(p, f)) + bg(f)) + s(p, f) / cnt(p)) + ((x·W)(p, f) + bp(f))) + ε₁,
      μ(p) = (Σ_f y(p, f)) / 128,
  the stored entry is  (y(p, f) − μ(p)) · (Σ_f (y(p, f) − μ(p))² / 128 + ε₂)^(-1/2).
  A change of float format is the identity on exact values, so the narrowed matrix products are the plain
  sums Σ_c x(p, c) · W(c, f).
-/
import proofs.«174504_j2302102471104_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«174504_j2302102471104_2_alg».proof.Proof.LibPlainMatmul
import proofs.«174504_j2302102471104_2_alg».proof.Proof.LibColumnBroadcast
import proofs.«174504_j2302102471104_2_alg».proof.Proof.LibColumnCast
import proofs.«174504_j2302102471104_2_alg».proof.Proof.LibRowWise
import proofs.«174504_j2302102471104_2_alg».proof.Proof.RowSpec

noncomputable section

open scoped BigOperators

namespace Cert.KernelIdeal.Pay

open Idealize.ShloMosaic Idealize.ShloMosaic.ValueIdx Cert.KernelIdeal Cert.KernelIdeal.Gen
open Cert.LibColumnBroadcast Cert.RowWise Cert.RowSpec

/-- The kernels' contraction record is the plain 2000×128 by 128×128 one. -/
theorem dot_plain : dot_S2000x128_S128x128_S2000x128_1_0_0_1_n_n = DotDims.plain 2000 128 128 := rfl

/-- A narrowed 2000×128 by 128×128 product into the zero block, at an entry. -/
theorem prod_apply (x : Vec Ideal S2000x128 .f32) (w : Vec Ideal S128x128 .f32) (p : Fin 2000) (f : Fin 128) :
    matmul dot_S2000x128_S128x128_S2000x128_1_0_0_1_n_n none (truncf .bf16 x bitsLt_bf16_f32 : FVec Ideal S2000x128 .bf16)
        (truncf .bf16 w bitsLt_bf16_f32 : FVec Ideal S128x128 .bf16) (constant S2000x128 .f32 0x00000000#32) (ix2 p f)
      = ∑ c : Fin 128, x (ix2 p c) * w (ix2 c f) := by
  rw [dot_plain]
  exact matmul_plain_zero_apply none _ _ p f

/-- Block A at an entry. -/
theorem k0_pay1_apply (v0 : Vec Ideal S2000x128 .f32) (v2 : Vec Ideal S128x128 .f32) (v5 : Vec Ideal S2000x1 .f32)
    (p : Fin 2000) (f : Fin 128) :
    k0_pay1 (F := Ideal) v0 v2 v5 (ix2 p f)
      = (∑ c : Fin 128, v0 (ix2 p c) * v2 (ix2 c f)) * v5 (ix2 p (0 : Fin 1)) := by
  unfold k0_pay1
  show matmul dot_S2000x128_S128x128_S2000x128_1_0_0_1_n_n none (truncf .bf16 v0 bitsLt_bf16_f32 : FVec Ideal S2000x128 .bf16)
        (truncf .bf16 v2 bitsLt_bf16_f32 : FVec Ideal S128x128 .bf16) (constant S2000x128 .f32 0x00000000#32) (ix2 p f)
      * broadcastTo S2000x128 (shapeCast S2000x1 v5 shapeCasts_S2000x1_S2000x1) broadcasts_S2000x1_S2000x128 (ix2 p f) = _
  rw [prod_apply, broadcastTo_a1_ab_apply, shapeCast_self]

/-- Block B at an entry. -/
theorem k1_pay1_apply (v0 : Vec Ideal S2000x128 .f32) (v2 : Vec Ideal S128x128 .f32) (v5 : Vec Ideal S1x128 .f32)
    (p : Fin 2000) (f : Fin 128) :
    k1_pay1 (F := Ideal) v0 v2 v5 (ix2 p f)
      = (∑ c : Fin 128, v0 (ix2 p c) * v2 (ix2 c f)) + v5 (ix2 (0 : Fin 1) f) := by
  unfold k1_pay1
  show matmul dot_S2000x128_S128x128_S2000x128_1_0_0_1_n_n none (truncf .bf16 v0 bitsLt_bf16_f32 : FVec Ideal S2000x128 .bf16)
        (truncf .bf16 v2 bitsLt_bf16_f32 : FVec Ideal S128x128 .bf16) (constant S2000x128 .f32 0x00000000#32) (ix2 p f)
      + broadcastTo S2000x128 (shapeCast S1x128 v5 shapeCasts_S1x128_S1x128) broadcasts_S1x128_S2000x128 (ix2 p f) = _
  rw [prod_apply, broadcastTo_1b_ab_apply, shapeCast_self]

/-- Block C's pre-normalisation value at an entry. -/
theorem k2_pay2_apply (v0 : Vec Ideal S2000x1 .f32) (v2 : Vec Ideal S2000x128 .bf16) (v5 : Vec Ideal S2000x128 .f32)
    (v10 : Vec Ideal S1x128 .f32) (v14 : Vec Ideal S2000x128 .f32) (v16 : Vec Ideal S2000x1 .f32)
    (v20 : Vec Ideal S2000x128 .f32) (v22 : Vec Ideal S128x128 .f32) (v25 : Vec Ideal S1x128 .f32)
    (p : Fin 2000) (f : Fin 128) :
    k2_pay2 (F := Ideal) v0 v2 v5 v10 v14 v16 v20 v22 v25 (ix2 p f)
      = (((v0 (ix2 p (0 : Fin 1)) * (v5 (ix2 p f) + v2 (ix2 p f)) + v10 (ix2 (0 : Fin 1) f))
            + FloatOps.divf (F := Ideal) (φ := .f32) (v14 (ix2 p f)) (v16 (ix2 p (0 : Fin 1))))
          + ((∑ c : Fin 128, v20 (ix2 p c) * v22 (ix2 c f)) + v25 (ix2 (0 : Fin 1) f))) + eps1 := by
  unfold k2_pay2
  show (((broadcastTo S2000x128 (shapeCast S2000x1 v0 shapeCasts_S2000x1_S2000x1) broadcasts_S2000x1_S2000x128 (ix2 p f)
            * (shapeCast S2000x128 v5 shapeCasts_S2000x128_S2000x128 (ix2 p f)
                + (shapeCast S2000x128 v2 shapeCasts_S2000x128_S2000x128 : FVec Ideal S2000x128 .bf16) (ix2 p f))
          + broadcastTo S2000x128 (shapeCast S1x128 v10 shapeCasts_S1x128_S1x128) broadcasts_S1x128_S2000x128 (ix2 p f))
        + FloatOps.divf (F := Ideal) (φ := .f32) (shapeCast S2000x128 v14 shapeCasts_S2000x128_S2000x128 (ix2 p f))
            (broadcastTo S2000x128 (shapeCast S2000x1 v16 shapeCasts_S2000x1_S2000x1) broadcasts_S2000x1_S2000x128 (ix2 p f)))
      + (matmul dot_S2000x128_S128x128_S2000x128_1_0_0_1_n_n none (truncf .bf16 v20 bitsLt_bf16_f32 : FVec Ideal S2000x128 .bf16)
            (truncf .bf16 v22 bitsLt_bf16_f32 : FVec Ideal S128x128 .bf16) (constant S2000x128 .f32 0x00000000#32) (ix2 p f)
          + broadcastTo S2000x128 (shapeCast S1x128 v25 shapeCasts_S1x128_S1x128) broadcasts_S1x128_S2000x128 (ix2 p f)))
      + eps1 = _
  rw [prod_apply, broadcastTo_a1_ab_apply, broadcastTo_a1_ab_apply, broadcastTo_1b_ab_apply, broadcastTo_1b_ab_apply]
  simp only [shapeCast_self]

/-- Block C's row mean at a row. -/
theorem k2_pay3_apply (v0 : Vec Ideal S2000x1 .f32) (v2 : Vec Ideal S2000x128 .bf16) (v5 : Vec Ideal S2000x128 .f32)
    (v10 : Vec Ideal S1x128 .f32) (v14 : Vec Ideal S2000x128 .f32) (v16 : Vec Ideal S2000x1 .f32)
    (v20 : Vec Ideal S2000x128 .f32) (v22 : Vec Ideal S128x128 .f32) (v25 : Vec Ideal S1x128 .f32) (p : Fin 2000) :
    k2_pay3 (F := Ideal) v0 v2 v5 v10 v14 v16 v20 v22 v25 (ix2 p (0 : Fin 1))
      = FloatOps.divf (F := Ideal) (φ := .f32)
          (∑ f : Fin 128, k2_pay2 (F := Ideal) v0 v2 v5 v10 v14 v16 v20 v22 v25 (ix2 p f)) len128 := by
  unfold k2_pay3
  generalize k2_pay2 (F := Ideal) v0 v2 v5 v10 v14 v16 v20 v22 v25 = Y
  show FloatOps.divf (F := Ideal) (φ := .f32)
      (shapeCast S2000x1 (multiReduction .add [1] S2000 Y 0x00000000#32 reduces_S2000x128_S2000 (.inl rfl) rfl)
        shapeCasts_S2000_S2000x1 (ix2 p (0 : Fin 1))) len128 = _
  rw [Cert.LibColumnCast.shapeCast_a_a1_apply]
  exact congrArg (fun z => FloatOps.divf (F := Ideal) (φ := .f32) z len128)
    (vecRowSum_apply Y 0x00000000#32 reduces_S2000x128_S2000 (.inl rfl) rfl p)

/-- Block C's stored value at an entry, from the pre-normalisation block `Y` and the mean column `M`. -/
theorem k2_pay1_apply (Y : FVec Ideal S2000x128 .f32) (M : FVec Ideal S2000x1 .f32) (p : Fin 2000) (f : Fin 128) :
    k2_pay1 (F := Ideal) Y M (ix2 p f)
      = (Y (ix2 p f) - M (ix2 p (0 : Fin 1)))
        * FloatOps.rsqrt (F := Ideal) (φ := .f32)
            (FloatOps.divf (F := Ideal) (φ := .f32)
                (∑ g : Fin 128, (Y (ix2 p g) - M (ix2 p (0 : Fin 1))) * (Y (ix2 p g) - M (ix2 p (0 : Fin 1)))) len128
              + eps2) := by
  unfold k2_pay1
  show (Y (ix2 p f) - broadcastTo S2000x128 M broadcasts_S2000x1_S2000x128 (ix2 p f))
      * broadcastTo S2000x128 (rsqrt (addf (divf (shapeCast S2000x1
            (multiReduction .add [1] S2000 (mulf (subf Y (broadcastTo S2000x128 M broadcasts_S2000x1_S2000x128))
              (subf Y (broadcastTo S2000x128 M broadcasts_S2000x1_S2000x128))) 0x00000000#32 reduces_S2000x128_S2000 (.inl rfl) rfl)
            shapeCasts_S2000_S2000x1) (broadcast S2000x1 (Scalar.ofBits .f32 0x43000000#32 : Ideal .f32)))
          (broadcast S2000x1 (Scalar.ofBits .f32 0x3727C5AC#32 : Ideal .f32)))) broadcasts_S2000x1_S2000x128 (ix2 p f) = _
  rw [broadcastTo_a1_ab_apply, broadcastTo_a1_ab_apply]
  show _ * FloatOps.rsqrt (F := Ideal) (φ := .f32) (FloatOps.divf (F := Ideal) (φ := .f32)
      (shapeCast S2000x1 (multiReduction .add [1] S2000 (mulf (subf Y (broadcastTo S2000x128 M broadcasts_S2000x1_S2000x128))
              (subf Y (broadcastTo S2000x128 M broadcasts_S2000x1_S2000x128))) 0x00000000#32 reduces_S2000x128_S2000 (.inl rfl) rfl)
            shapeCasts_S2000_S2000x1 (ix2 p (0 : Fin 1))) len128 + eps2) = _
  rw [Cert.LibColumnCast.shapeCast_a_a1_apply]
  have hs : multiReduction .add [1] S2000 (mulf (subf Y (broadcastTo S2000x128 M broadcasts_S2000x1_S2000x128))
        (subf Y (broadcastTo S2000x128 M broadcasts_S2000x1_S2000x128))) 0x00000000#32 reduces_S2000x128_S2000 (.inl rfl) rfl (ix1 p)
      = ∑ g : Fin 128, (Y (ix2 p g) - M (ix2 p (0 : Fin 1))) * (Y (ix2 p g) - M (ix2 p (0 : Fin 1))) := by
    refine (vecRowSum_apply _ 0x00000000#32 reduces_S2000x128_S2000 (.inl rfl) rfl p).trans ?_
    refine Finset.sum_congr rfl fun g _ => ?_
    show (Y (ix2 p g) - broadcastTo S2000x128 M broadcasts_S2000x1_S2000x128 (ix2 p g))
        * (Y (ix2 p g) - broadcastTo S2000x128 M broadcasts_S2000x1_S2000x128 (ix2 p g)) = _
    rw [broadcastTo_a1_ab_apply]
  exact congrArg (fun z => (Y (ix2 p f) - M (ix2 p (0 : Fin 1)))
    * FloatOps.rsqrt (F := Ideal) (φ := .f32) (FloatOps.divf (F := Ideal) (φ := .f32) z len128 + eps2)) hs

end Cert.KernelIdeal.Pay

end
-- ==== Proof.KRegion0.lean ====
/-
  The first region (node pre-scaling) as one whole-array function.

  The region walks the 100 000 × 128 feature array in 50 blocks of 2000 rows; point `t` reads rows
  `2000·t … 2000·t + 1999` of the features and of the one-column array, the whole weight matrix, and writes the
  same rows of the result.  The blocks tile the result, so after the region the result array holds, at `(n, f)`,
  `(Σ_c X(n, c) · W(c, f)) · d(n)` of the arrays as the region finds them.
-/
import proofs.«174504_j2302102471104_2_alg».proof.Proof.Gen.KernelIdeal.Frame
import proofs.«174504_j2302102471104_2_alg».proof.Proof.KPay

set_option maxRecDepth 16384

noncomputable section

open scoped BigOperators

namespace Cert.KernelIdeal.Region0

open Cert.KernelIdeal Cert.KernelIdeal.Gen
open Idealize.ShloMosaic Idealize.ShloMosaic.ValueIdx Idealize.ShloMosaic.TcCoe Idealize.SL.Sem
open Idealize.ShloMosaic.Pipeline (Dat)

theorem hz : (![0, 0] : Fin 2 → Nat) = fun _ => 0 := funext fun a => by fin_cases a <;> rfl

/-- The node and the feature of an index of the 100 000 × 128 array. -/
abbrev rowN (i : S100000x128.Idx) : Fin 100000 := ⟨(i 0).val, (i 0).isLt⟩
abbrev colF (i : S100000x128.Idx) : Fin 128 := ⟨(i 1).val, (i 1).isLt⟩

/-- What the region leaves: the projected features, each node's row scaled by its entry of the column `d`. -/
def G (X : S100000x128.Idx → EReal) (W : S128x128.Idx → EReal) (d : S100000x1.Idx → EReal) : S100000x128.Idx → EReal :=
  fun i => (∑ c : Fin 128, X (ix2 (rowN i) c) * W (ix2 c (colF i))) * d (ix2 (rowN i) (0 : Fin 1))

theorem G_apply (X : S100000x128.Idx → EReal) (W : S128x128.Idx → EReal) (d : S100000x1.Idx → EReal) (n : Fin 100000) (f : Fin 128) :
    G X W d (ix2 n f) = (∑ c : Fin 128, X (ix2 n c) * W (ix2 c f)) * d (ix2 n (0 : Fin 1)) := rfl

/-- One point: the body's value on blocks that are rows `2000·tv + p` of the arrays is `G` at the same rows. -/
theorem point (X : S100000x128.Idx → EReal) (W : S128x128.Idx → EReal) (d : S100000x1.Idx → EReal)
    (x0 : Vec Ideal S2000x128 .f32) (x1 : Vec Ideal S128x128 .f32) (x2 : Vec Ideal S2000x1 .f32) (tv : Nat)
    (h0 : ∀ (p : Fin 2000) (c : Fin 128) (n : Fin 100000), n.val = tv * 2000 + p.val → x0 (ix2 p c) = X (ix2 n c))
    (h1 : ∀ (c f : Fin 128), x1 (ix2 c f) = W (ix2 c f))
    (h2 : ∀ (p : Fin 2000) (n : Fin 100000), n.val = tv * 2000 + p.val → x2 (ix2 p (0 : Fin 1)) = d (ix2 n (0 : Fin 1)))
    (j : S2000x128.Idx) (i : S100000x128.Idx) (hi0 : (i 0).val = tv * 2000 + (j 0).val) (hi1 : (i 1).val = (j 1).val) :
    k0_pay1 (F := Ideal) x0 x1 x2 j = G X W d i := by
  obtain ⟨p, f, rfl⟩ : ∃ (p : Fin 2000) (f : Fin 128), j = ix2 p f := ⟨j 0, j 1, eq_ix2 j⟩
  obtain ⟨n, g, rfl⟩ : ∃ (n : Fin 100000) (g : Fin 128), i = ix2 n g := ⟨i 0, i 1, eq_ix2 i⟩
  have hn : n.val = tv * 2000 + p.val := hi0
  obtain rfl : g = f := Fin.ext hi1
  rw [Cert.KernelIdeal.Pay.k0_pay1_apply, G_apply, h2 p n hn]
  congr 1
  refine Finset.sum_congr rfl fun c _ => ?_
  rw [h0 p c n hn, h1]

variable (V : (c : Dev nD) → (b : Ref sig .tc) → Buf (Elt Ideal) ((c : Thread nD τ).loc b))

/-- The printed index maps, decided over the grid: the three row-blocked windows sit at block row `t`, the
    weight matrix is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `G` of the arrays as the region finds them. -/
theorem flushed_eq (c : Dev nD) (t : Fin cfg0.N) :
    (dat0 V c).flushed 3 t
      = ((cfg0.win 3).blk t).view.read (Elt Ideal) (G (V c main_arg0) (V c main_arg2) (V c main_v17)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S2000x1) hz]
  obtain ⟨e00, e01, e10, e11, e20, e21, e30, e31⟩ := idx_facts t
  funext j
  refine point (V c main_arg0) (V c main_arg2) (V c main_v17) (iblk0 V c 0 t) (iblk0 V c 1 t) (iblk0 V c 2 t) t.val
    (fun p cc n hn => ?_) (fun cc f => ?_) (fun p n hn => ?_) j (((cfg0.win 3).blk t).view.emb j) ?_ ?_
  · show V c main_arg0 (((cfg0.win 0).blk t).view.emb (ix2 p cc)) = V c main_arg0 (ix2 n cc)
    refine congrArg _ (funext fun a => Fin.ext ?_)
    match a with
    | ⟨0, _⟩ => show win0_0.index t (0 : Fin 2) * 2000 + 1 * p.val = n.val; omega
    | ⟨1, _⟩ => show win0_0.index t (1 : Fin 2) * 128 + 1 * cc.val = cc.val; omega
  · show V c main_arg2 (((cfg0.win 1).blk t).view.emb (ix2 cc f)) = V c main_arg2 (ix2 cc f)
    refine congrArg _ (funext fun a => Fin.ext ?_)
    match a with
    | ⟨0, _⟩ => show win0_1.index t (0 : Fin 2) * 128 + 1 * cc.val = cc.val; omega
    | ⟨1, _⟩ => show win0_1.index t (1 : Fin 2) * 128 + 1 * f.val = f.val; omega
  · show V c main_v17 (((cfg0.win 2).blk t).view.emb (ix2 p (0 : Fin 1))) = V c main_v17 (ix2 n (0 : Fin 1))
    refine congrArg _ (funext fun a => Fin.ext ?_)
    match a with
    | ⟨0, _⟩ => show win0_2.index t (0 : Fin 2) * 2000 + 1 * p.val = n.val; omega
    | ⟨1, _⟩ => show win0_2.index t (1 : Fin 2) * 1 + 1 * 0 = 0; omega
  · show win0_3.index t (0 : Fin 2) * 2000 + 1 * (j 0).val = t.val * 2000 + (j 0).val; omega
  · show win0_3.index t (1 : Fin 2) * 128 + 1 * (j 1).val = (j 1).val; omega

/-- An index of the result is in point `t`'s block iff each coordinate is in the block's range on its axis. -/
theorem mem_blk (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v18).slice (win0_3.rect t)).set ↔ _
  rw [View.set_slice_whole, Rect.mem_set_unit]
  exact Iff.rfl

/-- Every index of the result lies in the block of the point that holds its row. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by show (i 0).val / 2000 < 50; omega⟩, rfl⟩
  obtain ⟨e00, e01, e10, e11, e20, e21, e30, e31⟩ := idx_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE RESULT ARRAY after the region. -/
theorem final (c : Dev nD) :
    (dat0 V c).arrAt 3 cfg0.N = G (V c main_arg0) (V c main_arg2) (V c main_v17) :=
  (dat0 V c).arrAt_eq_of_cover 3 _ (fun t _ => flushed_eq V c t) cover

end Cert.KernelIdeal.Region0

end
-- ==== Proof.KRegion1.lean ====
/-
  The second region (the drug-side dense layer) as one whole-array function.

  The region walks the 20 000 × 128 drug features in 10 blocks of 2000 rows; point `t` reads rows
  `2000·t … 2000·t + 1999`, the whole weight matrix and the one-row bias, and writes the same rows of the result.
  The blocks tile the result, so after the region the result array holds, at `(j, f)`,
  `Σ_c X(j, c) · W(c, f) + b(0, f)` of the arrays as the region finds them.
-/
import proofs.«174504_j2302102471104_2_alg».proof.Proof.Gen.KernelIdeal.Frame
import proofs.«174504_j2302102471104_2_alg».proof.Proof.KPay

set_option maxRecDepth 16384

noncomputable section

open scoped BigOperators

namespace Cert.KernelIdeal.Region1

open Cert.KernelIdeal Cert.KernelIdeal.Gen
open Idealize.ShloMosaic Idealize.ShloMosaic.ValueIdx Idealize.ShloMosaic.TcCoe Idealize.SL.Sem
open Idealize.ShloMosaic.Pipeline (Dat)

theorem hz : (![0, 0] : Fin 2 → Nat) = fun _ => 0 := funext fun a => by fin_cases a <;> rfl

/-- The row and the feature of an index of the 20 000 × 128 array. -/
abbrev rowM (i : S20000x128.Idx) : Fin 20000 := ⟨(i 0).val, (i 0).isLt⟩
abbrev colF (i : S20000x128.Idx) : Fin 128 := ⟨(i 1).val, (i 1).isLt⟩

/-- What the region leaves: the dense layer of every row. -/
def G (X : S20000x128.Idx → EReal) (W : S128x128.Idx → EReal) (b : S1x128.Idx → EReal) : S20000x128.Idx → EReal :=
  fun i => (∑ c : Fin 128, X (ix2 (rowM i) c) * W (ix2 c (colF i))) + b (ix2 (0 : Fin 1) (colF i))

theorem G_apply (X : S20000x128.Idx → EReal) (W : S128x128.Idx → EReal) (b : S1x128.Idx → EReal) (n : Fin 20000) (f : Fin 128) :
    G X W b (ix2 n f) = (∑ c : Fin 128, X (ix2 n c) * W (ix2 c f)) + b (ix2 (0 : Fin 1) f) := rfl

/-- One point: the body's value on blocks that are rows `2000·tv + p` of the features is `G` at the same rows. -/
theorem point (X : S20000x128.Idx → EReal) (W : S128x128.Idx → EReal) (b : S1x128.Idx → EReal)
    (x0 : Vec Ideal S2000x128 .f32) (x1 : Vec Ideal S128x128 .f32) (x2 : Vec Ideal S1x128 .f32) (tv : Nat)
    (h0 : ∀ (p : Fin 2000) (c : Fin 128) (n : Fin 20000), n.val = tv * 2000 + p.val → x0 (ix2 p c) = X (ix2 n c))
    (h1 : ∀ (c f : Fin 128), x1 (ix2 c f) = W (ix2 c f))
    (h2 : ∀ (f : Fin 128), x2 (ix2 (0 : Fin 1) f) = b (ix2 (0 : Fin 1) f))
    (j : S2000x128.Idx) (i : S20000x128.Idx) (hi0 : (i 0).val = tv * 2000 + (j 0).val) (hi1 : (i 1).val = (j 1).val) :
    k1_pay1 (F := Ideal) x0 x1 x2 j = G X W b i := by
  obtain ⟨p, f, rfl⟩ : ∃ (p : Fin 2000) (f : Fin 128), j = ix2 p f := ⟨j 0, j 1, eq_ix2 j⟩
  obtain ⟨n, g, rfl⟩ : ∃ (n : Fin 20000) (g : Fin 128), i = ix2 n g := ⟨i 0, i 1, eq_ix2 i⟩
  have hn : n.val = tv * 2000 + p.val := hi0
  obtain rfl : g = f := Fin.ext hi1
  rw [Cert.KernelIdeal.Pay.k1_pay1_apply, G_apply, h2 g]
  congr 1
  refine Finset.sum_congr rfl fun c _ => ?_
  rw [h0 p c n hn, h1]

variable (V : (c : Dev nD) → (b : Ref sig .tc) → Buf (Elt Ideal) ((c : Thread nD τ).loc b))

/-- The printed index maps, decided over the grid. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `G` of the arrays as the region finds them. -/
theorem flushed_eq (c : Dev nD) (t : Fin cfg1.N) :
    (dat1 V c).flushed 3 t
      = ((cfg1.win 3).blk t).view.read (Elt Ideal) (G (V c main_arg1) (V c main_arg4) (V c main_v6)) := by
  show (cfg1.win 3).cut (grid1.coords t) ((dat1 V c).after 3 t) = _
  rw [after1_3]
  unfold out1_3
  rw [View.canon_unit_zero hz]
  simp only [View.ld_unit_zero (S := S2000x128) hz, View.ld_unit_zero (S := S128x128) hz, View.ld_unit_zero (S := S1x128) hz]
  obtain ⟨e00, e01, e10, e11, e20, e21, e30, e31⟩ := idx_facts t
  funext j
  refine point (V c main_arg1) (V c main_arg4) (V c main_v6) (iblk1 V c 0 t) (iblk1 V c 1 t) (iblk1 V c 2 t) t.val
    (fun p cc n hn => ?_) (fun cc f => ?_) (fun f => ?_) j (((cfg1.win 3).blk t).view.emb j) ?_ ?_
  · show V c main_arg1 (((cfg1.win 0).blk t).view.emb (ix2 p cc)) = V c main_arg1 (ix2 n cc)
    refine congrArg _ (funext fun a => Fin.ext ?_)
    match a with
    | ⟨0, _⟩ => show win1_0.index t (0 : Fin 2) * 2000 + 1 * p.val = n.val; omega
    | ⟨1, _⟩ => show win1_0.index t (1 : Fin 2) * 128 + 1 * cc.val = cc.val; omega
  · show V c main_arg4 (((cfg1.win 1).blk t).view.emb (ix2 cc f)) = V c main_arg4 (ix2 cc f)
    refine congrArg _ (funext fun a => Fin.ext ?_)
    match a with
    | ⟨0, _⟩ => show win1_1.index t (0 : Fin 2) * 128 + 1 * cc.val = cc.val; omega
    | ⟨1, _⟩ => show win1_1.index t (1 : Fin 2) * 128 + 1 * f.val = f.val; omega
  · show V c main_v6 (((cfg1.win 2).blk t).view.emb (ix2 (0 : Fin 1) f)) = V c main_v6 (ix2 (0 : Fin 1) f)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * f.val = f.val; omega
  · show win1_3.index t (0 : Fin 2) * 2000 + 1 * (j 0).val = t.val * 2000 + (j 0).val; omega
  · show win1_3.index t (1 : Fin 2) * 128 + 1 * (j 1).val = (j 1).val; omega

/-- An index of the result is in point `t`'s block iff each coordinate is in the block's range on its axis. -/
theorem mem_blk (t : Fin cfg1.N) (i : S20000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v19).slice (win1_3.rect t)).set ↔ _
  rw [View.set_slice_whole, Rect.mem_set_unit]
  exact Iff.rfl

/-- Every index of the result lies in the block of the point that holds its row. -/
theorem cover (i : S20000x128.Idx) :
    ∃ t : Fin cfg1.N, (cfg1.win 3).flush t = true ∧ i ∈ ((cfg1.win 3).blk t).view.set := by
  have hi0 : (i 0).val < 20000 := (i 0).isLt
  have hi1 : (i 1).val < 128 := (i 1).isLt
  obtain ⟨t, ht⟩ : ∃ t : Fin cfg1.N, t.val = (i 0).val / 2000 :=
    ⟨⟨(i 0).val / 2000, by show (i 0).val / 2000 < 10; omega⟩, rfl⟩
  obtain ⟨e00, e01, e10, e11, e20, e21, e30, e31⟩ := idx_facts t
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- THE RESULT ARRAY after the region. -/
theorem final (c : Dev nD) :
    (dat1 V c).arrAt 3 cfg1.N = G (V c main_arg1) (V c main_arg4) (V c main_v6) :=
  (dat1 V c).arrAt_eq_of_cover 3 _ (fun t _ => flushed_eq V c t) cover

end Cert.KernelIdeal.Region1

end
-- ==== Proof.KRegion2.lean ====
/-
  The third region (combine the three terms and normalise every row) as one whole-array function.

  The region walks the 100 000 rows in 50 blocks of 2000; point `t` reads rows `2000·t … 2000·t + 1999` of the six
  row-blocked arrays (features, accumulated edges, pre-scaled features, the normaliser column, the summed drug
  messages, the count column), the whole weight matrix and the two one-row biases, and writes the same rows of the
  result.  For a node `n`, with
      y(f) = ((d(n) · (acc(n, f) + xs(n, f)) + bg(f)) + s(n, f) / cnt(n)) + (Σ_c X(n, c) · W(c, f) + bp(f))) + ε₁,
      μ = (Σ_f y(f)) / 128,
  the result at `(n, f)` is `(y(f) − μ) · (Σ_g (y(g) − μ)² / 128 + ε₂)^(-1/2)`.
-/
import proofs.«174504_j2302102471104_2_alg».proof.Proof.Gen.KernelIdeal.Frame
import proofs.«174504_j2302102471104_2_alg».proof.Proof.KPay

set_option maxRecDepth 16384

noncomputable section

open scoped BigOperators

namespace Cert.KernelIdeal.Region2

open Cert.KernelIdeal Cert.KernelIdeal.Gen Cert.KernelIdeal.Pay Cert.RowSpec
open Idealize.ShloMosaic Idealize.ShloMosaic.ValueIdx Idealize.ShloMosaic.TcCoe Idealize.SL.Sem
open Idealize.ShloMosaic.Pipeline (Dat)

theorem hz : (![0, 0] : Fin 2 → Nat) = fun _ => 0 := funext fun a => by fin_cases a <;> rfl

abbrev rowN (i : S100000x128.Idx) : Fin 100000 := ⟨(i 0).val, (i 0).isLt⟩
abbrev colF (i : S100000x128.Idx) : Fin 128 := ⟨(i 1).val, (i 1).isLt⟩

/-- The sum of the three terms at node `n`, feature `f`. -/
def ySum (X acc s : S100000x128.Idx → EReal) (xs : S100000x128.Idx → EReal) (d cnt : S100000x1.Idx → EReal)
    (W : S128x128.Idx → EReal) (bp bg : S1x128.Idx → EReal) (n : Fin 100000) (f : Fin 128) : EReal :=
  (((d (ix2 n (0 : Fin 1)) * (acc (ix2 n f) + xs (ix2 n f)) + bg (ix2 (0 : Fin 1) f))
        + FloatOps.divf (F := Ideal) (φ := .f32) (s (ix2 n f)) (cnt (ix2 n (0 : Fin 1))))
      + ((∑ c : Fin 128, X (ix2 n c) * W (ix2 c f)) + bp (ix2 (0 : Fin 1) f))) + eps1

/-- What the region leaves. -/
def G (X acc s : S100000x128.Idx → EReal) (xs : S100000x128.Idx → EReal) (d cnt : S100000x1.Idx → EReal)
    (W : S128x128.Idx → EReal) (bp bg : S1x128.Idx → EReal) : S100000x128.Idx → EReal :=
  fun i => lnRow (ySum X acc s xs d cnt W bp bg (rowN i)) (colF i)

theorem G_apply (X acc s : S100000x128.Idx → EReal) (xs : S100000x128.Idx → EReal) (d cnt : S100000x1.Idx → EReal)
    (W : S128x128.Idx → EReal) (bp bg : S1x128.Idx → EReal) (n : Fin 100000) (f : Fin 128) :
    G X acc s xs d cnt W bp bg (ix2 n f) = lnRow (ySum X acc s xs d cnt W bp bg n) f := rfl

/-- One point: the body's value on blocks that are rows `2000·tv + p` of the arrays is `G` at the same rows. -/
theorem point (X acc s : S100000x128.Idx → EReal) (xs : S100000x128.Idx → EReal) (d cnt : S100000x1.Idx → EReal)
    (W : S128x128.Idx → EReal) (bp bg : S1x128.Idx → EReal)
    (x0 x1 x4 : Vec Ideal S2000x128 .f32) (x2 : Vec Ideal S2000x128 .bf16) (x3 x5 : Vec Ideal S2000x1 .f32)
    (x6 : Vec Ideal S128x128 .f32) (x7 x8 : Vec Ideal S1x128 .f32) (tv : Nat)
    (h0 : ∀ (p : Fin 2000) (c : Fin 128) (n : Fin 100000), n.val = tv * 2000 + p.val → x0 (ix2 p c) = X (ix2 n c))
    (h1 : ∀ (p : Fin 2000) (c : Fin 128) (n : Fin 100000), n.val = tv * 2000 + p.val → x1 (ix2 p c) = acc (ix2 n c))
    (h2 : ∀ (p : Fin 2000) (c : Fin 128) (n : Fin 100000), n.val = tv * 2000 + p.val → x2 (ix2 p c) = xs (ix2 n c))
    (h3 : ∀ (p : Fin 2000) (n : Fin 100000), n.val = tv * 2000 + p.val → x3 (ix2 p (0 : Fin 1)) = d (ix2 n (0 : Fin 1)))
    (h4 : ∀ (p : Fin 2000) (c : Fin 128) (n : Fin 100000), n.val = tv * 2000 + p.val → x4 (ix2 p c) = s (ix2 n c))
    (h5 : ∀ (p : Fin 2000) (n : Fin 100000), n.val = tv * 2000 + p.val → x5 (ix2 p (0 : Fin 1)) = cnt (ix2 n (0 : Fin 1)))
    (h6 : ∀ (c f : Fin 128), x6 (ix2 c f) = W (ix2 c f))
    (h7 : ∀ (f : Fin 128), x7 (ix2 (0 : Fin 1) f) = bp (ix2 (0 : Fin 1) f))
    (h8 : ∀ (f : Fin 128), x8 (ix2 (0 : Fin 1) f) = bg (ix2 (0 : Fin 1) f))
    (j : S2000x128.Idx) (i : S100000x128.Idx) (hi0 : (i 0).val = tv * 2000 + (j 0).val) (hi1 : (i 1).val = (j 1).val) :
    k2_pay1 (F := Ideal) (k2_pay2 x3 x2 x1 x8 x4 x5 x0 x6 x7) (k2_pay3 x3 x2 x1 x8 x4 x5 x0 x6 x7) j
      = G X acc s xs d cnt W bp bg i := by
  obtain ⟨p, f, rfl⟩ : ∃ (p : Fin 2000) (f : Fin 128), j = ix2 p f := ⟨j 0, j 1, eq_ix2 j⟩
  obtain ⟨n, g, rfl⟩ : ∃ (n : Fin 100000) (g : Fin 128), i = ix2 n g := ⟨i 0, i 1, eq_ix2 i⟩
  have hn : n.val = tv * 2000 + p.val := hi0
  obtain rfl : g = f := Fin.ext hi1
  have hy : ∀ q : Fin 128, k2_pay2 (F := Ideal) x3 x2 x1 x8 x4 x5 x0 x6 x7 (ix2 p q) = ySum X acc s xs d cnt W bp bg n q := by
    intro q
    rw [k2_pay2_apply, h3 p n hn, h1 p q n hn, h2 p q n hn, h8 q, h4 p q n hn, h5 p n hn, h7 q]
    unfold ySum
    congr 3
    refine Finset.sum_congr rfl fun c _ => ?_
    rw [h0 p c n hn, h6]
  rw [k2_pay1_apply, k2_pay3_apply, G_apply]
  simp only [hy]
  rfl

variable (V : (c : Dev nD) → (b : Ref sig .tc) → Buf (Elt Ideal) ((c : Thread nD τ).loc b))

/-- The printed index maps, decided over the grid: the seven row-blocked windows sit at block row `t`, the weight
    matrix and the two bias rows are one block each. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- What point `t` writes back is block `t` of `G` of the arrays as the region finds them. -/
theorem flushed_eq (c : Dev nD) (t : Fin cfg2.N) :
    (dat2 V c).flushed 9 t
      = ((cfg2.win 9).blk t).view.read (Elt Ideal)
          (G (V c main_arg0) (V c main_v30) (V c main_v41) (V c main_v18) (V c main_v17) (V c main_v48)
            (V c main_arg6) (V c main_v5) (V c main_v4)) := by
  show (cfg2.win 9).cut (grid2.coords t) ((dat2 V c).after 9 t) = _
  rw [after2_9]
  unfold out2_9
  rw [View.canon_unit_zero hz]
  simp only [View.ld_unit_zero (S := S2000x128) hz, View.ld_unit_zero (S := S128x128) hz, View.ld_unit_zero (S := S2000x1) hz,
    View.ld_unit_zero (S := S1x128) hz]
  obtain ⟨e00, e01, e10, e11, e20, e21, e30, e31, e40, e41, e50, e51, e60, e61, e70, e71, e80, e81, e90, e91⟩ := idx_facts t
  funext j
  refine point (V c main_arg0) (V c main_v30) (V c main_v41) (V c main_v18) (V c main_v17) (V c main_v48)
    (V c main_arg6) (V c main_v5) (V c main_v4)
    (iblk2 V c 0 t) (iblk2 V c 1 t) (iblk2 V c 4 t) (iblk2 V c 2 t) (iblk2 V c 3 t) (iblk2 V c 5 t) (iblk2 V c 6 t)
    (iblk2 V c 7 t) (iblk2 V c 8 t) t.val
    (fun p cc n hn => ?_) (fun p cc n hn => ?_) (fun p cc n hn => ?_) (fun p n hn => ?_) (fun p cc n hn => ?_)
    (fun p n hn => ?_) (fun cc f => ?_) (fun f => ?_) (fun f => ?_) j (((cfg2.win 9).blk t).view.emb j) ?_ ?_
  · show V c main_arg0 (((cfg2.win 0).blk t).view.emb (ix2 p cc)) = V c main_arg0 (ix2 n cc)
    refine congrArg _ (funext fun a => Fin.ext ?_)
    match a with
    | ⟨0, _⟩ => show win2_0.index t (0 : Fin 2) * 2000 + 1 * p.val = n.val; omega
    | ⟨1, _⟩ => show win2_0.index t (1 : Fin 2) * 128 + 1 * cc.val = cc.val; omega
  · show V c main_v30 (((cfg2.win 1).blk t).view.emb (ix2 p cc)) = V c main_v30 (ix2 n cc)
    refine congrArg _ (funext fun a => Fin.ext ?_)
    match a with
    | ⟨0, _⟩ => show win2_1.index t (0 : Fin 2) * 2000 + 1 * p.val = n.val; omega
    | ⟨1, _⟩ => show win2_1.index t (1 : Fin 2) * 128 + 1 * cc.val = cc.val; omega
  · show V c main_v18 (((cfg2.win 2).blk t).view.emb (ix2 p cc)) = V c main_v18 (ix2 n cc)
    refine congrArg _ (funext fun a => Fin.ext ?_)
    match a with
    | ⟨0, _⟩ => show win2_2.index t (0 : Fin 2) * 2000 + 1 * p.val = n.val; omega
    | ⟨1, _⟩ => show win2_2.index t (1 : Fin 2) * 128 + 1 * cc.val = cc.val; omega
  · show V c main_v17 (((cfg2.win 3).blk t).view.emb (ix2 p (0 : Fin 1))) = V c main_v17 (ix2 n (0 : Fin 1))
    refine congrArg _ (funext fun a => Fin.ext ?_)
    match a with
    | ⟨0, _⟩ => show win2_3.index t (0 : Fin 2) * 2000 + 1 * p.val = n.val; omega
    | ⟨1, _⟩ => show win2_3.index t (1 : Fin 2) * 1 + 1 * 0 = 0; omega
  · show V c main_v41 (((cfg2.win 4).blk t).view.emb (ix2 p cc)) = V c main_v41 (ix2 n cc)
    refine congrArg _ (funext fun a => Fin.ext ?_)
    match a with
    | ⟨0, _⟩ => show win2_4.index t (0 : Fin 2) * 2000 + 1 * p.val = n.val; omega
    | ⟨1, _⟩ => show win2_4.index t (1 : Fin 2) * 128 + 1 * cc.val = cc.val; omega
  · show V c main_v48 (((cfg2.win 5).blk t).view.emb (ix2 p (0 : Fin 1))) = V c main_v48 (ix2 n (0 : Fin 1))
    refine congrArg _ (funext fun a => Fin.ext ?_)
    match a with
    | ⟨0, _⟩ => show win2_5.index t (0 : Fin 2) * 2000 + 1 * p.val = n.val; omega
    | ⟨1, _⟩ => show win2_5.index t (1 : Fin 2) * 1 + 1 * 0 = 0; omega
  · show V c main_arg6 (((cfg2.win 6).blk t).view.emb (ix2 cc f)) = V c main_arg6 (ix2 cc f)
    refine congrArg _ (funext fun a => Fin.ext ?_)
    match a with
    | ⟨0, _⟩ => show win2_6.index t (0 : Fin 2) * 128 + 1 * cc.val = cc.val; omega
    | ⟨1, _⟩ => show win2_6.index t (1 : Fin 2) * 128 + 1 * f.val = f.val; omega
  · show V c main_v5 (((cfg2.win 7).blk t).view.emb (ix2 (0 : Fin 1) f)) = V c main_v5 (ix2 (0 : Fin 1) f)
    refine congrArg _ (funext fun a => Fin.ext ?_)
    match a with
    | ⟨0, _⟩ => show win2_7.index t (0 : Fin 2) * 1 + 1 * 0 = 0; omega
    | ⟨1, _⟩ => show win2_7.index t (1 : Fin 2) * 128 + 1 * f.val = f.val; omega
  · show V c main_v4 (((cfg2.win 8).blk t).view.emb (ix2 (0 : Fin 1) f)) = V c main_v4 (ix2 (0 : Fin 1) f)
    refine congrArg _ (funext fun a => Fin.ext ?_)
    match a with
    | ⟨0, _⟩ => show win2_8.index t (0 : Fin 2) * 1 + 1 * 0 = 0; omega
    | ⟨1, _⟩ => show win2_8.index t (1 : Fin 2) * 128 + 1 * f.val = f.val; omega
  · show win2_9.index t (0 : Fin 2) * 2000 + 1 * (j 0).val = t.val * 2000 + (j 0).val; omega
  · show win2_9.index t (1 : Fin 2) * 128 + 1 * (j 1).val = (j 1).val; omega

/-- An index of the result is in point `t`'s block iff each coordinate is in the block's range on its axis. -/
theorem mem_blk (t : Fin cfg2.N) (i : S100000x128.Idx) :
    i ∈ ((cfg2.win 9).blk t).view.set ↔ ∀ a : Fin 2, win2_9.index t a * S2000x128.size a ≤ (i a).val
      ∧ (i a).val < win2_9.index t a * S2000x128.size a + S2000x128.size a := by
  show i ∈ ((View.whole main_v49).slice (win2_9.rect t)).set ↔ _
  rw [View.set_slice_whole, Rect.mem_set_unit]
  exact Iff.rfl

/-- Every index of the result lies in the block of the point that holds its row. -/
theorem cover (i : S100000x128.Idx) :
    ∃ t : Fin cfg2.N, (cfg2.win 9).flush t = true ∧ i ∈ ((cfg2.win 9).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, by show (i 0).val / 2000 < 50; omega⟩, rfl⟩
  obtain ⟨e00, e01, e10, e11, e20, e21, e30, e31, e40, e41, e50, e51, e60, e61, e70, e71, e80, e81, e90, e91⟩ := idx_facts t
  refine ⟨t, flush2_9 t, ?_⟩
  rw [mem_blk]
  intro a
  match a with
  | ⟨0, _⟩ => show win2_9.index t (0 : Fin 2) * 2000 ≤ (i 0).val ∧ (i 0).val < win2_9.index t (0 : Fin 2) * 2000 + 2000; omega
  | ⟨1, _⟩ => show win2_9.index t (1 : Fin 2) * 128 ≤ (i 1).val ∧ (i 1).val < win2_9.index t (1 : Fin 2) * 128 + 128; omega

/-- THE RESULT ARRAY after the region. -/
theorem final (c : Dev nD) :
    (dat2 V c).arrAt 9 cfg2.N
      = G (V c main_arg0) (V c main_v30) (V c main_v41) (V c main_v18) (V c main_v17) (V c main_v48)
          (V c main_arg6) (V c main_v5) (V c main_v4) :=
  (dat2 V c).arrAt_eq_of_cover 9 _ (fun t _ => flushed_eq V c t) cover

end Cert.KernelIdeal.Region2

end
-- ==== Proof.KChain.lean ====
/-
  What each region of the idealized kernel program finds, and what the last one leaves.

  The buffer contents at the boundaries are a fold from the launch memory: three host stretches, the first two
  regions, a host stretch, the third region.  A buffer nobody writes on the way keeps its launch contents; a buffer a
  host stretch writes holds that stretch's term; a region's result array holds the region's whole-array function of
  what the region finds.  Walking the fold for the arrays the three regions read gives the result array as
  `Region2.G` of the launch arrays and of the named host terms.
-/
import proofs.«174504_j2302102471104_2_alg».proof.Proof.KHost
import proofs.«174504_j2302102471104_2_alg».proof.Proof.KKeep
import proofs.«174504_j2302102471104_2_alg».proof.Proof.KRegion0
import proofs.«174504_j2302102471104_2_alg».proof.Proof.KRegion1
import proofs.«174504_j2302102471104_2_alg».proof.Proof.KRegion2

set_option maxRecDepth 16384

noncomputable section

namespace Cert.KernelIdeal.Chain

open Cert.KernelIdeal Cert.KernelIdeal.Gen Cert.KernelIdeal.Host
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Through the three first stretches: the launch arrays and the first stretch's reshapes are kept -/

theorem w3_arg0 : W3 m ρ c (Proc.devRef .tc main_arg0) = m ((c : Thread nD τ).loc main_arg0) :=
  (Keep.K2_arg0 (W2 m ρ c)).trans ((Keep.K1_arg0 (W1 m ρ c)).trans (Keep.K0_arg0 (W0 m ρ c)))
theorem w3_arg1 : W3 m ρ c (Proc.devRef .tc main_arg1) = m ((c : Thread nD τ).loc main_arg1) :=
  (Keep.K2_arg1 (W2 m ρ c)).trans ((Keep.K1_arg1 (W1 m ρ c)).trans (Keep.K0_arg1 (W0 m ρ c)))
theorem w3_arg2 : W3 m ρ c (Proc.devRef .tc main_arg2) = m ((c : Thread nD τ).loc main_arg2) :=
  (Keep.K2_arg2 (W2 m ρ c)).trans ((Keep.K1_arg2 (W1 m ρ c)).trans (Keep.K0_arg2 (W0 m ρ c)))
theorem w3_arg4 : W3 m ρ c (Proc.devRef .tc main_arg4) = m ((c : Thread nD τ).loc main_arg4) :=
  (Keep.K2_arg4 (W2 m ρ c)).trans ((Keep.K1_arg4 (W1 m ρ c)).trans (Keep.K0_arg4 (W0 m ρ c)))
theorem w3_arg6 : W3 m ρ c (Proc.devRef .tc main_arg6) = m ((c : Thread nD τ).loc main_arg6) :=
  (Keep.K2_arg6 (W2 m ρ c)).trans ((Keep.K1_arg6 (W1 m ρ c)).trans (Keep.K0_arg6 (W0 m ρ c)))
theorem w3_arg9 : W3 m ρ c (Proc.devRef .tc main_arg9) = m ((c : Thread nD τ).loc main_arg9) :=
  (Keep.K2_arg9 (W2 m ρ c)).trans ((Keep.K1_arg9 (W1 m ρ c)).trans (Keep.K0_arg9 (W0 m ρ c)))
theorem w3_arg10 : W3 m ρ c (Proc.devRef .tc main_arg10) = m ((c : Thread nD τ).loc main_arg10) :=
  (Keep.K2_arg10 (W2 m ρ c)).trans ((Keep.K1_arg10 (W1 m ρ c)).trans (Keep.K0_arg10 (W0 m ρ c)))

theorem w3_v1 : W3 m ρ c (Proc.devRef .tc main_v1) = rowWords (m ((c : Thread nD τ).loc main_arg8)) :=
  (Keep.K2_v1 (W2 m ρ c)).trans ((Keep.K1_v1 (W1 m ρ c)).trans (s0_v1 (W0 m ρ c)))
theorem w3_v3 : W3 m ρ c (Proc.devRef .tc main_v3) = colWords (m ((c : Thread nD τ).loc main_arg8)) :=
  (Keep.K2_v3 (W2 m ρ c)).trans ((Keep.K1_v3 (W1 m ρ c)).trans (s0_v3 (W0 m ρ c)))
theorem w3_v4 : W3 m ρ c (Proc.devRef .tc main_v4) = asRow (m ((c : Thread nD τ).loc main_arg3)) :=
  (Keep.K2_v4 (W2 m ρ c)).trans ((Keep.K1_v4 (W1 m ρ c)).trans (s0_v4 (W0 m ρ c)))
theorem w3_v5 : W3 m ρ c (Proc.devRef .tc main_v5) = asRow (m ((c : Thread nD τ).loc main_arg7)) :=
  (Keep.K2_v5 (W2 m ρ c)).trans ((Keep.K1_v5 (W1 m ρ c)).trans (s0_v5 (W0 m ρ c)))
theorem w3_v6 : W3 m ρ c (Proc.devRef .tc main_v6) = asRow (m ((c : Thread nD τ).loc main_arg5)) :=
  (Keep.K2_v6 (W2 m ρ c)).trans ((Keep.K1_v6 (W1 m ρ c)).trans (s0_v6 (W0 m ρ c)))

/-- The normaliser column the first and the third region read. -/
theorem w3_v17 : W3 m ρ c (Proc.devRef .tc main_v17) = dinvCol (m ((c : Thread nD τ).loc main_arg8)) := by
  have h16 : W2 m ρ c (Proc.devRef .tc main_v16) = dinvArr (m ((c : Thread nD τ).loc main_arg8)) := by
    have e14 : W1 m ρ c (Proc.devRef .tc main_v14) = _ := s0_v14 (W0 m ρ c)
    have e15 : W1 m ρ c (Proc.devRef .tc main_v15) = _ := s0_v15 (W0 m ρ c)
    have e3 : W1 m ρ c (Proc.devRef .tc main_cst_3) = _ := s0_cst3 (W0 m ρ c)
    refine (s1_v16 (W1 m ρ c)).trans ?_
    rw [e14, e15, e3]
    rfl
  refine (s2_v17 (W2 m ρ c)).trans ?_
  rw [h16]
  rfl

/-! ## The first region -/

/-- The pre-scaled projected features the first region leaves. -/
abbrev xwsArr : S100000x128.Idx → EReal :=
  Region0.G (m ((c : Thread nD τ).loc main_arg0)) (m ((c : Thread nD τ).loc main_arg2)) (dinvCol (m ((c : Thread nD τ).loc main_arg8)))

theorem w4_v18 : W4 m ρ c (Proc.devRef .tc main_v18) = xwsArr m c := by
  refine (W4_arr m ρ c 3).trans ?_
  refine (Region0.final (V3 m ρ) c).trans ?_
  show Region0.G (W3 m ρ c (Proc.devRef .tc main_arg0)) (W3 m ρ c (Proc.devRef .tc main_arg2)) (W3 m ρ c (Proc.devRef .tc main_v17)) = _
  rw [w3_arg0, w3_arg2, w3_v17]

/-- An input array of the first region is as the region found it. -/
theorem w4_arg0 : W4 m ρ c (Proc.devRef .tc main_arg0) = m ((c : Thread nD τ).loc main_arg0) :=
  ((W4_arr m ρ c 0).trans (((dat0 (V3 m ρ) c).arrAt_in 0 rfl _).trans (A_eq0 (V3 m ρ) c 0))).trans (w3_arg0 m ρ c)
theorem w4_v17 : W4 m ρ c (Proc.devRef .tc main_v17) = dinvCol (m ((c : Thread nD τ).loc main_arg8)) :=
  ((W4_arr m ρ c 2).trans (((dat0 (V3 m ρ) c).arrAt_in 2 rfl _).trans (A_eq0 (V3 m ρ) c 2))).trans (w3_v17 m ρ c)

/-! ## The second region -/

/-- The drug-side dense layer the second region leaves. -/
abbrev tdArr : S20000x128.Idx → EReal :=
  Region1.G (m ((c : Thread nD τ).loc main_arg1)) (m ((c : Thread nD τ).loc main_arg4)) (asRow (m ((c : Thread nD τ).loc main_arg5)))

theorem w5_v19 : W5 m ρ c (Proc.devRef .tc main_v19) = tdArr m c := by
  refine (W5_arr m ρ c 3).trans ?_
  refine (Region1.final (V4 m ρ) c).trans ?_
  show Region1.G (W4 m ρ c (Proc.devRef .tc main_arg1)) (W4 m ρ c (Proc.devRef .tc main_arg4)) (W4 m ρ c (Proc.devRef .tc main_v6)) = _
  rw [W4_of_ne m ρ c main_arg1 (by decide), W4_of_ne m ρ c main_arg4 (by decide), W4_of_ne m ρ c main_v6 (by decide),
    w3_arg1, w3_arg4, w3_v6]

/-! ## The stretch between the second and the third region, and what the third region finds -/

theorem w5_keep (b : Ref sig .tc) (h1 : ∀ w, Pipeline.arrRef spec1 w ≠ b) (h0 : ∀ w, Pipeline.arrRef spec0 w ≠ b) :
    W5 m ρ c (Proc.devRef .tc b) = W3 m ρ c (Proc.devRef .tc b) :=
  (W5_of_ne m ρ c b h1).trans (W4_of_ne m ρ c b h0)

theorem w6_arg0 : W6 m ρ c (Proc.devRef .tc main_arg0) = m ((c : Thread nD τ).loc main_arg0) :=
  calc W6 m ρ c (Proc.devRef .tc main_arg0) = W5 m ρ c (Proc.devRef .tc main_arg0) := Keep.K3_arg0 (W5 m ρ c)
    _ = W4 m ρ c (Proc.devRef .tc main_arg0) := W5_of_ne m ρ c main_arg0 (by decide)
    _ = _ := w4_arg0 m ρ c
theorem w6_arg6 : W6 m ρ c (Proc.devRef .tc main_arg6) = m ((c : Thread nD τ).loc main_arg6) :=
  calc W6 m ρ c (Proc.devRef .tc main_arg6) = W5 m ρ c (Proc.devRef .tc main_arg6) := Keep.K3_arg6 (W5 m ρ c)
    _ = W3 m ρ c (Proc.devRef .tc main_arg6) := w5_keep m ρ c main_arg6 (by decide) (by decide)
    _ = _ := w3_arg6 m ρ c
theorem w6_v4 : W6 m ρ c (Proc.devRef .tc main_v4) = asRow (m ((c : Thread nD τ).loc main_arg3)) :=
  calc W6 m ρ c (Proc.devRef .tc main_v4) = W5 m ρ c (Proc.devRef .tc main_v4) := Keep.K3_v4 (W5 m ρ c)
    _ = W3 m ρ c (Proc.devRef .tc main_v4) := w5_keep m ρ c main_v4 (by decide) (by decide)
    _ = _ := w3_v4 m ρ c
theorem w6_v5 : W6 m ρ c (Proc.devRef .tc main_v5) = asRow (m ((c : Thread nD τ).loc main_arg7)) :=
  calc W6 m ρ c (Proc.devRef .tc main_v5) = W5 m ρ c (Proc.devRef .tc main_v5) := Keep.K3_v5 (W5 m ρ c)
    _ = W3 m ρ c (Proc.devRef .tc main_v5) := w5_keep m ρ c main_v5 (by decide) (by decide)
    _ = _ := w3_v5 m ρ c
theorem w6_v17 : W6 m ρ c (Proc.devRef .tc main_v17) = dinvCol (m ((c : Thread nD τ).loc main_arg8)) :=
  calc W6 m ρ c (Proc.devRef .tc main_v17) = W5 m ρ c (Proc.devRef .tc main_v17) := Keep.K3_v17 (W5 m ρ c)
    _ = W4 m ρ c (Proc.devRef .tc main_v17) := W5_of_ne m ρ c main_v17 (by decide)
    _ = _ := w4_v17 m ρ c
theorem w6_v18 : W6 m ρ c (Proc.devRef .tc main_v18) = xwsArr m c :=
  calc W6 m ρ c (Proc.devRef .tc main_v18) = W5 m ρ c (Proc.devRef .tc main_v18) := Keep.K3_v18 (W5 m ρ c)
    _ = W4 m ρ c (Proc.devRef .tc main_v18) := W5_of_ne m ρ c main_v18 (by decide)
    _ = _ := w4_v18 m ρ c

theorem w6_v30 : W6 m ρ c (Proc.devRef .tc main_v30) = accArr (xwsArr m c) (m ((c : Thread nD τ).loc main_arg8)) := by
  refine (s3_v30 (W5 m ρ c)).trans ?_
  rw [w5_keep m ρ c main_v3 (by decide) (by decide), w5_keep m ρ c main_v1 (by decide) (by decide),
    W5_of_ne m ρ c main_v18 (by decide), w4_v18, w3_v3, w3_v1]
  rfl
theorem w6_v41 : W6 m ρ c (Proc.devRef .tc main_v41)
    = sArr (tdArr m c) (m ((c : Thread nD τ).loc main_arg9)) (m ((c : Thread nD τ).loc main_arg10)) := by
  refine (s3_v41 (W5 m ρ c)).trans ?_
  rw [w5_v19, w5_keep m ρ c main_arg9 (by decide) (by decide), w5_keep m ρ c main_arg10 (by decide) (by decide),
    w3_arg9, w3_arg10]
theorem w6_v48 : W6 m ρ c (Proc.devRef .tc main_v48) = cntCol (m ((c : Thread nD τ).loc main_arg10)) := by
  refine (s3_v48 (W5 m ρ c)).trans ?_
  rw [w5_keep m ρ c main_arg10 (by decide) (by decide), w3_arg10]

/-! ## The third region: the result -/

/-- THE RESULT ARRAY of the idealized kernel program, as one function of the launch memory. -/
theorem w7_v49 : W7 m ρ c (Proc.devRef .tc main_v49)
    = Region2.G (m ((c : Thread nD τ).loc main_arg0)) (accArr (xwsArr m c) (m ((c : Thread nD τ).loc main_arg8)))
        (sArr (tdArr m c) (m ((c : Thread nD τ).loc main_arg9)) (m ((c : Thread nD τ).loc main_arg10)))
        (xwsArr m c) (dinvCol (m ((c : Thread nD τ).loc main_arg8))) (cntCol (m ((c : Thread nD τ).loc main_arg10)))
        (m ((c : Thread nD τ).loc main_arg6)) (asRow (m ((c : Thread nD τ).loc main_arg7))) (asRow (m ((c : Thread nD τ).loc main_arg3))) := by
  refine (W7_arr m ρ c 9).trans ?_
  refine (Region2.final (V6 m ρ) c).trans ?_
  show Region2.G (W6 m ρ c (Proc.devRef .tc main_arg0)) (W6 m ρ c (Proc.devRef .tc main_v30)) (W6 m ρ c (Proc.devRef .tc main_v41))
      (W6 m ρ c (Proc.devRef .tc main_v18)) (W6 m ρ c (Proc.devRef .tc main_v17)) (W6 m ρ c (Proc.devRef .tc main_v48))
      (W6 m ρ c (Proc.devRef .tc main_arg6)) (W6 m ρ c (Proc.devRef .tc main_v5)) (W6 m ρ c (Proc.devRef .tc main_v4)) = _
  rw [w6_arg0, w6_v30, w6_v41, w6_v18, w6_v17, w6_v48, w6_arg6, w6_v5, w6_v4]

end Cert.KernelIdeal.Chain

end
-- ==== Proof.GcnSpec.lean ====
/-
  The graph-convolution term of the node update, written twice as plain functions of the edge list and the
  node features, once in each of the two arrangements the two programs compute it in.

  Notation.  `row e`, `col e` are the two 32-bit index words of edge `e` (1 600 000 edges); `xw n f` is the
  projected feature `f` of node `n` (100 000 nodes, 128 features); `bg f` the bias.  An index word used to READ a
  row (`x[i]`) is first shifted up by the extent when it is negative (`wrap`), then read signed and clamped into
  the array (`pickP`).  An index word used to ACCUMULATE into a row (a segment sum) is read signed as it is, and
  an edge whose word names no row contributes nothing.

  Arrangement K (normalise the nodes, then sum the edges):  with  deg n = #{e | col e = n} + 1  and
  dinv n = deg n ^ (-1/2)  (0 where deg n is not positive),
      xws n f = xw n f · dinv n,     acc n f = Σ_{e, col e = n} xws (row e) f,
      x1K n f = dinv n · (acc n f + xws n f) + bg f.
  Arrangement R (append one self-loop per node to the edge list, normalise each edge):  over the 1 700 000
  index words  catW a k = a k  (k < 1 600 000),  k − 1 600 000  otherwise,
      deg n = #{k | catW col k = n},
      x1R n f = Σ_{k, catW col k = n} xw (catW row k) f · (dinv (catW row k) · dinv (catW col k)) + bg f.
  Both sums start from the float word 0 and every count is a sum of the float word 1, exactly as the programs
  form them.
-/
import Idealize.ShloMosaic.PureOps.Ideal
import Idealize.ShloMosaic.Lib.ValueIdx

noncomputable section

namespace Cert.GcnSpec

open Idealize.ShloMosaic Idealize.ShloMosaic.ValueIdx

/-- The float words 0.0 and 1.0 at the extended reals. -/
abbrev w0 : EReal := FloatOps.ofBits (F := Ideal) .f32 0x00000000#32
abbrev w1 : EReal := FloatOps.ofBits (F := Ideal) .f32 0x3F800000#32

/-- The index normalisation of `x[i]`: a negative word is shifted up by the extent `n`. -/
def wrap (n i : BitVec 32) : BitVec 32 :=
  Scalar.select (IntOp.cmpi .slt i 0#32) (IntOp.addi i n) i

/-- The row of a 100 000-row array that `x[i]` reads: the normalised word, read signed, clamped into the array. -/
def pickP (i : BitVec 32) : Fin 100000 :=
  ⟨min (wrap 100000#32 i).toInt.toNat (100000 - 1), by omega⟩

/-- `d ↦ d^(-1/2)` where `d` is positive, the float word 0 elsewhere (`where(d > 0, rsqrt d, 0)`). -/
def dinvOf (d : EReal) : EReal :=
  Scalar.select (FloatOps.cmpf (F := Ideal) (φ := .f32) .ogt d w0) (FloatOps.hostUnary (F := Ideal) (φ := .f32) .rsqrt d) w0

/-- The edges whose accumulation word names node `n`. -/
def into (col : Fin 1600000 → BitVec 32) (n : Fin 100000) : Finset (Fin 1600000) :=
  Finset.univ.filter fun e => (col e).toInt = (n.val : Int)

/-- An edge list with one self-loop per node appended: word `k` of the 1 700 000. -/
def catW (a : Fin 1600000 → BitVec 32) (k : Fin 1700000) : BitVec 32 :=
  if h : k.val < 1600000 then a ⟨k.val, h⟩ else BitVec.ofNat 32 (k.val - 1600000)

/-- The extended edges whose accumulation word names node `n`. -/
def intoC (col : Fin 1600000 → BitVec 32) (n : Fin 100000) : Finset (Fin 1700000) :=
  Finset.univ.filter fun k => (catW col k).toInt = (n.val : Int)

section
variable (row col : Fin 1600000 → BitVec 32) (xw : Fin 100000 → Fin 128 → EReal) (bg : Fin 128 → EReal)

/-! ### Arrangement K -/

def degK (n : Fin 100000) : EReal := (w0 + ∑ _e ∈ into col n, w1) + w1
def dinvK (n : Fin 100000) : EReal := dinvOf (degK col n)
def xwsK (n : Fin 100000) (f : Fin 128) : EReal := xw n f * dinvK col n
def accK (n : Fin 100000) (f : Fin 128) : EReal := w0 + ∑ e ∈ into col n, xwsK col xw (pickP (row e)) f
def x1K (n : Fin 100000) (f : Fin 128) : EReal :=
  dinvK col n * (accK row col xw n f + xwsK col xw n f) + bg f

/-! ### Arrangement R -/

def degR (n : Fin 100000) : EReal := w0 + ∑ _k ∈ intoC col n, w1
def dinvR (n : Fin 100000) : EReal := dinvOf (degR col n)
def x1R (n : Fin 100000) (f : Fin 128) : EReal :=
  (w0 + ∑ k ∈ intoC col n,
      xw (pickP (catW row k)) f * (dinvR col (pickP (catW row k)) * dinvR col (pickP (catW col k)))) + bg f

end

end Cert.GcnSpec

end
-- ==== Proof.LibScatterRows.lean ====
/-
  A general lemma: the host's accumulating float `stablehlo.scatter` of ROWS, read at an index as a sum.

  What `jax.ops.segment_sum(upd, idx, N)` lowers to: a scatter with an `add` body whose scatter indices are the
  integer vector `idx : [R]` laid out as a column `[R, 1]` (index vector on axis 1), the operand's leading axis
  inserted, scatter-dims-to-operand-dims `[0]`.  Update row `k` lands on operand row `p` exactly when the
  index word `idx[k, 0]`, read as a SIGNED integer and not clamped, is `p`; a row whose word names no operand
  row is dropped.  So at the extended reals the result at row `p` is the operand there plus the sum of the update
  rows that land on `p`: for a flat update `[R]` into `[N]`, and for rows of `C` features `[R, C]` into
  `[N, C]`, feature by feature.
-/
import Idealize.ShloMosaic.PureOps.Ideal
import Idealize.ShloMosaic.Lib.ValueIdx

noncomputable section

namespace Idealize.ShloMosaic.ScatterRows

open Idealize.ShloMosaic Idealize.ShloMosaic.ValueIdx

/-! ## A flat update `[R]` into `[N]` -/

/-- The dimension numbers of a segment sum of a flat `[R]` update into `[N]`. -/
abbrev flatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section flat
variable {N R w : Nat} (wf : ScatterDims.WF ⟨1, ![N]⟩ ⟨2, ![R, 1]⟩ ⟨1, ![R]⟩ [] [0] [0] 1)
  (idx : IVec ⟨2, ![R, 1]⟩ w)

/-- On the operand's one axis the landing coordinate of update `k` is its index word read signed. -/
theorem flat_coord (k : Fin R) (a : Fin 1) :
    (flatDims N R wf).start (ix1 k) idx a + ((flatDims N R wf).window (ix1 k) a : Int)
      = (idx (ix2 k (0 : Fin 1))).toInt := by
  obtain rfl : a = 0 := Subsingleton.elim _ _
  have hw : (flatDims N R wf).window (ix1 k) 0 = 0 := by
    unfold ScatterDims.window
    rw [dif_neg (by simp [ScatterDims.sKept, Shape.kept])]
  rw [hw]
  unfold ScatterDims.start
  rw [dif_pos (show (0 : Fin 1) ∈ (flatDims N R wf).scatterDimsToOperandDims from List.mem_singleton.mpr rfl)]
  have hsi : (flatDims N R wf).siIdx (ix1 k) ⟨List.idxOf (0 : Fin 1) (flatDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  simp

/-- Update `k` lands on operand row `p` exactly when its index word, read signed, is `p`. -/
theorem flat_lands_iff (k : Fin R) (p : Fin N) :
    (flatDims N R wf).resultIdx? (ix1 k) idx = some (ix1 p) ↔ (idx (ix2 k (0 : Fin 1))).toInt = (p.val : Int) := by
  unfold ScatterDims.resultIdx?
  constructor
  · intro h
    split at h
    · have h0 := congrFun (Option.some.inj h) (0 : Fin 1)
      have h1 : ((flatDims N R wf).start (ix1 k) idx 0 + ((flatDims N R wf).window (ix1 k) 0 : Int)).toNat = p.val :=
        congrArg Fin.val h0
      rename_i hall
      have h2 := (hall 0).1
      rw [flat_coord] at h1 h2
      omega
    · cases h
  · intro hv
    have hall : ∀ a : Fin 1, 0 ≤ (flatDims N R wf).start (ix1 k) idx a + ((flatDims N R wf).window (ix1 k) a : Int)
        ∧ (flatDims N R wf).start (ix1 k) idx a + ((flatDims N R wf).window (ix1 k) a : Int)
          < ((⟨1, ![N]⟩ : Shape).size a : Int) := by
      intro a
      rw [flat_coord, hv]
      obtain rfl : a = 0 := Subsingleton.elim _ _
      have : (⟨1, ![N]⟩ : Shape).size 0 = N := rfl
      rw [this]
      have := p.isLt
      omega
    rw [dif_pos hall]
    congr 1
    funext a
    obtain rfl : a = 0 := Subsingleton.elim _ _
    refine Fin.ext ?_
    show ((flatDims N R wf).start (ix1 k) idx 0 + ((flatDims N R wf).window (ix1 k) 0 : Int)).toNat = p.val
    rw [flat_coord, hv]
    simp

/-- THE FLAT SCATTER-ADD READ AT ROW `p`: the operand there plus the sum of the updates landing on `p`. -/
theorem scatterAdd_flat_apply (x : (⟨1, ![N]⟩ : Shape).Idx → EReal) (upd : (⟨1, ![R]⟩ : Shape).Idx → EReal)
    (p : Fin N) :
    Ideal.hostScatterAdd (flatDims N R wf) x idx upd (ix1 p)
      = x (ix1 p) + ∑ k ∈ Finset.univ.filter (fun k : Fin R => (idx (ix2 k (0 : Fin 1))).toInt = (p.val : Int)),
          upd (ix1 k) := by
  unfold Ideal.hostScatterAdd
  congr 1
  rw [Finset.sum_filter, Finset.sum_filter]
  let e : (⟨1, ![R]⟩ : Shape).Idx ≃ Fin R :=
    { toFun := fun j => j 0, invFun := ix1, left_inv := fun j => (eq_ix1 j).symm, right_inv := fun _ => rfl }
  refine Fintype.sum_equiv e _ _ (fun j => ?_)
  obtain ⟨k, rfl⟩ : ∃ k : Fin R, j = ix1 k := ⟨j 0, eq_ix1 j⟩
  exact if_congr (flat_lands_iff wf idx k p) rfl rfl

end flat

/-! ## Rows of `C` features `[R, C]` into `[N, C]` -/

/-- The dimension numbers of a segment sum of `[R, C]` rows into `[N, C]`. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section rows
variable {N R C w : Nat} (wf : ScatterDims.WF ⟨2, ![N, C]⟩ ⟨2, ![R, 1]⟩ ⟨2, ![R, C]⟩ [1] [0] [0] 1)
  (idx : IVec ⟨2, ![R, 1]⟩ w)

/-- On the node axis the landing coordinate of update `(k, f)` is row `k`'s index word read signed. -/
theorem row_coord0 (k : Fin R) (f : Fin C) :
    (rowDims N R C wf).start (ix2 k f) idx 0 + ((rowDims N R C wf).window (ix2 k f) 0 : Int)
      = (idx (ix2 k (0 : Fin 1))).toInt := by
  have hw : (rowDims N R C wf).window (ix2 k f) 0 = 0 := by
    unfold ScatterDims.window
    rw [dif_neg (by simp [ScatterDims.sKept, Shape.kept])]
  rw [hw]
  unfold ScatterDims.start
  rw [dif_pos (show (0 : Fin 2) ∈ (rowDims N R C wf).scatterDimsToOperandDims from List.mem_singleton.mpr rfl)]
  have hsi : (rowDims N R C wf).siIdx (ix2 k f) ⟨List.idxOf (0 : Fin 2) (rowDims N R C wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  simp

/-- On the feature axis the landing coordinate of update `(k, f)` is `f`. -/
theorem row_coord1 (k : Fin R) (f : Fin C) :
    (rowDims N R C wf).start (ix2 k f) idx 1 + ((rowDims N R C wf).window (ix2 k f) 1 : Int) = (f.val : Int) := by
  have hs : (rowDims N R C wf).start (ix2 k f) idx 1 = 0 := by
    unfold ScatterDims.start
    rw [dif_neg (by simp)]
  have hw : (rowDims N R C wf).window (ix2 k f) 1 = f.val := by
    unfold ScatterDims.window
    rw [dif_pos (by simp [ScatterDims.sKept, Shape.kept])]
    rfl
  rw [hs, hw]
  simp

/-- Update `(k, f)` lands on `(p, q)` exactly when row `k`'s index word, read signed, is `p`, and `f = q`. -/
theorem row_lands_iff (k : Fin R) (f : Fin C) (p : Fin N) (q : Fin C) :
    (rowDims N R C wf).resultIdx? (ix2 k f) idx = some (ix2 p q)
      ↔ (idx (ix2 k (0 : Fin 1))).toInt = (p.val : Int) ∧ f = q := by
  unfold ScatterDims.resultIdx?
  constructor
  · intro h
    split at h
    · rename_i hall
      have e := Option.some.inj h
      have h0 : ((rowDims N R C wf).start (ix2 k f) idx 0 + ((rowDims N R C wf).window (ix2 k f) 0 : Int)).toNat = p.val :=
        congrArg Fin.val (congrFun e 0)
      have h1 : ((rowDims N R C wf).start (ix2 k f) idx 1 + ((rowDims N R C wf).window (ix2 k f) 1 : Int)).toNat = q.val :=
        congrArg Fin.val (congrFun e 1)
      have h2 := (hall 0).1
      rw [row_coord0] at h0 h2
      rw [row_coord1] at h1
      exact ⟨by omega, Fin.ext (by omega)⟩
    · cases h
  · rintro ⟨hv, rfl⟩
    have hall : ∀ a : Fin 2, 0 ≤ (rowDims N R C wf).start (ix2 k f) idx a + ((rowDims N R C wf).window (ix2 k f) a : Int)
        ∧ (rowDims N R C wf).start (ix2 k f) idx a + ((rowDims N R C wf).window (ix2 k f) a : Int)
          < ((⟨2, ![N, C]⟩ : Shape).size a : Int) := by
      refine Fin.forall_fin_two.mpr ⟨?_, ?_⟩
      · rw [row_coord0, hv]
        have := p.isLt
        refine ⟨by omega, ?_⟩
        show (p.val : Int) < (N : Int)
        omega
      · rw [row_coord1]
        have := f.isLt
        refine ⟨by omega, ?_⟩
        show (f.val : Int) < (C : Int)
        omega
    rw [dif_pos hall]
    congr 1
    funext a
    refine Fin.ext ?_
    match a with
    | ⟨0, _⟩ =>
      show ((rowDims N R C wf).start (ix2 k f) idx 0 + ((rowDims N R C wf).window (ix2 k f) 0 : Int)).toNat = p.val
      rw [row_coord0, hv]; simp
    | ⟨1, _⟩ =>
      show ((rowDims N R C wf).start (ix2 k f) idx 1 + ((rowDims N R C wf).window (ix2 k f) 1 : Int)).toNat = f.val
      rw [row_coord1]; simp

/-- THE ROW SCATTER-ADD READ AT `(p, q)`: the operand there plus the sum, over the update rows landing on `p`,
    of their feature `q`. -/
theorem scatterAdd_rows_apply (x : (⟨2, ![N, C]⟩ : Shape).Idx → EReal) (upd : (⟨2, ![R, C]⟩ : Shape).Idx → EReal)
    (p : Fin N) (q : Fin C) :
    Ideal.hostScatterAdd (rowDims N R C wf) x idx upd (ix2 p q)
      = x (ix2 p q) + ∑ k ∈ Finset.univ.filter (fun k : Fin R => (idx (ix2 k (0 : Fin 1))).toInt = (p.val : Int)),
          upd (ix2 k q) := by
  unfold Ideal.hostScatterAdd
  congr 1
  rw [Finset.sum_filter, sum_idx2, Finset.sum_filter]
  refine Finset.sum_congr rfl fun k _ => ?_
  by_cases hk : (idx (ix2 k (0 : Fin 1))).toInt = (p.val : Int)
  · rw [if_pos hk]
    rw [Finset.sum_eq_single q]
    · rw [if_pos ((row_lands_iff wf idx k q p q).mpr ⟨hk, rfl⟩)]
    · intro b _ hb
      rw [if_neg (fun h => hb ((row_lands_iff wf idx k b p q).mp h).2)]
    · intro h; exact absurd (Finset.mem_univ q) h
  · rw [if_neg hk]
    refine Finset.sum_eq_zero fun b _ => ?_
    rw [if_neg (fun h => hk ((row_lands_iff wf idx k b p q).mp h).1)]

end rows

end Idealize.ShloMosaic.ScatterRows

end
-- ==== Proof.LibGatherRows2.lean ====
/-
  A general lemma: `stablehlo.gather` of whole ROWS of a matrix at a column of start indices, read at an index.

  What `x[idx]` of a matrix `x : [N, C]` at an integer vector `idx : [R]` lowers to: a gather whose result
  `[R, C]` has one offset axis (the features), the operand's row axis collapsed, start index map `[0]`, slice
  sizes `[1, C]` and the index vector on axis 1 of the start indices laid out as `[R, 1]`.  Result element
  `(t, f)` is `x` at row `idx[t, 0]` — read as a signed integer and clamped into `[0, N − 1]` — and feature `f`.
  It is the matrix twin of the flat gather read at an index, and is proved the same way.
-/
import Idealize.ShloMosaic.Lib.ValueIdx

noncomputable section

namespace Idealize.ShloMosaic.GatherRows2

open Idealize.ShloMosaic Idealize.ShloMosaic.ValueIdx

variable {α : Type}

/-- The dimension numbers of `x[idx]` for an operand `[N, C]`, start indices `[R, 1]` and result `[R, C]`. -/
abbrev matDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, f)`: the operand at row `idx[t, 0]`, read signed and clamped into
    `[0, N − 1]`, and feature `f`. -/
theorem gather_mat_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (f : Fin C) :
    Host.gather (matDims N R C wf) x idx (ix2 t f)
      = x (ix2 ⟨min (idx (ix2 t (0 : Fin 1))).toInt.toNat (N - 1), by omega⟩ f) := by
  unfold Host.gather
  congr 1
  funext a
  refine Fin.ext ?_
  match a with
  | ⟨0, _⟩ =>
    show (matDims N R C wf).start (ix2 t f) idx 0 + (matDims N R C wf).batchCoord (ix2 t f) 0
      + (matDims N R C wf).offCoord (ix2 t f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (matDims N R C wf).startIndexMap from List.mem_singleton.mpr rfl)]
    have hsi : (matDims N R C wf).siIdx (ix2 t f) ⟨List.idxOf (0 : Fin 2) (matDims N R C wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, _⟩ =>
    show (matDims N R C wf).start (ix2 t f) idx 1 + (matDims N R C wf).batchCoord (ix2 t f) 1
      + (matDims N R C wf).offCoord (ix2 t f) 1 = f.val
    rw [GatherDims.batchCoord_eq_zero _ _ _ List.not_mem_nil]
    have hs : (matDims N R C wf).start (ix2 t f) idx 1 = 0 := by
      unfold GatherDims.start
      rw [dif_neg (by simp)]
    have ho : (matDims N R C wf).offCoord (ix2 t f) 1 = f.val := by
      unfold GatherDims.offCoord
      rw [dif_pos ((GatherDims.mem_sKept _ _).mpr ⟨by simp, List.not_mem_nil⟩)]
      rfl
    rw [hs, ho]
    simp

end Idealize.ShloMosaic.GatherRows2

end
-- ==== Proof.KRead.lean ====
/-
  The kernel program's host terms read at an index.

  The two rows of the edge index are `row e = x8(0, e)`, `col e = x8(1, e)`.  A segment sum read at a node is the float
  word 0 plus the sum of the updates whose index word, read signed, names the node; a gather reads the row the
  normalised word names.  So the normaliser column is `dinvK`, the pre-scaled features are `xwsK`, the accumulated
  edge messages are `accK`, and the summed drug messages and the count are plain filtered sums.
-/
import proofs.«174504_j2302102471104_2_alg».proof.Proof.KHost
import proofs.«174504_j2302102471104_2_alg».proof.Proof.GcnSpec
import proofs.«174504_j2302102471104_2_alg».proof.Proof.LibScatterRows
import proofs.«174504_j2302102471104_2_alg».proof.Proof.LibGatherRows2
import proofs.«174504_j2302102471104_2_alg».proof.Proof.LibRowWise
import proofs.«174504_j2302102471104_2_alg».proof.Proof.LibColumnCast
import Idealize.ShloMosaic.Lib.Pipeline.Value
import Idealize.ShloMosaic.Lib.ValueIdx
import Idealize.ShloMosaic.Lib.ValueLayout

set_option maxRecDepth 16384

noncomputable section

open scoped BigOperators

namespace Cert.KernelIdeal.HostRead

open Cert.KernelIdeal Cert.KernelIdeal.Gen Cert.KernelIdeal.Host Cert.GcnSpec
open Idealize.ShloMosaic Idealize.ShloMosaic.ValueIdx

/-- A constant broadcast to a flat array reads the constant's word. -/
theorem splat1_apply {a : Nat} (h : S_.BroadcastsInDim ⟨1, ![a]⟩ (![] : Fin 0 → Fin 1)) (w : BitVec 32) (i : (⟨1, ![a]⟩ : Shape).Idx) :
    broadcastInDim ⟨1, ![a]⟩ ![] h (constant (F := Ideal) S_ .f32 w) i = FloatOps.ofBits (F := Ideal) .f32 w :=
  broadcastInDim_apply _ h (constant (F := Ideal) S_ .f32 w) i (fun a => a.elim0) (fun a => a.elim0)

/-- A constant broadcast to a matrix reads the constant's word. -/
theorem splat2_apply {a b : Nat} (h : S_.BroadcastsInDim ⟨2, ![a, b]⟩ (![] : Fin 0 → Fin 2)) (w : BitVec 32) (i : (⟨2, ![a, b]⟩ : Shape).Idx) :
    broadcastInDim ⟨2, ![a, b]⟩ ![] h (constant (F := Ideal) S_ .f32 w) i = FloatOps.ofBits (F := Ideal) .f32 w :=
  broadcastInDim_apply _ h (constant (F := Ideal) S_ .f32 w) i (fun a => a.elim0) (fun a => a.elim0)

/-- An integer constant broadcast to a flat array reads the constant. -/
theorem splatI_apply {a : Nat} (h : S_.BroadcastsInDim ⟨1, ![a]⟩ (![] : Fin 0 → Fin 1)) (w : BitVec 32) (i : (⟨1, ![a]⟩ : Shape).Idx) :
    broadcastInDim ⟨1, ![a]⟩ ![] h (constantI S_ 32 w) i = w :=
  broadcastInDim_apply _ h (constantI S_ 32 w) i (fun a => a.elim0) (fun a => a.elim0)

/-- Row `r` of the edge index, flattened, reads `x8(r, e)`. -/
theorem edgeRow_apply (r : Fin 2) (hs : S2x1600000.Slices ![r.val, 0] S1x1600000) (x8 : S2x1600000.Idx → BitVec 32) (e : Fin 1600000) :
    edgeRow r.val hs x8 (ix1 e) = x8 (ix2 r e) := by
  unfold edgeRow
  have h1 : shapeCast S1600000 (extractStridedSlice S1x1600000 ![r.val, 0] x8 hs) shapeCasts_S1x1600000_S1600000 (ix1 e)
      = extractStridedSlice S1x1600000 ![r.val, 0] x8 hs (ix2 (0 : Fin 1) e) := by
    generalize extractStridedSlice S1x1600000 ![r.val, 0] x8 hs = y
    exact shapeCast_apply y shapeCasts_S1x1600000_S1600000 (ix1 e) (ix2 (0 : Fin 1) e)
      (by rewrite [Shape.rowMajor_val_two, Shape.rowMajor_val_one]; show 0 * 1600000 + e.val = e.val; omega)
  rw [h1]
  exact extractStridedSlice_apply ![r.val, 0] x8 hs (ix2 (0 : Fin 1) e) (ix2 r e) (fun a => match a with
    | ⟨0, _⟩ => by show r.val = r.val + 0; omega
    | ⟨1, _⟩ => by show e.val = 0 + e.val; omega)

/-- The two word families of the edge index. -/
abbrev rowW (x8 : S2x1600000.Idx → BitVec 32) : Fin 1600000 → BitVec 32 := fun e => x8 (ix2 (0 : Fin 2) e)
abbrev colW (x8 : S2x1600000.Idx → BitVec 32) : Fin 1600000 → BitVec 32 := fun e => x8 (ix2 (1 : Fin 2) e)

theorem rowWords_apply (x8 : S2x1600000.Idx → BitVec 32) (e : Fin 1600000) : rowWords x8 (ix1 e) = rowW x8 e :=
  edgeRow_apply 0 _ x8 e
theorem colWords_apply (x8 : S2x1600000.Idx → BitVec 32) (e : Fin 1600000) : colWords x8 (ix1 e) = colW x8 e :=
  edgeRow_apply 1 _ x8 e

/-- The printed scatter and gather records are the plain segment-sum and row-gather ones. -/
theorem scat_deg : scatter_S100000_S1600000x1_S1600000_n_0_0_1
    = ScatterRows.flatDims 100000 1600000 scatter_S100000_S1600000x1_S1600000_n_0_0_1_wf := rfl
theorem scat_acc : scatter_S100000x128_S1600000x1_S1600000x128_1_0_0_1
    = ScatterRows.rowDims 100000 1600000 128 scatter_S100000x128_S1600000x1_S1600000x128_1_0_0_1_wf := rfl
theorem gath_xs : gather_S100000x128_S1600000x1_S1600000x128_1_0_n_n_0_1_1128
    = GatherRows2.matDims 100000 1600000 128 gather_S100000x128_S1600000x1_S1600000x128_1_0_n_n_0_1_1128_wf := rfl
theorem scat_s : scatter_S100000x128_S800000x1_S800000x128_1_0_0_1
    = ScatterRows.rowDims 100000 800000 128 scatter_S100000x128_S800000x1_S800000x128_1_0_0_1_wf := rfl
theorem gath_td : gather_S20000x128_S800000x1_S800000x128_1_0_n_n_0_1_1128
    = GatherRows2.matDims 20000 800000 128 gather_S20000x128_S800000x1_S800000x128_1_0_n_n_0_1_1128_wf := rfl
theorem scat_cnt : scatter_S100000_S800000x1_S800000_n_0_0_1
    = ScatterRows.flatDims 100000 800000 scatter_S100000_S800000x1_S800000_n_0_0_1_wf := rfl

/-! ## The definitions opened one step, as equations (never by a simplifier pass: the extents are large) -/

theorem scatterAdd_eq {s si u : Shape} {w : Nat} (d : ScatterDims s si u) (x : FVec Ideal s .f32) (idx : IVec si w) (upd : FVec Ideal u .f32) :
    Host.scatterAdd (F := Ideal) d x idx upd = Ideal.hostScatterAdd d x idx upd := rfl

theorem degArr_eq (x8 : S2x1600000.Idx → BitVec 32) : degArr x8
    = addf (Ideal.hostScatterAdd (ScatterRows.flatDims 100000 1600000 scatter_S100000_S1600000x1_S1600000_n_0_0_1_wf)
        (broadcastInDim S100000 ![] bcast_S_S100000 (constant (F := Ideal) S_ .f32 0x00000000#32))
        (broadcastInDim S1600000x1 ![0] bcast_S1600000_S1600000x1_0 (colWords x8))
        (broadcastInDim S1600000 ![] bcast_S_S1600000 (constant (F := Ideal) S_ .f32 0x3F800000#32)))
      (broadcastInDim S100000 ![] bcast_S_S100000 (constant (F := Ideal) S_ .f32 0x3F800000#32)) := rfl

theorem dinvArr_eq (x8 : S2x1600000.Idx → BitVec 32) : dinvArr x8
    = select (cmpf (F := Ideal) .ogt (degArr x8) (broadcastInDim S100000 ![] bcast_S_S100000 (constant (F := Ideal) S_ .f32 0x00000000#32)))
        (Host.rsqrt (F := Ideal) (φ := .f32) (degArr x8))
        (broadcastInDim S100000 ![] bcast_S_S100000 (id (constant (F := Ideal) S_ .f32 0x00000000#32))) := rfl

/-- The host's inverse square root of an array, at an index. -/
theorem hostRsqrt_apply {s : Shape} (x : FVec Ideal s .f32) (i : s.Idx) :
    Host.rsqrt (F := Ideal) (φ := .f32) x i = FloatOps.hostUnary (F := Ideal) (φ := .f32) .rsqrt (x i) := rfl

/-- The specification's normaliser, opened one step (over an abstract degree). -/
theorem dinvOf_eq (d : EReal) : dinvOf d
    = Scalar.select (FloatOps.cmpf (F := Ideal) (φ := .f32) .ogt d w0) (FloatOps.hostUnary (F := Ideal) (φ := .f32) .rsqrt d) w0 := rfl
theorem dinvK_eq (col : Fin 1600000 → BitVec 32) (n : Fin 100000) : dinvK col n = dinvOf (degK col n) := rfl

theorem dinvCol_eq (x8 : S2x1600000.Idx → BitVec 32) :
    dinvCol x8 = shapeCast S100000x1 (dinvArr x8) shapeCasts_S100000_S100000x1 := rfl

/-- The normalised row words as an index column. -/
abbrev rowIdx (x8 : S2x1600000.Idx → BitVec 32) : S1600000x1.Idx → BitVec 32 :=
  broadcastInDim S1600000x1 ![0] bcast_S1600000_S1600000x1_0
    (select (cmpi .slt (rowWords x8) (broadcastInDim S1600000 ![] bcast_S_S1600000 (constantI S_ 32 0#32)))
      (addi (rowWords x8) (broadcastInDim S1600000 ![] bcast_S_S1600000 (constantI S_ 32 100000#32))) (rowWords x8))

theorem accArr_eq (xs : S100000x128.Idx → EReal) (x8 : S2x1600000.Idx → BitVec 32) : accArr xs x8
    = Ideal.hostScatterAdd (ScatterRows.rowDims 100000 1600000 128 scatter_S100000x128_S1600000x1_S1600000x128_1_0_0_1_wf)
        (broadcastInDim S100000x128 ![] bcast_S_S100000x128 (constant (F := Ideal) S_ .f32 0x00000000#32))
        (broadcastInDim S1600000x1 ![0] bcast_S1600000_S1600000x1_0 (colWords x8))
        (fun j => Host.gather (GatherRows2.matDims 100000 1600000 128 gather_S100000x128_S1600000x1_S1600000x128_1_0_n_n_0_1_1128_wf)
          xs (rowIdx x8) j) := rfl

/-- The normalised drug words as an index column. -/
abbrev drugIdx (x9 : S800000.Idx → BitVec 32) : S800000x1.Idx → BitVec 32 :=
  broadcastInDim S800000x1 ![0] bcast_S800000_S800000x1_0
    (select (cmpi .slt x9 (broadcastInDim S800000 ![] bcast_S_S800000 (constantI S_ 32 0#32)))
      (addi x9 (broadcastInDim S800000 ![] bcast_S_S800000 (constantI S_ 32 20000#32))) x9)

theorem sArr_eq (td : S20000x128.Idx → EReal) (x9 x10 : S800000.Idx → BitVec 32) : sArr td x9 x10
    = Ideal.hostScatterAdd (ScatterRows.rowDims 100000 800000 128 scatter_S100000x128_S800000x1_S800000x128_1_0_0_1_wf)
        (broadcastInDim S100000x128 ![] bcast_S_S100000x128 (constant (F := Ideal) S_ .f32 0x00000000#32))
        (broadcastInDim S800000x1 ![0] bcast_S800000_S800000x1_0 x10)
        (fun j => Host.gather (GatherRows2.matDims 20000 800000 128 gather_S20000x128_S800000x1_S800000x128_1_0_n_n_0_1_1128_wf)
          td (drugIdx x9) j) := rfl

theorem cntCol_eq (x10 : S800000.Idx → BitVec 32) : cntCol x10
    = shapeCast S100000x1
        (maximumf (F := Ideal) (Ideal.hostScatterAdd (ScatterRows.flatDims 100000 800000 scatter_S100000_S800000x1_S800000_n_0_0_1_wf)
            (broadcastInDim S100000 ![] bcast_S_S100000 (constant (F := Ideal) S_ .f32 0x00000000#32))
            (broadcastInDim S800000x1 ![0] bcast_S800000_S800000x1_0 x10)
            (broadcastInDim S800000 ![] bcast_S_S800000 (constant (F := Ideal) S_ .f32 0x3F800000#32)))
          (broadcastInDim S100000 ![] bcast_S_S100000 (constant (F := Ideal) S_ .f32 0x3F800000#32)))
        shapeCasts_S100000_S100000x1 := rfl

/-- A maximum of two arrays at an index is the maximum of the entries. -/
theorem maximumf_point {s : Shape} (a b : FVec Ideal s .f32) (i : s.Idx) :
    maximumf (F := Ideal) a b i = FloatOps.maximumf (F := Ideal) (φ := .f32) (a i) (b i) := rfl

/-! ## Read at an index -/

/-- The degree of node `n`. -/
theorem degArr_apply (x8 : S2x1600000.Idx → BitVec 32) (n : Fin 100000) : degArr x8 (ix1 n) = degK (colW x8) n := by
  rw [degArr_eq, addf_apply, ScatterRows.scatterAdd_flat_apply, splat1_apply, splat1_apply]
  refine congrArg (fun z : EReal => (w0 + z) + w1) ?_
  refine Finset.sum_congr (Finset.filter_congr fun k _ => ?_) (fun k _ => splat1_apply _ _ _)
  rw [Cert.RowWise.colLift_apply, colWords_apply]

/-- The normaliser of node `n`. -/
theorem dinvCol_apply (x8 : S2x1600000.Idx → BitVec 32) (n : Fin 100000) :
    dinvCol x8 (ix2 n (0 : Fin 1)) = dinvK (colW x8) n := by
  rw [dinvCol_eq, Cert.LibColumnCast.shapeCast_a_a1_apply, dinvArr_eq, select_apply, cmpf_apply, hostRsqrt_apply, id_eq,
    degArr_apply, splat1_apply, dinvK_eq, dinvOf_eq]

/-- The word a gather of a 100 000-row array reads at. -/
theorem rowIdx_apply (x8 : S2x1600000.Idx → BitVec 32) (e : Fin 1600000) :
    rowIdx x8 (ix2 e (0 : Fin 1)) = wrap 100000#32 (rowW x8 e) := by
  delta rowIdx
  rw [Cert.RowWise.colLift_apply, select_apply]
  show Scalar.select (IntOp.cmpi .slt (rowWords x8 (ix1 e)) (broadcastInDim S1600000 ![] bcast_S_S1600000 (constantI S_ 32 0#32) (ix1 e)))
      (IntOp.addi (rowWords x8 (ix1 e)) (broadcastInDim S1600000 ![] bcast_S_S1600000 (constantI S_ 32 100000#32) (ix1 e)))
      (rowWords x8 (ix1 e)) = _
  rw [rowWords_apply, splatI_apply, splatI_apply]
  rfl

/-- The accumulated edge messages at `(n, f)`. -/
theorem accArr_apply (xs : S100000x128.Idx → EReal) (x8 : S2x1600000.Idx → BitVec 32) (n : Fin 100000) (f : Fin 128) :
    accArr xs x8 (ix2 n f) = w0 + ∑ e ∈ into (colW x8) n, xs (ix2 (pickP (rowW x8 e)) f) := by
  rw [accArr_eq, ScatterRows.scatterAdd_rows_apply, splat2_apply]
  refine congrArg (fun z : EReal => w0 + z) ?_
  refine Finset.sum_congr (Finset.filter_congr fun k _ => ?_) (fun k _ => ?_)
  · rw [Cert.RowWise.colLift_apply, colWords_apply]
  · rw [GatherRows2.gather_mat_apply (by decide)]
    refine congrArg (fun r : Fin 100000 => xs (ix2 r f)) (Fin.ext ?_)
    show min (rowIdx x8 (ix2 k (0 : Fin 1))).toInt.toNat (100000 - 1) = min (wrap 100000#32 (rowW x8 k)).toInt.toNat (100000 - 1)
    rw [rowIdx_apply]

/-! ## The drug side -/

/-- The row of a 20 000-row array that `x[i]` reads. -/
def pickM (i : BitVec 32) : Fin 20000 :=
  ⟨min (wrap 20000#32 i).toInt.toNat (20000 - 1), by omega⟩

/-- The word a gather of the 20 000-row array reads at. -/
theorem drugIdx_apply (x9 : S800000.Idx → BitVec 32) (q : Fin 800000) :
    drugIdx x9 (ix2 q (0 : Fin 1)) = wrap 20000#32 (x9 (ix1 q)) := by
  delta drugIdx
  rw [Cert.RowWise.colLift_apply, select_apply]
  show Scalar.select (IntOp.cmpi .slt (x9 (ix1 q)) (broadcastInDim S800000 ![] bcast_S_S800000 (constantI S_ 32 0#32) (ix1 q)))
      (IntOp.addi (x9 (ix1 q)) (broadcastInDim S800000 ![] bcast_S_S800000 (constantI S_ 32 20000#32) (ix1 q)))
      (x9 (ix1 q)) = _
  rw [splatI_apply, splatI_apply]
  rfl

/-- The proteins' edges: the drug messages whose protein word names node `n`. -/
def intoP (x10 : S800000.Idx → BitVec 32) (n : Fin 100000) : Finset (Fin 800000) :=
  Finset.univ.filter fun q => (x10 (ix1 q)).toInt = (n.val : Int)

/-- The summed drug messages at `(n, f)`. -/
theorem sArr_apply (td : S20000x128.Idx → EReal) (x9 x10 : S800000.Idx → BitVec 32) (n : Fin 100000) (f : Fin 128) :
    sArr td x9 x10 (ix2 n f) = w0 + ∑ q ∈ intoP x10 n, td (ix2 (pickM (x9 (ix1 q))) f) := by
  rw [sArr_eq, ScatterRows.scatterAdd_rows_apply, splat2_apply]
  refine congrArg (fun z : EReal => w0 + z) ?_
  refine Finset.sum_congr (Finset.filter_congr fun k _ => ?_) (fun k _ => ?_)
  · rw [Cert.RowWise.colLift_apply]
  · rw [GatherRows2.gather_mat_apply (by decide)]
    refine congrArg (fun r : Fin 20000 => td (ix2 r f)) (Fin.ext ?_)
    show min (drugIdx x9 (ix2 k (0 : Fin 1))).toInt.toNat (20000 - 1) = min (wrap 20000#32 (x9 (ix1 k))).toInt.toNat (20000 - 1)
    rw [drugIdx_apply]

/-- The clamped count at node `n`. -/
theorem cntCol_apply (x10 : S800000.Idx → BitVec 32) (n : Fin 100000) :
    cntCol x10 (ix2 n (0 : Fin 1)) = FloatOps.maximumf (F := Ideal) (φ := .f32) (w0 + ∑ _q ∈ intoP x10 n, w1) w1 := by
  rw [cntCol_eq, Cert.LibColumnCast.shapeCast_a_a1_apply]
  refine (maximumf_point _ _ (ix1 n)).trans ?_
  rw [ScatterRows.scatterAdd_flat_apply, splat1_apply, splat1_apply]
  refine congrArg (fun z : EReal => FloatOps.maximumf (F := Ideal) (φ := .f32) (w0 + z) w1) ?_
  refine Finset.sum_congr (Finset.filter_congr fun k _ => ?_) (fun k _ => splat1_apply _ _ _)
  rw [Cert.RowWise.colLift_apply]

/-- A 128-vector laid out as one row reads the vector. -/
theorem asRow_apply (v : S128.Idx → EReal) (f : Fin 128) : asRow v (ix2 (0 : Fin 1) f) = v (ix1 f) :=
  shapeCast_a_1a_apply v _ (0 : Fin 1) f

end Cert.KernelIdeal.HostRead

end
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.GcnAlgebra.lean ====
/-
  The two arrangements of the graph-convolution term agree when every projected feature is a real number.

  The extended index set of arrangement R is the edge list followed by one self-loop word per node.  A sum over the
  extended words that name node n is therefore the sum over the edges that name n plus the single self-loop term of n
  (sum_intoC).  The two degree counts differ only in bracketing, so the two normalisers agree.  An accumulation word
  whose signed reading is a node is not negative, so the read normalisation leaves it alone and the clamp returns the
  node (pickP_of_toInt).  Every degree is a real number at least one, so every normaliser is a real number
  (dinvK_real); with real features both sides are coercions of real expressions and the identity
      d * (Σ_e a_e * d_e + a * d) = Σ_e a_e * (d_e * d) + a * (d * d)
  is distributivity over the reals.  The bias is added last on both sides and need not be real.
-/
import proofs.«174504_j2302102471104_2_alg».proof.Proof.GcnSpec
import proofs.«174504_j2302102471104_2_alg».proof.Proof.LibERealFinite
import Idealize.ShloMosaic.PureOps.Ideal.Laws

noncomputable section

namespace Cert.GcnSpec

open Idealize.ShloMosaic Idealize.ShloMosaic.ValueIdx

/-! ### The two float words -/

theorem w0_eq : w0 = 0 := by
  show Ideal.ofBits .f32 0x00000000#32 = 0
  exact Ideal.ofBits_zero_f32

theorem w1_eq : w1 = 1 := by
  show Ideal.ofBits .f32 0x3F800000#32 = 1
  rw [show (1 : EReal) = ((1 : ℝ) : EReal) by norm_cast]
  simp [Ideal.ofBits, Ideal.ieee, -EReal.coe_mul]; norm_num

/-! ### The extended index words -/

theorem catW_castAdd (a : Fin 1600000 → BitVec 32) (e : Fin 1600000) :
    catW a (Fin.castAdd 100000 e) = a e := by
  unfold catW
  simp

theorem catW_natAdd (a : Fin 1600000 → BitVec 32) (j : Fin 100000) :
    catW a (Fin.natAdd 1600000 j) = BitVec.ofNat 32 j.val := by
  unfold catW
  simp

/-- A word below 2^31 reads signed as itself. -/
theorem toInt_ofNat_small (j : Nat) (h : j < 2147483648) : (BitVec.ofNat 32 j).toInt = (j : Int) := by
  unfold BitVec.toInt
  simp only [BitVec.toNat_ofNat]
  split <;> omega

/-- A sum over the extended words naming node n: the edges naming n, then the self-loop of n. -/
theorem sum_intoC {M : Type*} [AddCommMonoid M] (col : Fin 1600000 → BitVec 32) (n : Fin 100000)
    (g : Fin 1700000 → M) :
    ∑ k ∈ intoC col n, g k
      = ∑ e ∈ into col n, g (Fin.castAdd 100000 e) + g (Fin.natAdd 1600000 n) := by
  unfold intoC into
  rw [Finset.sum_filter, Finset.sum_filter]
  have h := Fin.sum_univ_add (a := 1600000) (b := 100000)
    (fun k : Fin (1600000 + 100000) => if (catW col k).toInt = (n.val : Int) then g k else 0)
  refine h.trans ?_
  refine congrArg₂ (· + ·) ?_ ?_
  · refine Finset.sum_congr rfl fun e _ => ?_
    beta_reduce
    rw [catW_castAdd]
  · rw [Finset.sum_eq_single n]
    · beta_reduce
      rw [catW_natAdd, toInt_ofNat_small _ (by have := n.isLt; omega), if_pos rfl]
    · intro j _ hj
      beta_reduce
      rw [catW_natAdd, toInt_ofNat_small _ (by have := j.isLt; omega), if_neg]
      intro h'
      exact hj (Fin.ext (by exact_mod_cast h'))
    · intro h'
      exact absurd (Finset.mem_univ n) h'

/-! ### Reading a row at a word that names a node -/

theorem pickP_of_toInt (i : BitVec 32) (n : Fin 100000) (h : i.toInt = (n.val : Int)) : pickP i = n := by
  have hs : i.slt 0#32 = false := by
    simp [BitVec.slt, h]
  have hw : wrap 100000#32 i = i := by
    simp [wrap, IntOp.cmpi, Scalar.select, hs]
  apply Fin.ext
  have hn := n.isLt
  simp only [pickP, hw, h, Int.toNat_natCast]
  omega

theorem pickP_ofNat (n : Fin 100000) : pickP (BitVec.ofNat 32 n.val) = n :=
  pickP_of_toInt _ n (toInt_ofNat_small _ (by have := n.isLt; omega))

/-! ### Degrees and normalisers -/

theorem degR_eq_degK (col : Fin 1600000 → BitVec 32) (n : Fin 100000) : degR col n = degK col n := by
  unfold degR degK
  rw [sum_intoC col n (fun _ => w1), add_assoc]

theorem dinvR_eq_dinvK (col : Fin 1600000 → BitVec 32) (n : Fin 100000) : dinvR col n = dinvK col n := by
  unfold dinvR dinvK
  rw [degR_eq_degK]

/-- The degree of a node is the real number (count of its edges) + 1. -/
theorem degK_real (col : Fin 1600000 → BitVec 32) (m : Fin 100000) :
    degK col m = ((((into col m).card : ℝ) + 1 : ℝ) : EReal) := by
  unfold degK
  rw [w0_eq, w1_eq, zero_add]
  have h1 : (∑ _e ∈ into col m, (1 : EReal)) = (((into col m).card : ℝ) : EReal) := by
    rw [show (1 : EReal) = ((1 : ℝ) : EReal) from rfl, ← Cert.LibERealFinite.coe_sum, Finset.sum_const, nsmul_eq_mul,
      mul_one]
  rw [h1, EReal.coe_add, EReal.coe_one]

/-- The normaliser at a positive real degree is a real number. -/
theorem dinvOf_coe_pos (d : ℝ) (hd : 0 < d) : dinvOf (d : EReal) = (((Real.sqrt d)⁻¹ : ℝ) : EReal) := by
  have hc : FloatOps.cmpf (F := Ideal) (φ := .f32) .ogt (d : EReal) w0 = 1#1 := by
    rw [w0_eq]
    show Ideal.cmp .ogt (d : EReal) 0 = 1#1
    simp [Ideal.cmp, hd]
  unfold dinvOf
  rw [hc]
  simp [Scalar.select, Ideal.rsqrt_coe, not_lt.mpr hd.le, hd.ne']

theorem dinvK_real (col : Fin 1600000 → BitVec 32) (m : Fin 100000) : ∃ r : ℝ, dinvK col m = (r : EReal) := by
  unfold dinvK
  rw [degK_real]
  exact ⟨_, dinvOf_coe_pos _ (by positivity)⟩

/-! ### The two arrangements agree -/

theorem x1R_eq_x1K (row col : Fin 1600000 → BitVec 32) (xw : Fin 100000 → Fin 128 → EReal) (bg : Fin 128 → EReal)
    (hxw : ∀ n f, ∃ r : ℝ, xw n f = (r : EReal)) (n : Fin 100000) (f : Fin 128) :
    Cert.GcnSpec.x1R row col xw bg n f = Cert.GcnSpec.x1K row col xw bg n f := by
  choose X hX using hxw
  choose D hD using dinvK_real col
  have hR : ∀ m, dinvR col m = (D m : EReal) := fun m => by rw [dinvR_eq_dinvK, hD]
  unfold x1R x1K accK xwsK
  refine congrArg (· + bg f) ?_
  rw [sum_intoC]
  simp only [catW_castAdd, catW_natAdd, pickP_ofNat]
  have hcol : ∀ e ∈ into col n, pickP (col e) = n := fun e he =>
    pickP_of_toInt _ n (Finset.mem_filter.mp he).2
  rw [Finset.sum_congr rfl (fun e he => by rw [hcol e he])]
  simp only [hX, hR, hD, w0_eq]
  rw [show (0 : EReal) = ((0 : ℝ) : EReal) from rfl]
  simp only [← EReal.coe_mul, ← Cert.LibERealFinite.coe_sum, ← EReal.coe_add]
  refine congrArg _ ?_
  have hs : ∑ e ∈ into col n, X (pickP (row e)) f * (D (pickP (row e)) * D n)
      = (∑ e ∈ into col n, X (pickP (row e)) f * D (pickP (row e))) * D n := by
    rw [Finset.sum_mul]
    exact Finset.sum_congr rfl fun e _ => by ring
  rw [hs]
  ring

end Cert.GcnSpec

end
-- ==== Proof.KRowSum.lean ====
/-
  The kernel program's row sum is the reference's, node by node.

  For a node `n` and a feature `g` the third region adds three terms and a small constant.  The first is the
  graph-convolution term in the kernel's arrangement (normalise the nodes, then sum the edges); the reference forms
  it in the other arrangement (append the self-loops, normalise each edge), and the two agree when the projected
  features are real numbers, which they are when the features and the weights are.  The second (the mean of the drug
  messages) and the third (the dense layer of the node's own features) are formed alike by both programs.
-/
import proofs.«174504_j2302102471104_2_alg».proof.Proof.KRead
import proofs.«174504_j2302102471104_2_alg».proof.Proof.KRegion0
import proofs.«174504_j2302102471104_2_alg».proof.Proof.KRegion1
import proofs.«174504_j2302102471104_2_alg».proof.Proof.KRegion2
import proofs.«174504_j2302102471104_2_alg».proof.Proof.GcnAlgebra

set_option maxRecDepth 16384

noncomputable section

open scoped BigOperators

namespace Cert.KernelIdeal.RowSum

open Cert.KernelIdeal Cert.KernelIdeal.Host Cert.KernelIdeal.HostRead Cert.GcnSpec Cert.RowSpec
open Idealize.ShloMosaic Idealize.ShloMosaic.ValueIdx

variable (x0 : S100000x128.Idx → EReal) (x1 : S20000x128.Idx → EReal) (x2 x4 x6 : S128x128.Idx → EReal)
  (x3 x5 x7 : S128.Idx → EReal) (x8 : S2x1600000.Idx → BitVec 32) (x9 x10 : S800000.Idx → BitVec 32)

/-- The projected features `x_prot · W_gcn`. -/
abbrev xw : Fin 100000 → Fin 128 → EReal := fun n f => ∑ c : Fin 128, x0 (ix2 n c) * x2 (ix2 c f)

/-- The first region's array is the pre-scaled projected features. -/
theorem xws_apply (n : Fin 100000) (f : Fin 128) :
    Region0.G x0 x2 (dinvCol x8) (ix2 n f) = xwsK (colW x8) (xw x0 x2) n f := by
  rw [Region0.G_apply, dinvCol_apply]
  rfl

/-- The graph-convolution term as the third region forms it is arrangement K of the specification. -/
theorem x1_apply (n : Fin 100000) (g : Fin 128) :
    dinvCol x8 (ix2 n (0 : Fin 1)) * (accArr (Region0.G x0 x2 (dinvCol x8)) x8 (ix2 n g) + Region0.G x0 x2 (dinvCol x8) (ix2 n g))
        + asRow x3 (ix2 (0 : Fin 1) g)
      = x1K (rowW x8) (colW x8) (xw x0 x2) (fun f => x3 (ix1 f)) n g := by
  rw [dinvCol_apply, accArr_apply, xws_apply, asRow_apply]
  refine (congrArg (fun z : EReal => dinvK (colW x8) n * ((w0 + z) + xwsK (colW x8) (xw x0 x2) n g) + x3 (ix1 g)) ?_).trans rfl
  exact Finset.sum_congr rfl fun e _ => xws_apply x0 x2 x8 _ g

/-- The drug-side dense layer at an entry. -/
theorem td_apply (j : Fin 20000) (f : Fin 128) :
    Region1.G x1 x4 (asRow x5) (ix2 j f) = (∑ c : Fin 128, x1 (ix2 j c) * x4 (ix2 c f)) + x5 (ix1 f) := by
  rw [Region1.G_apply, asRow_apply]

/-- The sum of the three terms, opened one step. -/
theorem ySum_eq (X acc s xs : S100000x128.Idx → EReal) (d cnt : S100000x1.Idx → EReal) (W : S128x128.Idx → EReal)
    (bp bg : S1x128.Idx → EReal) (n : Fin 100000) (f : Fin 128) :
    Region2.ySum X acc s xs d cnt W bp bg n f
      = (((d (ix2 n (0 : Fin 1)) * (acc (ix2 n f) + xs (ix2 n f)) + bg (ix2 (0 : Fin 1) f))
            + FloatOps.divf (F := Ideal) (φ := .f32) (s (ix2 n f)) (cnt (ix2 n (0 : Fin 1))))
          + ((∑ c : Fin 128, X (ix2 n c) * W (ix2 c f)) + bp (ix2 (0 : Fin 1) f))) + eps1 := rfl

/-- THE ROW SUM of the third region at node `n`, feature `g`, over the specification's functions. -/
theorem ySum_apply (n : Fin 100000) (g : Fin 128) :
    Region2.ySum x0 (accArr (Region0.G x0 x2 (dinvCol x8)) x8) (sArr (Region1.G x1 x4 (asRow x5)) x9 x10)
        (Region0.G x0 x2 (dinvCol x8)) (dinvCol x8) (cntCol x10) x6 (asRow x7) (asRow x3) n g
      = ((x1K (rowW x8) (colW x8) (xw x0 x2) (fun f => x3 (ix1 f)) n g
          + FloatOps.divf (F := Ideal) (φ := .f32)
              (w0 + ∑ q ∈ intoP x10 n, ((∑ c : Fin 128, x1 (ix2 (pickM (x9 (ix1 q))) c) * x4 (ix2 c g)) + x5 (ix1 g)))
              (FloatOps.maximumf (F := Ideal) (φ := .f32) (w0 + ∑ _q ∈ intoP x10 n, w1) w1))
        + ((∑ c : Fin 128, x0 (ix2 n c) * x6 (ix2 c g)) + x7 (ix1 g))) + eps1 := by
  rw [ySum_eq, x1_apply, sArr_apply, cntCol_apply, asRow_apply]
  refine congrArg (fun z : EReal => ((x1K (rowW x8) (colW x8) (xw x0 x2) (fun f => x3 (ix1 f)) n g
      + FloatOps.divf (F := Ideal) (φ := .f32) (w0 + z)
          (FloatOps.maximumf (F := Ideal) (φ := .f32) (w0 + ∑ _q ∈ intoP x10 n, w1) w1))
    + ((∑ c : Fin 128, x0 (ix2 n c) * x6 (ix2 c g)) + x7 (ix1 g))) + eps1) ?_
  exact Finset.sum_congr rfl fun q _ => td_apply x1 x4 x5 _ g

end Cert.KernelIdeal.RowSum

end
-- ==== Proof.LibGatherRows.lean ====
/-
  A general lemma: `stablehlo.gather` of a flat array at a column of start indices, read at an index.

  What `x[idx]` of a flat array `x : [N]` at an integer vector `idx : [R]` lowers to: a gather with no offset
  axes, the operand's one axis collapsed, start index map `[0]`, slice size one and the index vector on axis 1 of
  the start indices laid out as `[R, 1]`.  Result element `t` is `x` at the start index `idx[t, 0]`, read as a
  signed integer and clamped into `[0, N − 1]`.  It is the rank-one twin of the library's reading of a gather at
  an `[R, C, 1]` array of start indices, and is proved the same way.
-/
import Idealize.ShloMosaic.Lib.ValueIdx

noncomputable section

namespace Idealize.ShloMosaic.GatherRows

open Idealize.ShloMosaic Idealize.ShloMosaic.ValueIdx

variable {α : Type}

/-- The dimension numbers of `x[idx]` for an operand `[N]`, start indices `[R, 1]` and result `[R]`; their
    conditions `wf` are decided on a program's literal shapes. -/
abbrev rowDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT `t`: the operand at the start index `idx[t, 0]`, read signed and clamped into
    `[0, N − 1]`. -/
theorem gather_rows_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (t : Fin R) :
    Host.gather (rowDims N R wf) x idx (ix1 t)
      = x (ix1 ⟨min (idx (ix2 t (0 : Fin 1))).toInt.toNat (N - 1), by omega⟩) := by
  unfold Host.gather
  congr 1
  funext a
  obtain rfl : a = 0 := Subsingleton.elim _ _
  refine Fin.ext ?_
  show (rowDims N R wf).start (ix1 t) idx 0 + (rowDims N R wf).batchCoord (ix1 t) 0
    + (rowDims N R wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowDims N R wf).startIndexMap from List.mem_singleton.mpr rfl)]
  have hsi : (rowDims N R wf).siIdx (ix1 t) ⟨List.idxOf (0 : Fin 1) (rowDims N R wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

end Idealize.ShloMosaic.GatherRows

end
-- ==== Proof.RefX1.lean ====
/-
  The reference's graph-convolution stage, read at a node and a feature.

  The reference appends one self-loop per node to the edge list (1 600 000 edges, then the words 0 … 99 999), counts
  for each node the extended edges that accumulate into it, takes `d ↦ d^(-1/2)` of the count (0 where the count is
  not positive), reads that at both ends of every extended edge, multiplies the projected features of the edge's
  source row by the two factors, accumulates the products into the edge's target row starting from zero, and adds the
  bias.  Each operation is read at explicit coordinates: the concatenations by cases on the position, the two
  accumulating scatters as the operand plus the sum over the update rows whose index word read signed names the row,
  the three gathers as the operand at the index word shifted up when negative, read signed and clamped into the
  array, and the matrix product as the sum over the contracted axis.  The result is arrangement R of the
  graph-convolution term, `Cert.GcnSpec.x1R`.
-/
import proofs.«174504_j2302102471104_2_alg».proof.Proof.RefReadP
import proofs.«174504_j2302102471104_2_alg».proof.Proof.GcnSpec
import proofs.«174504_j2302102471104_2_alg».proof.Proof.LibScatterRows
import proofs.«174504_j2302102471104_2_alg».proof.Proof.LibGatherRows
import proofs.«174504_j2302102471104_2_alg».proof.Proof.LibGatherRows2

noncomputable section

namespace Cert.RefX1

open Idealize.ShloMosaic Idealize.ShloMosaic.ValueIdx Cert.ReferenceIdeal Cert.ReferenceIdeal.ReadP Cert.ReferenceIdeal.Gen Cert.GcnSpec

/-- The index words of the edge list, as the reference's argument holds them. -/
abbrev X8 := (⟨S2x1600000, .i32⟩ : BufTy).Contents (Elt Ideal)

theorem v3_apply (x8 : X8) (e : Fin 1600000) :
    val_main_v3 (F := Ideal) x8 (ix1 e) = x8 (ix2 (0 : Fin 2) e) := by
  rw [val_main_v3_apply, val_main_v2_apply]
  congr 1
  funext a
  refine Fin.ext ?_
  match a with
  | ⟨0, _⟩ => rfl
  | ⟨1, _⟩ => exact Nat.mod_eq_of_lt e.isLt

theorem v6_apply (x8 : X8) (e : Fin 1600000) :
    val_main_v6 (F := Ideal) x8 (ix1 e) = x8 (ix2 (1 : Fin 2) e) := by
  rw [val_main_v6_apply, val_main_v5_apply]
  congr 1
  funext a
  refine Fin.ext ?_
  match a with
  | ⟨0, _⟩ => rfl
  | ⟨1, _⟩ => exact Nat.mod_eq_of_lt e.isLt

theorem v4_apply (x8 : X8) (k : Fin 1700000) :
    val_main_v4 (F := Ideal) x8 (ix1 k) = catW (fun e => x8 (ix2 (0 : Fin 2) e)) k := by
  unfold val_main_v4 catW
  by_cases h : k.val < 1600000
  · rw [dif_pos h]
    rw [concatenate_pair_apply_left (0 : Fin S1700000.rank) _ _ concatenates_S1600000_S100000_S1700000_d0 (ix1 k) rfl
      (ix1 (⟨k.val, h⟩ : Fin 1600000)) (fun b => by obtain rfl : b = 0 := Subsingleton.elim _ _; rfl)]
    exact v3_apply x8 ⟨k.val, h⟩
  · rw [dif_neg h]
    have h2 : k.val - 1600000 < 100000 := by have := k.isLt; omega
    rw [concatenate_pair_apply_right (0 : Fin S1700000.rank) _ _ concatenates_S1600000_S100000_S1700000_d0 (ix1 k) rfl rfl
      (ix1 (⟨k.val - 1600000, h2⟩ : Fin 100000))
      (fun b hb => absurd (Subsingleton.elim _ _) hb)
      (by show k.val - 1600000 + 1600000 = k.val; omega)]
    rfl

theorem v7_apply (x8 : X8) (k : Fin 1700000) :
    val_main_v7 (F := Ideal) x8 (ix1 k) = catW (fun e => x8 (ix2 (1 : Fin 2) e)) k := by
  unfold val_main_v7 catW
  by_cases h : k.val < 1600000
  · rw [dif_pos h]
    rw [concatenate_pair_apply_left (0 : Fin S1700000.rank) _ _ concatenates_S1600000_S100000_S1700000_d0 (ix1 k) rfl
      (ix1 (⟨k.val, h⟩ : Fin 1600000)) (fun b => by obtain rfl : b = 0 := Subsingleton.elim _ _; rfl)]
    exact v6_apply x8 ⟨k.val, h⟩
  · rw [dif_neg h]
    have h2 : k.val - 1600000 < 100000 := by have := k.isLt; omega
    rw [concatenate_pair_apply_right (0 : Fin S1700000.rank) _ _ concatenates_S1600000_S100000_S1700000_d0 (ix1 k) rfl rfl
      (ix1 (⟨k.val - 1600000, h2⟩ : Fin 100000))
      (fun b hb => absurd (Subsingleton.elim _ _) hb)
      (by show k.val - 1600000 + 1600000 = k.val; omega)]
    rfl

/-! ### The degree and its inverse square root -/

theorem idx10 (k : Fin 1700000) : idx_main_v10 (ix2 k (0 : Fin 1)) = ix1 k := by
  funext a; match a with | ⟨0, _⟩ => rfl

theorem v10_apply (x8 : X8) (k : Fin 1700000) :
    val_main_v10 (F := Ideal) x8 (ix2 k (0 : Fin 1)) = catW (fun e => x8 (ix2 (1 : Fin 2) e)) k := by
  rw [val_main_v10_apply]
  exact (congrArg _ (idx10 k)).trans (v7_apply x8 k)

theorem v42_apply (x8 : X8) (k : Fin 1700000) :
    val_main_v42 (F := Ideal) x8 (ix2 k (0 : Fin 1)) = catW (fun e => x8 (ix2 (1 : Fin 2) e)) k := by
  rw [val_main_v42_apply]
  exact (congrArg _ (idx10 k)).trans (v7_apply x8 k)

/-- The flat scatter's dimension numbers are the segment sum's. -/
theorem flat_dims_eq : scatter_S100000_S1700000x1_S1700000_n_0_0_1
    = ScatterRows.flatDims 100000 1700000 scatter_S100000_S1700000x1_S1700000_n_0_0_1_wf := rfl

theorem v11_eq (x8 : X8) :
    val_main_v11 (F := Ideal) x8
      = Ideal.hostScatterAdd (ScatterRows.flatDims 100000 1700000 scatter_S100000_S1700000x1_S1700000_n_0_0_1_wf)
          (val_main_v9 (F := Ideal)) (val_main_v10 (F := Ideal) x8) (val_main_v8 (F := Ideal)) := rfl

theorem v11_apply (x8 : X8) (n : Fin 100000) :
    val_main_v11 (F := Ideal) x8 (ix1 n) = degR (fun e => x8 (ix2 (1 : Fin 2) e)) n := by
  refine (congrFun (v11_eq x8) (ix1 n)).trans ?_
  refine (ScatterRows.scatterAdd_flat_apply _ _ _ _ n).trans ?_
  show _ + _ = w0 + ∑ _k ∈ Finset.univ.filter (fun k : Fin 1700000 =>
    (catW (fun e => x8 (ix2 (1 : Fin 2) e)) k).toInt = (n.val : Int)), w1
  refine congrArg₂ _ ?_ ?_
  · rw [val_main_v9_apply, val_main_cst_0_apply]
  · refine Finset.sum_congr (Finset.filter_congr fun k _ => by rw [v10_apply]) fun k _ => ?_
    rw [val_main_v8_apply, val_main_cst_apply]

theorem v15_apply (x8 : X8) (n : Fin 100000) :
    val_main_v15 (F := Ideal) x8 (ix1 n) = dinvR (fun e => x8 (ix2 (1 : Fin 2) e)) n := by
  rw [val_main_v15_apply, val_main_v13_apply, val_main_v14_apply, v11_apply, val_main_v12_apply,
    val_main_call0_v1_apply, val_main_call0_v0_apply, val_main_cst_1_apply, val_main_cst_2_apply]
  rfl

/-! ### The three normalised index columns and the gathers -/

theorem v21_apply (x8 : X8) (k : Fin 1700000) :
    val_main_v21 (F := Ideal) x8 (ix2 k (0 : Fin 1)) = wrap 100000#32 (catW (fun e => x8 (ix2 (0 : Fin 2) e)) k) := by
  rw [val_main_v21_apply]
  have e : idx_main_v21 (ix2 k (0 : Fin 1)) = ix1 k := by
    funext a; match a with | ⟨0, _⟩ => rfl
  rw [e, val_main_v20_apply, val_main_v17_apply, val_main_v19_apply, v4_apply, val_main_v16_apply, val_main_v18_apply,
    val_main_c_apply, val_main_c_3_apply]
  rfl

theorem v28_apply (x8 : X8) (k : Fin 1700000) :
    val_main_v28 (F := Ideal) x8 (ix2 k (0 : Fin 1)) = wrap 100000#32 (catW (fun e => x8 (ix2 (1 : Fin 2) e)) k) := by
  rw [val_main_v28_apply]
  have e : idx_main_v28 (ix2 k (0 : Fin 1)) = ix1 k := by
    funext a; match a with | ⟨0, _⟩ => rfl
  rw [e, val_main_v27_apply, val_main_v24_apply, val_main_v26_apply, v7_apply, val_main_v23_apply, val_main_v25_apply,
    val_main_c_4_apply, val_main_c_5_apply]
  rfl

theorem v36_apply (x8 : X8) (k : Fin 1700000) :
    val_main_v36 (F := Ideal) x8 (ix2 k (0 : Fin 1)) = wrap 100000#32 (catW (fun e => x8 (ix2 (0 : Fin 2) e)) k) := by
  rw [val_main_v36_apply]
  have e : idx_main_v36 (ix2 k (0 : Fin 1)) = ix1 k := by
    funext a; match a with | ⟨0, _⟩ => rfl
  rw [e, val_main_v35_apply, val_main_v32_apply, val_main_v34_apply, v4_apply, val_main_v31_apply, val_main_v33_apply,
    val_main_c_6_apply, val_main_c_7_apply]
  rfl

/-- The row a clamped, signed reading of a normalised word names. -/
theorem pick_eq (i w : BitVec 32) (h : i = wrap 100000#32 w) (hp : min i.toInt.toNat (100000 - 1) < 100000) :
    (⟨min i.toInt.toNat (100000 - 1), hp⟩ : Fin 100000) = pickP w := by
  subst h; rfl

theorem v22_eq (x8 : X8) :
    val_main_v22 (F := Ideal) x8
      = Host.gather (GatherRows.rowDims 100000 1700000 gather_S100000_S1700000x1_S1700000_n_0_n_n_0_1_1_wf)
          (val_main_v15 (F := Ideal) x8) (val_main_v21 (F := Ideal) x8) := rfl

theorem v29_eq (x8 : X8) :
    val_main_v29 (F := Ideal) x8
      = Host.gather (GatherRows.rowDims 100000 1700000 gather_S100000_S1700000x1_S1700000_n_0_n_n_0_1_1_wf)
          (val_main_v15 (F := Ideal) x8) (val_main_v28 (F := Ideal) x8) := rfl

theorem v22_apply (x8 : X8) (k : Fin 1700000) :
    val_main_v22 (F := Ideal) x8 (ix1 k)
      = dinvR (fun e => x8 (ix2 (1 : Fin 2) e)) (pickP (catW (fun e => x8 (ix2 (0 : Fin 2) e)) k)) := by
  refine (congrFun (v22_eq x8) (ix1 k)).trans ?_
  refine (GatherRows.gather_rows_apply (by omega) _ _ _ k).trans ?_
  rw [pick_eq _ _ (v21_apply x8 k)]
  exact v15_apply x8 _

theorem v29_apply (x8 : X8) (k : Fin 1700000) :
    val_main_v29 (F := Ideal) x8 (ix1 k)
      = dinvR (fun e => x8 (ix2 (1 : Fin 2) e)) (pickP (catW (fun e => x8 (ix2 (1 : Fin 2) e)) k)) := by
  refine (congrFun (v29_eq x8) (ix1 k)).trans ?_
  refine (GatherRows.gather_rows_apply (by omega) _ _ _ k).trans ?_
  rw [pick_eq _ _ (v28_apply x8 k)]
  exact v15_apply x8 _

/-! ### The projected features, gathered and scaled -/

abbrev X0 := (⟨S100000x128, .f32⟩ : BufTy).Contents (Elt Ideal)
abbrev X2 := (⟨S128x128, .f32⟩ : BufTy).Contents (Elt Ideal)
abbrev X3 := (⟨S128, .f32⟩ : BufTy).Contents (Elt Ideal)

theorem v0_apply (x0 : X0) (x2 : X2) (n : Fin 100000) (f : Fin 128) :
    val_main_v0 (F := Ideal) x0 x2 (ix2 n f) = ∑ c : Fin 128, x0 (ix2 n c) * x2 (ix2 c f) := by
  rw [val_main_v0_apply]
  refine Finset.sum_congr rfl fun c _ => ?_
  have el : lidx_main_v0 (ix2 n f) c = ix2 n c := by
    funext a; match a with | ⟨0, _⟩ => rfl | ⟨1, _⟩ => rfl
  have er : ridx_main_v0 (ix2 n f) c = ix2 c f := by
    funext a; match a with | ⟨0, _⟩ => rfl | ⟨1, _⟩ => rfl
  rw [el, er]

theorem v37_eq (x0 : X0) (x2 : X2) (x8 : X8) :
    val_main_v37 (F := Ideal) x0 x2 x8
      = Host.gather (GatherRows2.matDims 100000 1700000 128 gather_S100000x128_S1700000x1_S1700000x128_1_0_n_n_0_1_1128_wf)
          (val_main_v0 (F := Ideal) x0 x2) (val_main_v36 (F := Ideal) x8) := rfl

theorem v37_apply (x0 : X0) (x2 : X2) (x8 : X8) (k : Fin 1700000) (f : Fin 128) :
    val_main_v37 (F := Ideal) x0 x2 x8 (ix2 k f)
      = ∑ c : Fin 128, x0 (ix2 (pickP (catW (fun e => x8 (ix2 (0 : Fin 2) e)) k)) c) * x2 (ix2 c f) := by
  refine (congrFun (v37_eq x0 x2 x8) (ix2 k f)).trans ?_
  refine (GatherRows2.gather_mat_apply (by omega) _ _ _ k f).trans ?_
  rw [pick_eq _ _ (v36_apply x8 k)]
  exact v0_apply x0 x2 _ f

theorem v39_apply (x8 : X8) (k : Fin 1700000) (f : Fin 128) :
    val_main_v39 (F := Ideal) x8 (ix2 k f)
      = dinvR (fun e => x8 (ix2 (1 : Fin 2) e)) (pickP (catW (fun e => x8 (ix2 (0 : Fin 2) e)) k))
        * dinvR (fun e => x8 (ix2 (1 : Fin 2) e)) (pickP (catW (fun e => x8 (ix2 (1 : Fin 2) e)) k)) := by
  rw [val_main_v39_apply]
  have e1 : idx_main_v39 (ix2 k f) = ix2 k (0 : Fin 1) := by
    funext a; match a with | ⟨0, _⟩ => rfl | ⟨1, _⟩ => rfl
  rw [e1, val_main_v38_apply]
  have e2 : idx_main_v38 (ix2 k (0 : Fin 1)) = ix1 k := by
    funext a; match a with | ⟨0, _⟩ => rfl
  rw [e2, val_main_v30_apply, v22_apply, v29_apply]
  rfl

theorem v40_apply (x0 : X0) (x2 : X2) (x8 : X8) (k : Fin 1700000) (f : Fin 128) :
    val_main_v40 (F := Ideal) x0 x2 x8 (ix2 k f)
      = (∑ c : Fin 128, x0 (ix2 (pickP (catW (fun e => x8 (ix2 (0 : Fin 2) e)) k)) c) * x2 (ix2 c f))
        * (dinvR (fun e => x8 (ix2 (1 : Fin 2) e)) (pickP (catW (fun e => x8 (ix2 (0 : Fin 2) e)) k))
          * dinvR (fun e => x8 (ix2 (1 : Fin 2) e)) (pickP (catW (fun e => x8 (ix2 (1 : Fin 2) e)) k))) := by
  rw [val_main_v40_apply, v37_apply, v39_apply]
  rfl

/-! ### The scatter into zeros, and the bias -/

/-- The row scatter's dimension numbers are the segment sum's. -/
theorem v43_eq (x0 : X0) (x2 : X2) (x8 : X8) :
    val_main_v43 (F := Ideal) x0 x2 x8
      = Ideal.hostScatterAdd
          (ScatterRows.rowDims 100000 1700000 128 scatter_S100000x128_S1700000x1_S1700000x128_1_0_0_1_wf)
          (val_main_v41 (F := Ideal)) (val_main_v42 (F := Ideal) x8) (val_main_v40 (F := Ideal) x0 x2 x8) := rfl

theorem v43_apply (x0 : X0) (x2 : X2) (x8 : X8) (n : Fin 100000) (f : Fin 128) :
    val_main_v43 (F := Ideal) x0 x2 x8 (ix2 n f)
      = w0 + ∑ k ∈ intoC (fun e => x8 (ix2 (1 : Fin 2) e)) n,
          (∑ c : Fin 128, x0 (ix2 (pickP (catW (fun e => x8 (ix2 (0 : Fin 2) e)) k)) c) * x2 (ix2 c f))
            * (dinvR (fun e => x8 (ix2 (1 : Fin 2) e)) (pickP (catW (fun e => x8 (ix2 (0 : Fin 2) e)) k))
              * dinvR (fun e => x8 (ix2 (1 : Fin 2) e)) (pickP (catW (fun e => x8 (ix2 (1 : Fin 2) e)) k))) := by
  refine (congrFun (v43_eq x0 x2 x8) (ix2 n f)).trans ?_
  refine (ScatterRows.scatterAdd_rows_apply _ _ _ _ n f).trans ?_
  refine congrArg₂ _ ?_ ?_
  · rw [val_main_v41_apply, val_main_cst_8_apply]
  · exact Finset.sum_congr (Finset.filter_congr fun k _ => by rw [v42_apply]) fun k _ => v40_apply x0 x2 x8 k f

theorem v45_apply (x3 : X3) (n : Fin 100000) (f : Fin 128) :
    val_main_v45 (F := Ideal) x3 (ix2 n f) = x3 (ix1 f) := by
  rw [val_main_v45_apply]
  have e1 : idx_main_v45 (ix2 n f) = ix2 (0 : Fin 1) f := by
    funext a; match a with | ⟨0, _⟩ => rfl | ⟨1, _⟩ => rfl
  rw [e1, val_main_v44_apply]
  have e2 : idx_main_v44 (ix2 (0 : Fin 1) f) = ix1 f := by
    funext a; match a with | ⟨0, _⟩ => rfl
  rw [e2]

/-- The reference's graph-convolution stage read at node `n`, feature `f`: the sum over the extended edge list
    (one self-loop per node appended) of the normalised projected features, plus the bias. -/
theorem ref_x1_apply (x0 : (⟨S100000x128, .f32⟩ : BufTy).Contents (Elt Ideal)) (x2 : (⟨S128x128, .f32⟩ : BufTy).Contents (Elt Ideal))
    (x3 : (⟨S128, .f32⟩ : BufTy).Contents (Elt Ideal)) (x8 : (⟨S2x1600000, .i32⟩ : BufTy).Contents (Elt Ideal)) (n : Fin 100000) (f : Fin 128) :
    Cert.ReferenceIdeal.ReadP.val_main_v46 (F := Ideal) x0 x2 x3 x8 (ix2 n f)
      = Cert.GcnSpec.x1R (fun e => x8 (ix2 (0 : Fin 2) e)) (fun e => x8 (ix2 (1 : Fin 2) e))
          (fun n f => ∑ c : Fin 128, x0 (ix2 n c) * x2 (ix2 c f)) (fun f => x3 (ix1 f)) n f := by
  rw [val_main_v46_apply, v43_apply, v45_apply]
  rfl

end Cert.RefX1

end
-- ==== Proof.RefCnt.lean ====
/-
  The reference's per-node count of the second edge list, floored at one, read at a node.

  The reference accumulates the float word 1 into a zero array of 100 000 entries once for every one of the 800 000
  index words, each word read signed and a word naming no entry dropped, and then takes the maximum with 1.  At
  node `n` that is `max (0 + Σ_{q, word q = n} 1) 1`.
-/
import proofs.«174504_j2302102471104_2_alg».proof.Proof.RefReadP
import proofs.«174504_j2302102471104_2_alg».proof.Proof.GcnSpec
import proofs.«174504_j2302102471104_2_alg».proof.Proof.LibScatterRows

noncomputable section

namespace Cert.RefCnt

open Idealize.ShloMosaic Idealize.ShloMosaic.ValueIdx Cert.ReferenceIdeal Cert.ReferenceIdeal.ReadP Cert.ReferenceIdeal.Gen Cert.GcnSpec

/-- The index words of the second edge list, as the reference's argument holds them. -/
abbrev X10 := (⟨S800000, .i32⟩ : BufTy).Contents (Elt Ideal)

theorem idx63 (q : Fin 800000) : idx_main_v63 (ix2 q (0 : Fin 1)) = ix1 q := by
  funext a; match a with | ⟨0, _⟩ => rfl

theorem v63_apply (x10 : X10) (q : Fin 800000) :
    val_main_v63 (F := Ideal) x10 (ix2 q (0 : Fin 1)) = x10 (ix1 q) := by
  rw [val_main_v63_apply]
  exact congrArg _ (idx63 q)

/-- The scatter's dimension numbers are the segment sum's. -/
theorem v64_eq (x10 : X10) :
    val_main_v64 (F := Ideal) x10
      = Ideal.hostScatterAdd (ScatterRows.flatDims 100000 800000 scatter_S100000_S800000x1_S800000_n_0_0_1_wf)
          (val_main_v62 (F := Ideal)) (val_main_v63 (F := Ideal) x10) (val_main_v61 (F := Ideal)) := rfl

theorem v64_apply (x10 : X10) (n : Fin 100000) :
    val_main_v64 (F := Ideal) x10 (ix1 n)
      = w0 + ∑ _q ∈ Finset.univ.filter (fun q : Fin 800000 => (x10 (ix1 q)).toInt = (n.val : Int)), w1 := by
  refine (congrFun (v64_eq x10) (ix1 n)).trans ?_
  refine (ScatterRows.scatterAdd_flat_apply _ _ _ _ n).trans ?_
  refine congrArg₂ _ ?_ ?_
  · rw [val_main_v62_apply, val_main_cst_13_apply]
  · refine Finset.sum_congr (Finset.filter_congr fun q _ => by rw [v63_apply]) fun q _ => ?_
    rw [val_main_v61_apply, val_main_cst_12_apply]

/-- The count of the second edge list's words naming node `n`, floored at one. -/
theorem ref_cnt_apply (x10 : (⟨S800000, .i32⟩ : BufTy).Contents (Elt Ideal)) (n : Fin 100000) :
    Cert.ReferenceIdeal.ReadP.val_main_v66 (F := Ideal) x10 (ix1 n)
      = FloatOps.maximumf (F := Ideal) (φ := .f32)
          (Cert.GcnSpec.w0 + ∑ _q ∈ Finset.univ.filter (fun q : Fin 800000 => (x10 (ix1 q)).toInt = (n.val : Int)),
            Cert.GcnSpec.w1) Cert.GcnSpec.w1 := by
  rw [val_main_v66_apply, v64_apply, val_main_v65_apply, val_main_cst_14_apply]

end Cert.RefCnt

end
-- ==== Proof.RefTail.lean ====
/-
  The last stages of the reference program read at an index given by its coordinates.

  Each stage is read from its operands at the same index; a broadcast reads its operand at the index with the
  broadcast axes dropped, a product of two arrays is the sum over the contracted coordinate, and a sum along a row
  starts from the float word 0.  Composing these readings stage by stage gives every entry of the late stages as a
  plain expression in entries of earlier stages.
-/
import proofs.«174504_j2302102471104_2_alg».proof.Proof.RefReadP
import proofs.«174504_j2302102471104_2_alg».proof.Proof.RowSpec
import proofs.«174504_j2302102471104_2_alg».proof.Proof.GcnSpec
import proofs.«174504_j2302102471104_2_alg».proof.Proof.LibRowWise
import proofs.«174504_j2302102471104_2_alg».proof.Proof.LibScatterRows
import proofs.«174504_j2302102471104_2_alg».proof.Proof.LibGatherRows2
import Idealize.ShloMosaic.Lib.IdealHost

open scoped BigOperators

noncomputable section

namespace Cert.RefTail

open Cert.ReferenceIdeal Cert.ReferenceIdeal.ReadP Idealize.ShloMosaic Idealize.ShloMosaic.ValueIdx

section
variable (x0 : (⟨S100000x128, .f32⟩ : BufTy).Contents (Elt Ideal)) (x1 : (⟨S20000x128, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S2x1600000, .i32⟩ : BufTy).Contents (Elt Ideal)) (x9 x10 : (⟨S800000, .i32⟩ : BufTy).Contents (Elt Ideal))

/-! ### The index functions of the broadcasts and of the product, at an index given by its coordinates -/

theorem idx67_68 (n : Fin 100000) (f : Fin 128) : idx_main_v67 (idx_main_v68 (ix2 n f)) = ix1 n :=
  funext fun a => match a with | ⟨0, _⟩ => rfl

theorem idx71_72 (n : Fin 100000) (f : Fin 128) : idx_main_v71 (idx_main_v72 (ix2 n f)) = ix1 f :=
  funext fun a => match a with | ⟨0, _⟩ => rfl

theorem lidx70 (n : Fin 100000) (f k : Fin 128) : lidx_main_v70 (ix2 n f) k = ix2 n k :=
  funext fun a => match a with | ⟨0, _⟩ => rfl | ⟨1, _⟩ => rfl

theorem ridx70 (n : Fin 100000) (f k : Fin 128) : ridx_main_v70 (ix2 n f) k = ix2 k f :=
  funext fun a => match a with | ⟨0, _⟩ => rfl | ⟨1, _⟩ => rfl

/-- Operations 67 to 77: the graph term plus the averaged message term, plus the dense term with its bias, plus the
    small float word. -/
theorem v77_apply (n : Fin 100000) (f : Fin 128) :
    val_main_v77 (F := Ideal) x0 x1 x2 x3 x4 x5 x6 x7 x8 x9 x10 (ix2 n f)
      = ((val_main_v46 (F := Ideal) x0 x2 x3 x8 (ix2 n f)
            + FloatOps.divf (F := Ideal) (φ := .f32) (val_main_v60 (F := Ideal) x1 x4 x5 x9 x10 (ix2 n f))
                (val_main_v66 (F := Ideal) x10 (ix1 n)))
          + ((∑ c : Fin 128, x0 (ix2 n c) * x6 (ix2 c f)) + x7 (ix1 f)))
        + Cert.RowSpec.eps1 := by
  rw [val_main_v77_apply, val_main_v75_apply, val_main_v74_apply, val_main_v73_apply, val_main_v69_apply,
    val_main_v76_apply, val_main_cst_15_apply, val_main_v68_apply, val_main_v67_apply, val_main_v72_apply,
    val_main_v71_apply, val_main_v70_apply, idx67_68, idx71_72]
  simp only [lidx70, ridx70]
  rfl

/-! ### The row normalisation, operations 78 to 95, as a function of the array it normalises -/

section Tail
open Cert.ReferenceIdeal.Gen

/-- Operations 78 to 81 on an array Y: the column of row means. -/
def tMean (Y : FVec Ideal S100000x128 .f32) : FVec Ideal S100000x1 .f32 :=
  Host.divf
    (broadcastInDim S100000x1 ![0] bcast_S100000_S100000x1_0
      (Host.reduceAdd Y (constant (F := Ideal) S_ .f32 0x00000000#32) reducesTo_S100000x128_S100000_d1 h_S_))
    (broadcastInDim S100000x1 ![] bcast_S_S100000x1 (constant (F := Ideal) S_ .f32 0x43000000#32))

/-- Operations 82 to 88 on an array Y: the column of row means of the squared deviations. -/
def tVar (Y : FVec Ideal S100000x128 .f32) : FVec Ideal S100000x1 .f32 :=
  Host.divf
    (broadcastInDim S100000x1 ![0] bcast_S100000_S100000x1_0
      (Host.reduceAdd
        (mulf (subf Y (broadcastInDim S100000x128 ![0, 1] bcast_S100000x1_S100000x128_0_1 (tMean Y)))
          (subf Y (broadcastInDim S100000x128 ![0, 1] bcast_S100000x1_S100000x128_0_1 (tMean Y))))
        (constant (F := Ideal) S_ .f32 0x00000000#32) reducesTo_S100000x128_S100000_d1 h_S_))
    (broadcastInDim S100000x1 ![] bcast_S_S100000x1 (constant (F := Ideal) S_ .f32 0x43000000#32))

/-- Operations 89 to 95 on an array Y: each row of Y normalised. -/
def lnTail (Y : FVec Ideal S100000x128 .f32) : FVec Ideal S100000x128 .f32 :=
  mulf (subf Y (broadcastInDim S100000x128 ![0, 1] bcast_S100000x1_S100000x128_0_1 (tMean Y)))
    (broadcastInDim S100000x128 ![0, 1] bcast_S100000x1_S100000x128_0_1
      (Host.rsqrt (addf (tVar Y)
        (broadcastInDim S100000x1 ![] bcast_S_S100000x1 (constant (F := Ideal) S_ .f32 0x3727C5AC#32)))))

/-- Stage 95 is the row normalisation of stage 77. -/
theorem v95_eq_lnTail :
    val_main_v95 (F := Ideal) x0 x1 x2 x3 x4 x5 x6 x7 x8 x9 x10
      = lnTail (val_main_v77 (F := Ideal) x0 x1 x2 x3 x4 x5 x6 x7 x8 x9 x10) := by
  unfold val_main_v95 val_main_v94 val_main_v93 val_main_v92 val_main_v91 val_main_v90 val_main_v89 val_main_v88
    val_main_v87 val_main_v86 val_main_v85 val_main_v84 val_main_v83 val_main_v82 val_main_v81 val_main_v80
    val_main_v79 val_main_v78 val_main_cst_16 val_main_cst_17 val_main_cst_18 val_main_cst_19 val_main_cst_20
    lnTail tVar tMean
  generalize val_main_v77 (F := Ideal) x0 x1 x2 x3 x4 x5 x6 x7 x8 x9 x10 = Y
  rfl

/-- A float word spread over a column reads that word. -/
theorem splat_col (w : BitVec 32) (j : S100000x1.Idx) :
    broadcastInDim S100000x1 ![] bcast_S_S100000x1 (constant (F := Ideal) S_ .f32 w) j
      = FloatOps.ofBits (F := Ideal) .f32 w := by
  rw [broadcastInDim_scalar_apply]
  rfl

/-- The column of row means, read at row n: the mean of row n. -/
theorem tMean_apply (Y : FVec Ideal S100000x128 .f32) (n : Fin 100000) :
    tMean Y (ix2 n (0 : Fin 1)) = Cert.RowSpec.mean (fun g => Y (ix2 n g)) := by
  unfold tMean Cert.RowSpec.mean
  show FloatOps.hostDivf _ _ = _
  rw [Cert.RowWise.colLift_apply, Cert.RowWise.hostRowSum_apply Y _ (by decide) _ n, splat_col]
  rfl

/-- The column of row variances, read at row n. -/
theorem tVar_apply (Y : FVec Ideal S100000x128 .f32) (n : Fin 100000) :
    tVar Y (ix2 n (0 : Fin 1))
      = FloatOps.divf (F := Ideal) (φ := .f32)
          (∑ g : Fin 128,
            (Y (ix2 n g) - Cert.RowSpec.mean (fun g => Y (ix2 n g)))
              * (Y (ix2 n g) - Cert.RowSpec.mean (fun g => Y (ix2 n g))))
          Cert.RowSpec.len128 := by
  unfold tVar
  show FloatOps.hostDivf _ _ = _
  rw [Cert.RowWise.colLift_apply, Cert.RowWise.hostRowSum_apply _ _ (by decide) _ n, splat_col]
  refine congrArg (fun s => Ideal.div s Cert.RowSpec.len128) (Finset.sum_congr rfl fun k _ => ?_)
  show (Y (ix2 n k) - _) * (Y (ix2 n k) - _) = _
  rw [Cert.RowWise.colSpread_apply, tMean_apply]

/-- The normalised array, read at an entry: row n of Y normalised, at column f. -/
theorem lnTail_apply (Y : FVec Ideal S100000x128 .f32) (n : Fin 100000) (f : Fin 128) :
    lnTail Y (ix2 n f) = Cert.RowSpec.lnRow (fun g => Y (ix2 n g)) f := by
  unfold lnTail Cert.RowSpec.lnRow
  show (Y (ix2 n f) - _) * _ = _
  rw [Cert.RowWise.colSpread_apply, tMean_apply, Cert.RowWise.colSpread_apply]
  show _ * Ideal.rsqrt (tVar Y (ix2 n (0 : Fin 1)) + _) = _
  rw [tVar_apply, splat_col]
  rfl

/-- Operations 78 to 95: row n of stage 77, normalised to zero mean and unit variance. -/
theorem v95_apply (n : Fin 100000) (f : Fin 128) :
    val_main_v95 (F := Ideal) x0 x1 x2 x3 x4 x5 x6 x7 x8 x9 x10 (ix2 n f)
      = Cert.RowSpec.lnRow (fun g => val_main_v77 (F := Ideal) x0 x1 x2 x3 x4 x5 x6 x7 x8 x9 x10 (ix2 n g)) f :=
  (congrFun (v95_eq_lnTail x0 x1 x2 x3 x4 x5 x6 x7 x8 x9 x10) (ix2 n f)).trans
    (lnTail_apply (val_main_v77 (F := Ideal) x0 x1 x2 x3 x4 x5 x6 x7 x8 x9 x10) n f)

end Tail

/-! ### The message sum, operations 47 to 60 -/

section Messages
open Cert.ReferenceIdeal.Gen Idealize.ShloMosaic.ScatterRows Idealize.ShloMosaic.GatherRows2

/-- At the extended reals the host's accumulating scatter is the exact sum (stated over any shapes). -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- The row of a 20 000-row array that reading at a word reads: the word normalised, read signed, clamped. -/
def pickD (i : BitVec 32) : Fin 20000 :=
  ⟨min (Cert.GcnSpec.wrap 20000#32 i).toInt.toNat (20000 - 1), by omega⟩

/-- Operations 51 to 55 on an array of words: a negative word shifted up by 20 000. -/
def wrapV (a9 : IVec S800000 32) : IVec S800000 32 :=
  select (cmpi .slt a9 (broadcastInDim S800000 ![] bcast_S_S800000 (constantI S_ 32 0#32)))
    (addi a9 (broadcastInDim S800000 ![] bcast_S_S800000 (constantI S_ 32 20000#32))) a9

theorem wrapV_apply (a9 : IVec S800000 32) (q : Fin 800000) :
    wrapV a9 (ix1 q) = Cert.GcnSpec.wrap 20000#32 (a9 (ix1 q)) := by
  unfold wrapV Cert.GcnSpec.wrap
  show Scalar.select
      (IntOp.cmpi .slt (a9 (ix1 q)) (broadcastInDim S800000 ![] bcast_S_S800000 (constantI S_ 32 0#32) (ix1 q)))
      (IntOp.addi (a9 (ix1 q)) (broadcastInDim S800000 ![] bcast_S_S800000 (constantI S_ 32 20000#32) (ix1 q)))
      (a9 (ix1 q)) = _
  rw [broadcastInDim_scalar_apply, broadcastInDim_scalar_apply]
  rfl

/-- Operations 56 to 60 on an array Z of messages and two arrays of words: row Z at the first word (normalised,
    clamped) of each pair, summed into the row the second word names. -/
def tMsg (Z : FVec Ideal S20000x128 .f32) (a9 a10 : IVec S800000 32) : FVec Ideal S100000x128 .f32 :=
  Host.scatterAdd scatter_S100000x128_S800000x1_S800000x128_1_0_0_1
    (broadcastInDim S100000x128 ![] bcast_S_S100000x128 (constant (F := Ideal) S_ .f32 0x00000000#32))
    (broadcastInDim S800000x1 ![0] bcast_S800000_S800000x1_0 a10)
    (Host.gather gather_S20000x128_S800000x1_S800000x128_1_0_n_n_0_1_1128 Z
      (broadcastInDim S800000x1 ![0] bcast_S800000_S800000x1_0 (wrapV a9)))

/-- Stage 60 is that sum of the rows of stage 50. -/
theorem v60_eq_tMsg :
    val_main_v60 (F := Ideal) x1 x4 x5 x9 x10 = tMsg (val_main_v50 (F := Ideal) x1 x4 x5) x9 x10 := rfl

theorem tMsg_eq (Z : FVec Ideal S20000x128 .f32) (a9 a10 : IVec S800000 32) :
    tMsg Z a9 a10
      = Ideal.hostScatterAdd
          (rowDims 100000 800000 128 Cert.ReferenceIdeal.Gen.scatter_S100000x128_S800000x1_S800000x128_1_0_0_1_wf)
          (broadcastInDim S100000x128 ![] bcast_S_S100000x128 (constant (F := Ideal) S_ .f32 0x00000000#32))
          (broadcastInDim S800000x1 ![0] bcast_S800000_S800000x1_0 a10)
          (Host.gather
            (matDims 20000 800000 128
              Cert.ReferenceIdeal.Gen.gather_S20000x128_S800000x1_S800000x128_1_0_n_n_0_1_1128_wf)
            Z (broadcastInDim S800000x1 ![0] bcast_S800000_S800000x1_0 (wrapV a9))) := rfl

/-- The message sum read at (n, f): the float word 0 plus, over the pairs whose second word names n, entry f of the
    row of Z the first word reads. -/
theorem tMsg_apply (Z : FVec Ideal S20000x128 .f32) (a9 a10 : IVec S800000 32) (n : Fin 100000) (f : Fin 128) :
    tMsg Z a9 a10 (ix2 n f)
      = Cert.GcnSpec.w0
          + ∑ q ∈ Finset.univ.filter (fun q : Fin 800000 => (a10 (ix1 q)).toInt = (n.val : Int)),
              Z (ix2 (pickD (a9 (ix1 q))) f) := by
  rw [tMsg_eq, scatterAdd_rows_apply, broadcastInDim_scalar_apply]
  refine congrArg₂ (· + ·) rfl ?_
  rw [Finset.filter_congr (fun k _ => by rw [Cert.RowWise.colLift_apply])]
  refine Finset.sum_congr rfl fun k _ => ?_
  rw [gather_mat_apply (by decide)]
  refine congrArg (fun r => Z (ix2 r f)) (Fin.ext ?_)
  show min (broadcastInDim S800000x1 ![0] bcast_S800000_S800000x1_0 (wrapV a9) (ix2 k (0 : Fin 1))).toInt.toNat
      (20000 - 1) = min (Cert.GcnSpec.wrap 20000#32 (a9 (ix1 k))).toInt.toNat (20000 - 1)
  rw [Cert.RowWise.colLift_apply, wrapV_apply]

/-! The dense stage 47 to 50 at an entry -/

theorem idx48_49 (r : Fin 20000) (f : Fin 128) : idx_main_v48 (idx_main_v49 (ix2 r f)) = ix1 f :=
  funext fun a => match a with | ⟨0, _⟩ => rfl

theorem lidx47 (r : Fin 20000) (f k : Fin 128) : lidx_main_v47 (ix2 r f) k = ix2 r k :=
  funext fun a => match a with | ⟨0, _⟩ => rfl | ⟨1, _⟩ => rfl

theorem ridx47 (r : Fin 20000) (f k : Fin 128) : ridx_main_v47 (ix2 r f) k = ix2 k f :=
  funext fun a => match a with | ⟨0, _⟩ => rfl | ⟨1, _⟩ => rfl

/-- Operations 47 to 50: a row of the second feature array times the weight matrix, plus the bias. -/
theorem v50_entry (r : Fin 20000) (f : Fin 128) :
    val_main_v50 (F := Ideal) x1 x4 x5 (ix2 r f)
      = (∑ c : Fin 128, x1 (ix2 r c) * x4 (ix2 c f)) + x5 (ix1 f) := by
  rw [val_main_v50_apply, val_main_v49_apply, val_main_v48_apply, val_main_v47_apply, idx48_49]
  simp only [lidx47, ridx47]
  rfl

/-- Operations 47 to 60 read at (n, f). -/
theorem v60_apply (n : Fin 100000) (f : Fin 128) :
    val_main_v60 (F := Ideal) x1 x4 x5 x9 x10 (ix2 n f)
      = Cert.GcnSpec.w0
          + ∑ q ∈ Finset.univ.filter (fun q : Fin 800000 => (x10 (ix1 q)).toInt = (n.val : Int)),
              ((∑ c : Fin 128, x1 (ix2 (pickD (x9 (ix1 q))) c) * x4 (ix2 c f)) + x5 (ix1 f)) :=
  ((congrFun (v60_eq_tMsg x1 x4 x5 x9 x10) (ix2 n f)).trans
      (tMsg_apply (val_main_v50 (F := Ideal) x1 x4 x5) x9 x10 n f)).trans
    (congrArg (fun z => Cert.GcnSpec.w0 + z)
      (Finset.sum_congr rfl fun q _ => v50_entry x1 x4 x5 (pickD (x9 (ix1 q))) f))

end Messages

end

end Cert.RefTail

end
-- ==== Proof.FiniteInputs.lean ====
/-
  From the precondition "every entry of every float argument is finite" to "every entry of the node features and of the
  first weight matrix is a real number".

  The precondition is the conjunction, over the eight float arguments, of the reduction by "and" over all entries of the
  comparison |x| < +inf.  A conjunction of bits that is 1 has every conjunct 1; a reduction by "and" into a single result
  that is 1 met a 1 at every entry; and an extended real whose absolute value max x (-x) is strictly below +inf is
  neither infinity nor the junk value, hence a real number.  A finite sum of products of real numbers is again real, so
  every entry of the product of the two arrays is real.
-/
import proofs.«174504_j2302102471104_2_alg».proof.Defs
import proofs.«174504_j2302102471104_2_alg».proof.Proof.Gen.Pre_finite_inputs
import proofs.«174504_j2302102471104_2_alg».proof.Proof.LibERealFinite
import Idealize.ShloMosaic.Lib.ReduceAll
import Idealize.ShloMosaic.Lib.ValueIdx

noncomputable section

namespace Cert.FiniteInputs

open Idealize.ShloMosaic Idealize.ShloMosaic.ValueIdx Idealize.SL.Sem

/-- The shape of a single result has one index. -/
instance : Subsingleton Cert.Pre_finite_inputs.S_.Idx := ⟨fun _ _ => funext fun d => d.elim0⟩

/-- One reduction by "and" of |x| < +inf over all entries that is 1 makes every entry of x a real number. -/
theorem real_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf .olt (Host.absf x) (broadcastInDim S ![] hb (constant Cert.Pre_finite_inputs.S_ .f32 0x7F800000#32)))
          (constantI Cert.Pre_finite_inputs.S_ 1 1#1) hr hu ix0 = 1#1)
    (i : S.Idx) : ∃ r : ℝ, x i = (r : EReal) :=
  Cert.LibERealFinite.real_of_abs_lt (x i) (Host.reduce_andi_all _ _ hr hu ix0 e i)

/-- Every entry of the node features is a real number. -/
theorem arg0_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S100000x128.Idx) :
    ∃ r : ℝ, m ((c.tc : Thread Cert.KernelIdeal.nD Cert.KernelIdeal.τ).loc Cert.KernelIdeal.main_arg0) i = (r : EReal) := by
  have e := congrFun (h c) ix0
  dsimp only [Cert.Pre_finite_inputs.fn, Cert.Pre_finite_inputs.fn_part1, Cert.Pre_finite_inputs.fn_part2, andi] at e
  simp only [IntOp.andi_eq_one] at e
  obtain ⟨⟨⟨⟨⟨⟨⟨e0, -⟩, -⟩, -⟩, -⟩, -⟩, -⟩, -⟩ := e
  exact real_of_all _ _ _ _ e0 i

/-- Every entry of the first weight matrix is a real number. -/
theorem arg2_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128x128.Idx) :
    ∃ r : ℝ, m ((c.tc : Thread Cert.KernelIdeal.nD Cert.KernelIdeal.τ).loc Cert.KernelIdeal.main_arg2) i = (r : EReal) := by
  have e := congrFun (h c) ix0
  dsimp only [Cert.Pre_finite_inputs.fn, Cert.Pre_finite_inputs.fn_part1, Cert.Pre_finite_inputs.fn_part2, andi] at e
  simp only [IntOp.andi_eq_one] at e
  obtain ⟨⟨⟨⟨⟨⟨⟨-, -⟩, e2⟩, -⟩, -⟩, -⟩, -⟩, -⟩ := e
  exact real_of_all _ _ _ _ e2 i

/-- Every entry of the product of two arrays of real numbers is a real number. -/
theorem xw_real (x0 : Cert.KernelIdeal.S100000x128.Idx → EReal) (x2 : Cert.KernelIdeal.S128x128.Idx → EReal)
    (h0 : ∀ i, ∃ r : ℝ, x0 i = (r : EReal)) (h2 : ∀ i, ∃ r : ℝ, x2 i = (r : EReal)) (n : Fin 100000) (f : Fin 128) :
    ∃ r : ℝ, (∑ c : Fin 128, x0 (ix2 n c) * x2 (ix2 c f)) = (r : EReal) := by
  choose R0 hR0 using h0
  choose R2 hR2 using h2
  refine ⟨∑ c : Fin 128, R0 (ix2 n c) * R2 (ix2 c f), ?_⟩
  rw [Cert.LibERealFinite.coe_sum]
  exact Finset.sum_congr rfl fun c _ => by rw [hR0, hR2, EReal.coe_mul]

end Cert.FiniteInputs

end
-- ==== Proof.KBridge.lean ====
/-
  The idealized kernel program's result is the reference's result term of the same arguments.

  Read at node `n`, feature `f`, both are the row normalisation of the node's 128 row sums.  A row sum is the
  graph-convolution term plus the mean of the node's drug messages plus the dense layer of the node's features plus a
  small constant; the last three are the same expressions of the argument arrays on both sides, and the first is the
  kernel's arrangement on one side and the reference's on the other, equal because the projected features are real
  numbers when the features and the weights are finite.
-/
import proofs.«174504_j2302102471104_2_alg».proof.Proof.KChain
import proofs.«174504_j2302102471104_2_alg».proof.Proof.KRowSum
import proofs.«174504_j2302102471104_2_alg».proof.Proof.RefX1
import proofs.«174504_j2302102471104_2_alg».proof.Proof.RefCnt
import proofs.«174504_j2302102471104_2_alg».proof.Proof.RefTail
import proofs.«174504_j2302102471104_2_alg».proof.Proof.GcnAlgebra
import proofs.«174504_j2302102471104_2_alg».proof.Proof.FiniteInputs

set_option maxRecDepth 16384

noncomputable section

open scoped BigOperators

namespace Cert.Bridge

open Idealize.ShloMosaic Idealize.ShloMosaic.ValueIdx Idealize.ShloMosaic.TcCoe Idealize.SL.Sem
open Cert.KernelIdeal Cert.KernelIdeal.Host Cert.KernelIdeal.HostRead Cert.GcnSpec

/-- The two spellings of "the drug messages arriving at node `n`" and of "the drug row a word names". -/
theorem intoP_eq (x10 : S800000.Idx → BitVec 32) (n : Fin 100000) :
    intoP x10 n = Finset.univ.filter (fun q : Fin 800000 => (x10 (ix1 q)).toInt = (n.val : Int)) := rfl
theorem pickM_eq (i : BitVec 32) : pickM i = Cert.RefTail.pickD i := rfl

section
variable (x0 : S100000x128.Idx → EReal) (x1 : S20000x128.Idx → EReal) (x2 x4 x6 : S128x128.Idx → EReal)
  (x3 x5 x7 : S128.Idx → EReal) (x8 : S2x1600000.Idx → BitVec 32) (x9 x10 : S800000.Idx → BitVec 32)

/-- THE ROW SUMS AGREE: the third region's row sum at `(n, g)` is the reference's stage before the normalisation. -/
theorem row_eq (h0 : ∀ i, ∃ r : ℝ, x0 i = (r : EReal)) (h2 : ∀ i, ∃ r : ℝ, x2 i = (r : EReal)) (n : Fin 100000) (g : Fin 128) :
    Region2.ySum x0 (accArr (Region0.G x0 x2 (dinvCol x8)) x8) (sArr (Region1.G x1 x4 (asRow x5)) x9 x10)
        (Region0.G x0 x2 (dinvCol x8)) (dinvCol x8) (cntCol x10) x6 (asRow x7) (asRow x3) n g
      = Cert.ReferenceIdeal.ReadP.val_main_v77 (F := Ideal) x0 x1 x2 x3 x4 x5 x6 x7 x8 x9 x10 (ix2 n g) := by
  rw [RowSum.ySum_apply, Cert.RefTail.v77_apply, Cert.RefX1.ref_x1_apply, Cert.RefTail.v60_apply, Cert.RefCnt.ref_cnt_apply,
    Cert.GcnSpec.x1R_eq_x1K _ _ _ _ (Cert.FiniteInputs.xw_real x0 x2 h0 h2), intoP_eq]
  refine congrArg (fun z : EReal => ((x1K (rowW x8) (colW x8) (RowSum.xw x0 x2) (fun f => x3 (ix1 f)) n g
      + FloatOps.divf (F := Ideal) (φ := .f32) (w0 + z)
          (FloatOps.maximumf (F := Ideal) (φ := .f32)
            (w0 + ∑ _q ∈ Finset.univ.filter (fun q : Fin 800000 => (x10 (ix1 q)).toInt = (n.val : Int)), w1) w1))
    + ((∑ c : Fin 128, x0 (ix2 n c) * x6 (ix2 c g)) + x7 (ix1 g))) + Cert.RowSpec.eps1) ?_
  refine Finset.sum_congr rfl fun q _ => ?_
  rw [pickM_eq]

/-- The whole arrays agree. -/
theorem arrays_eq (h0 : ∀ i, ∃ r : ℝ, x0 i = (r : EReal)) (h2 : ∀ i, ∃ r : ℝ, x2 i = (r : EReal)) :
    Region2.G x0 (accArr (Region0.G x0 x2 (dinvCol x8)) x8) (sArr (Region1.G x1 x4 (asRow x5)) x9 x10)
        (Region0.G x0 x2 (dinvCol x8)) (dinvCol x8) (cntCol x10) x6 (asRow x7) (asRow x3)
      = Cert.ReferenceIdeal.ReadP.val_main_v95 (F := Ideal) x0 x1 x2 x3 x4 x5 x6 x7 x8 x9 x10 := by
  funext i
  obtain ⟨n, f, rfl⟩ : ∃ (n : Fin 100000) (f : Fin 128), i = ix2 n f := ⟨i 0, i 1, eq_ix2 i⟩
  rw [Region2.G_apply, Cert.RefTail.v95_apply]
  exact congrArg (fun y => Cert.RowSpec.lnRow y f) (funext fun g => row_eq x0 x1 x2 x4 x6 x3 x5 x7 x8 x9 x10 h0 h2 n g)

end

variable (m : (ℓ : Loc nD τ sig) → Buf (Elt Ideal) ℓ) (ρ : Dev nD → PrngReg) (c : Dev nD)

/-- The common value of the two runs: the reference's result term of the kernel program's argument arrays. -/
def common : Buf (Elt Ideal) ((c.tc : Thread nD τ).loc main_v49) :=
  Cert.ReferenceIdeal.ReadP.val_main_v95 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))

/-- THE KERNEL PROGRAM'S RESULT, under the precondition, is the common value. -/
theorem kernel_value [Cert.Pre_finite_inputs.Facts] (hpre : Cert.Pre_KernelIdeal m) :
    Gen.W7 m ρ c (Proc.devRef .tc main_v49) = common m c :=
  (Chain.w7_v49 m ρ c).trans
    (arrays_eq _ _ _ _ _ _ _ _ _ _ _ (Cert.FiniteInputs.arg0_real m hpre c) (Cert.FiniteInputs.arg2_real m hpre c))

end Cert.Bridge

end
-- ==== Proof.lean ====
/-
  The certificate of the node-update kernel against its reference.

  The kernel program computes, for every protein node, the layer-normalised sum of three terms: a graph-convolution
  term over the protein–protein edges, the mean of the drug messages arriving at the node, and a dense layer of the
  node's own features.  It does so in three pipelined regions (pre-scale the projected features of every node; the
  drug-side dense layer; combine and normalise every row) among host operations that count degrees, gather along
  edges and accumulate per node.  The reference computes the same three terms with host operations only, and forms
  the graph-convolution term in another arrangement: one self-loop per node appended to the edge list and each edge
  normalised on its own, where the kernel normalises the nodes first, sums the edges, and treats the self-loop
  separately.  At exact values the two arrangements agree by distributing each node's normaliser over its sum of
  edge messages, which needs the projected features to be real numbers: that is where the precondition (every float
  input finite) is used.  Everything else is formed alike by the two programs, operation by operation.

  The three frames are the programs' runs; the idealization rewrote no operation, so its claim is trivial; the value
  claim names the reference's own result term as the common value.
-/
import proofs.«174504_j2302102471104_2_alg».proof.Defs
import proofs.«174504_j2302102471104_2_alg».proof.Proof.Gen.Kernel
import proofs.«174504_j2302102471104_2_alg».proof.Proof.Gen.Kernel.Frame
import proofs.«174504_j2302102471104_2_alg».proof.Proof.Gen.KernelIdeal
import proofs.«174504_j2302102471104_2_alg».proof.Proof.Gen.KernelIdeal.Frame
import proofs.«174504_j2302102471104_2_alg».proof.Proof.Gen.ReferenceIdeal
import proofs.«174504_j2302102471104_2_alg».proof.Proof.Gen.Pre_finite_inputs
import proofs.«174504_j2302102471104_2_alg».proof.Proof.RefRunP
import proofs.«174504_j2302102471104_2_alg».proof.Proof.RefReadP
import proofs.«174504_j2302102471104_2_alg».proof.Proof.KRun
import proofs.«174504_j2302102471104_2_alg».proof.Proof.KBridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the arguments both idealized programs end with the reference's result term of the
    arguments: the kernel program by its run and the value of its last region, the reference by its run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Bridge.common m c, ?_, ?_⟩
  · exact (θ_run Cert.KernelIdeal.defs _ _).mono
      (fun r h c => ⟨(h c).1.trans (Cert.Bridge.kernel_value m ρ c hpre), (h c).2⟩)
      (Cert.KernelIdeal.Run.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9, a10⟩ := hagree c
    rw [Cert.ReferenceIdeal.ReadP.val_main_v95_eq, a0, a1, a2, a3, a4, a5, a6, a7, a8, a9, a10]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
